-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x4096 .f32) (main_arg5 : FVec F S1024 .f32) (main_arg6 : FVec F S1024 .f32) (main_arg7 : FVec F S1024 .f32) (main_arg8 : FVec F S1024 .f32) (main_arg9 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S4x2048x1024 .f32) (main_arg1 : FVec F S8 .f32) (main_arg2 : FVec F S4096x8 .f32) (main_arg3 : FVec F S4096 .f32) (main_arg4 : FVec F S1024x4096 .f32) (main_arg5 : FVec F S1024 .f32) (main_arg6 : FVec F S1024 .f32) (main_arg7 : FVec F S1024 .f32) (main_arg8 : FVec F S1024 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S4x2048x1024 : Shape := ⟨3, ![4, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S8x4096 : Shape := ⟨2, ![8, 4096]⟩
abbrev S4096x1024 : Shape := ⟨2, ![4096, 1024]⟩
abbrev S1x8 : Shape := ⟨2, ![1, 8]⟩
abbrev S1x4096 : Shape := ⟨2, ![1, 4096]⟩
abbrev S1x1024 : Shape := ⟨2, ![1, 1024]⟩
abbrev S1x2048x1024 : Shape := ⟨3, ![1, 2048, 1024]⟩
abbrev S1x256x1024 : Shape := ⟨3, ![1, 256, 1024]⟩
abbrev S256x1024 : Shape := ⟨2, ![256, 1024]⟩
abbrev S1x256x64 : Shape := ⟨3, ![1, 256, 64]⟩
abbrev S256x64 : Shape := ⟨2, ![256, 64]⟩
abbrev S1x2048x64 : Shape := ⟨3, ![1, 2048, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S256x8 : Shape := ⟨2, ![256, 8]⟩
abbrev S256x4096 : Shape := ⟨2, ![256, 4096]⟩

abbrev nBuf : Space → Nat
  | .hbm => 21
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S8x4096, .f32⟩
  | .hbm, ⟨11, _⟩ => ⟨S4096x1024, .f32⟩
  | .hbm, ⟨12, _⟩ => ⟨S4096x1024, .bf16⟩
  | .hbm, ⟨13, _⟩ => ⟨S1x8, .f32⟩
  | .hbm, ⟨14, _⟩ => ⟨S1x4096, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S4x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x8, .f32⟩
  | .local _ .vmem, ⟨3, _⟩ => ⟨S8x4096, .f32⟩
  | .local _ .vmem, ⟨4, _⟩ => ⟨S1x4096, .f32⟩
  | .local _ .vmem, ⟨5, _⟩ => ⟨S4096x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x256x1024, .f32⟩
  | .local _ .vmem, ⟨12, _⟩ => ⟨S1x256x1024, .f32⟩
  | .local _ .vmem, ⟨13, _⟩ => ⟨S256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0_0 : Index := 0#32
  ![0, v2.toNat, 0]
def k0_off2 (i : grid0.Coords) : Fin 3 → Nat :=
  let c0_10 : Index := 0#32
  let arg1 : BitVec 32 := BitVec.ofNat 32 (i 1).val
  let c256_i32 : BitVec 32 := 256#32
  let v0 : BitVec 32 := Scalar.muli arg1 c256_i32
  let v1 : BitVec 32 := v0
  let v26 : Index := Scalar.indexCast v1
  let c64 : Index := 64#32
  ![0, v26.toNat, 64]
def k0_off3 (i : grid0.Coords) : Fin 3 → Nat :=
  let c0_21 : Index := 0#32
  let arg1 : BitVec 32 := BitVec.ofNat 32 (i 1).val
  let c256_i32 : BitVec 32 := 256#32
  let v0 : BitVec 32 := Scalar.muli arg1 c256_i32
  let v1 : BitVec 32 := v0
  let v50 : Index := Scalar.indexCast v1
  let c128 : Index := 128#32
  ![0, v50.toNat, 128]
def k0_off4 (i : grid0.Coords) : Fin 3 → Nat :=
  let c0_32 : Index := 0#32
  let arg1 : BitVec 32 := BitVec.ofNat 32 (i 1).val
  let c256_i32 : BitVec 32 := 256#32
  let v0 : BitVec 32 := Scalar.muli arg1 c256_i32
  let v1 : BitVec 32 := v0
  let v74 : Index := Scalar.indexCast v1
  let c192 : Index := 192#32
  ![0, v74.toNat, 192]
def k0_off5 (i : grid0.Coords) : Fin 3 → Nat :=
  let c0_43 : Index := 0#32
  let arg1 : BitVec 32 := BitVec.ofNat 32 (i 1).val
  let c256_i32 : BitVec 32 := 256#32
  let v0 : BitVec 32 := Scalar.muli arg1 c256_i32
  let v1 : BitVec 32 := v0
  let v98 : Index := Scalar.indexCast v1
  let c256 : Index := 256#32
  ![0, v98.toNat, 256]
def k0_off6 (i : grid0.Coords) : Fin 3 → Nat :=
  let c0_54 : Index := 0#32
  let arg1 : BitVec 32 := BitVec.ofNat 32 (i 1).val
  let c256_i32 : BitVec 32 := 256#32
  let v0 : BitVec 32 := Scalar.muli arg1 c256_i32
  let v1 : BitVec 32 := v0
  let v122 : Index := Scalar.indexCast v1
  let c320 : Index := 320#32
  ![0, v122.toNat, 320]
def k0_off7 (i : grid0.Coords) : Fin 3 → Nat :=
  let c0_65 : Index := 0#32
  let arg1 : BitVec 32 := BitVec.ofNat 32 (i 1).val
  let c256_i32 : BitVec 32 := 256#32
  let v0 : BitVec 32 := Scalar.muli arg1 c256_i32
  let v1 : BitVec 32 := v0
  let v146 : Index := Scalar.indexCast v1
  let c384 : Index := 384#32
  ![0, v146.toNat, 384]
def k0_off8 (i : grid0.Coords) : Fin 3 → Nat :=
  let c0_76 : Index := 0#32
  let arg1 : BitVec 32 := BitVec.ofNat 32 (i 1).val
  let c256_i32 : BitVec 32 := 256#32
  let v0 : BitVec 32 := Scalar.muli arg1 c256_i32
  let v1 : BitVec 32 := v0
  let v170 : Index := Scalar.indexCast v1
  let c448 : Index := 448#32
  ![0, v170.toNat, 448]
def k0_off9 (i : grid0.Coords) : Fin 3 → Nat :=
  let c0_87 : Index := 0#32
  let arg1 : BitVec 32 := BitVec.ofNat 32 (i 1).val
  let c256_i32 : BitVec 32 := 256#32
  let v0 : BitVec 32 := Scalar.muli arg1 c256_i32
  let v1 : BitVec 32 := v0
  let v194 : Index := Scalar.indexCast v1
  let c512 : Index := 512#32
  ![0, v194.toNat, 512]
def k0_off10 (i : grid0.Coords) : Fin 3 → Nat :=
  let c0_98 : Index := 0#32
  let arg1 : BitVec 32 := BitVec.ofNat 32 (i 1).val
  let c256_i32 : BitVec 32 := 256#32
  let v0 : BitVec 32 := Scalar.muli arg1 c256_i32
  let v1 : BitVec 32 := v0
  let v218 : Index := Scalar.indexCast v1
  let c576 : Index := 576#32
  ![0, v218.toNat, 576]
def k0_off11 (i : grid0.Coords) : Fin 3 → Nat :=
  let c0_109 : Index := 0#32
  let arg1 : BitVec 32 := BitVec.ofNat 32 (i 1).val
  let c256_i32 : BitVec 32 := 256#32
  let v0 : BitVec 32 := Scalar.muli arg1 c256_i32
  let v1 : BitVec 32 := v0
  let v242 : Index := Scalar.indexCast v1
  let c640 : Index := 640#32
  ![0, v242.toNat, 640]
def k0_off12 (i : grid0.Coords) : Fin 3 → Nat :=
  let c0_120 : Index := 0#32
  let arg1 : BitVec 32 := BitVec.ofNat 32 (i 1).val
  let c256_i32 : BitVec 32 := 256#32
  let v0 : BitVec 32 := Scalar.muli arg1 c256_i32
  let v1 : BitVec 32 := v0
  let v266 : Index := Scalar.indexCast v1
  let c704 : Index := 704#32
  ![0, v266.toNat, 704]
def k0_off13 (i : grid0.Coords) : Fin 3 → Nat :=
  let c0_131 : Index := 0#32
  let arg1 : BitVec 32 := BitVec.ofNat 32 (i 1).val
  let c256_i32 : BitVec 32 := 256#32
  let v0 : BitVec 32 := Scalar.muli arg1 c256_i32
  let v1 : BitVec 32 := v0
  let v290 : Index := Scalar.indexCast v1
  let c768 : Index := 768#32
  ![0, v290.toNat, 768]
def k0_off14 (i : grid0.Coords) : Fin 3 → Nat :=
  let c0_142 : Index := 0#32
  let arg1 : BitVec 32 := BitVec.ofNat 32 (i 1).val
  let c256_i32 : BitVec 32 := 256#32
  let v0 : BitVec 32 := Scalar.muli arg1 c256_i32
  let v1 : BitVec 32 := v0
  let v314 : Index := Scalar.indexCast v1
  let c832 : Index := 832#32
  ![0, v314.toNat, 832]
def k0_off15 (i : grid0.Coords) : Fin 3 → Nat :=
  let c0_153 : Index := 0#32
  let arg1 : BitVec 32 := BitVec.ofNat 32 (i 1).val
  let c256_i32 : BitVec 32 := 256#32
  let v0 : BitVec 32 := Scalar.muli arg1 c256_i32
  let v1 : BitVec 32 := v0
  let v338 : Index := Scalar.indexCast v1
  let c896 : Index := 896#32
  ![0, v338.toNat, 896]
def k0_off16 (i : grid0.Coords) : Fin 3 → Nat :=
  let c0_164 : Index := 0#32
  let arg1 : BitVec 32 := BitVec.ofNat 32 (i 1).val
  let c256_i32 : BitVec 32 := 256#32
  let v0 : BitVec 32 := Scalar.muli arg1 c256_i32
  let v1 : BitVec 32 := v0
  let v362 : Index := Scalar.indexCast v1
  let c960 : Index := 960#32
  ![0, v362.toNat, 960]
def k0_off17 (i : grid0.Coords) : Fin 3 → Nat :=
  let c0_175 : Index := 0#32
  let arg1 : BitVec 32 := BitVec.ofNat 32 (i 1).val
  let c256_i32 : BitVec 32 := 256#32
  let v0 : BitVec 32 := Scalar.muli arg1 c256_i32
  let v1 : BitVec 32 := v0
  let v386 : Index := Scalar.indexCast v1
  let c0_176 : Index := 0#32
  ![0, v386.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  transposes_S4096x8_S8x4096_1_0 : S4096x8.Transposes [1, 0] S8x4096
  transposes_S1024x4096_S4096x1024_1_0 : S1024x4096.Transposes [1, 0] S4096x1024
  bitsLt_bf16_f32 : FTy.bits .bf16 < FTy.bits .f32
  shapeCasts_S8_S1x8 : S8.ShapeCasts S1x8
  shapeCasts_S4096_S1x4096 : S4096.ShapeCasts S1x4096
  shapeCasts_S1024_S1x1024 : S1024.ShapeCasts S1x1024
  h_S1x256x64 : 0 < S1x256x64.numel
  shapeCasts_S1x256x64_S256x64 : S1x256x64.ShapeCasts S256x64
  inb_S1x2048x1024_S1x2048x64_0_0_0 : ∀ a, (![0, 0, 0] : Fin 3 → Nat) a + S1x2048x64.size a ≤ S1x2048x1024.size a
  h_S1x2048x64 : 0 < S1x2048x64.numel
  shapeCasts_S1x2048x64_S2048x64 : S1x2048x64.ShapeCasts S2048x64
  reduces_S256x2048_S256 : S256x2048.Reduces [1] S256
  shapeCasts_S256_S256x1 : S256.ShapeCasts S256x1
  broadcasts_S256x1_S256x2048 : S256x1.Broadcasts S256x2048
  inb_S256x1024_S256x64_0_0 : ∀ a, (![0, 0] : Fin 2 → Nat) a + S256x64.size a ≤ S256x1024.size a
  h_S256x64 : 0 < S256x64.numel
  shapeCasts_S256x64_S256x64 : S256x64.ShapeCasts S256x64
  inb_S1x2048x1024_S1x2048x64_0_0_64 : ∀ a, (![0, 0, 64] : Fin 3 → Nat) a + S1x2048x64.size a ≤ S1x2048x1024.size a
  inb_S256x1024_S256x64_0_64 : ∀ a, (![0, 64] : Fin 2 → Nat) a + S256x64.size a ≤ S256x1024.size a
  inb_S1x2048x1024_S1x2048x64_0_0_128 : ∀ a, (![0, 0, 128] : Fin 3 → Nat) a + S1x2048x64.size a ≤ S1x2048x1024.size a
  inb_S256x1024_S256x64_0_128 : ∀ a, (![0, 128] : Fin 2 → Nat) a + S256x64.size a ≤ S256x1024.size a
  inb_S1x2048x1024_S1x2048x64_0_0_192 : ∀ a, (![0, 0, 192] : Fin 3 → Nat) a + S1x2048x64.size a ≤ S1x2048x1024.size a
  inb_S256x1024_S256x64_0_192 : ∀ a, (![0, 192] : Fin 2 → Nat) a + S256x64.size a ≤ S256x1024.size a
  inb_S1x2048x1024_S1x2048x64_0_0_256 : ∀ a, (![0, 0, 256] : Fin 3 → Nat) a + S1x2048x64.size a ≤ S1x2048x1024.size a
  inb_S256x1024_S256x64_0_256 : ∀ a, (![0, 256] : Fin 2 → Nat) a + S256x64.size a ≤ S256x1024.size a
  inb_S1x2048x1024_S1x2048x64_0_0_320 : ∀ a, (![0, 0, 320] : Fin 3 → Nat) a + S1x2048x64.size a ≤ S1x2048x1024.size a
  inb_S256x1024_S256x64_0_320 : ∀ a, (![0, 320] : Fin 2 → Nat) a + S256x64.size a ≤ S256x1024.size a
  inb_S1x2048x1024_S1x2048x64_0_0_384 : ∀ a, (![0, 0, 384] : Fin 3 → Nat) a + S1x2048x64.size a ≤ S1x2048x1024.size a
  inb_S256x1024_S256x64_0_384 : ∀ a, (![0, 384] : Fin 2 → Nat) a + S256x64.size a ≤ S256x1024.size a
  inb_S1x2048x1024_S1x2048x64_0_0_448 : ∀ a, (![0, 0, 448] : Fin 3 → Nat) a + S1x2048x64.size a ≤ S1x2048x1024.size a
  inb_S256x1024_S256x64_0_448 : ∀ a, (![0, 448] : Fin 2 → Nat) a + S256x64.size a ≤ S256x1024.size a
  inb_S1x2048x1024_S1x2048x64_0_0_512 : ∀ a, (![0, 0, 512] : Fin 3 → Nat) a + S1x2048x64.size a ≤ S1x2048x1024.size a
  inb_S256x1024_S256x64_0_512 : ∀ a, (![0, 512] : Fin 2 → Nat) a + S256x64.size a ≤ S256x1024.size a
  inb_S1x2048x1024_S1x2048x64_0_0_576 : ∀ a, (![0, 0, 576] : Fin 3 → Nat) a + S1x2048x64.size a ≤ S1x2048x1024.size a
  inb_S256x1024_S256x64_0_576 : ∀ a, (![0, 576] : Fin 2 → Nat) a + S256x64.size a ≤ S256x1024.size a
  inb_S1x2048x1024_S1x2048x64_0_0_640 : ∀ a, (![0, 0, 640] : Fin 3 → Nat) a + S1x2048x64.size a ≤ S1x2048x1024.size a
  inb_S256x1024_S256x64_0_640 : ∀ a, (![0, 640] : Fin 2 → Nat) a + S256x64.size a ≤ S256x1024.size a
  inb_S1x2048x1024_S1x2048x64_0_0_704 : ∀ a, (![0, 0, 704] : Fin 3 → Nat) a + S1x2048x64.size a ≤ S1x2048x1024.size a
  inb_S256x1024_S256x64_0_704 : ∀ a, (![0, 704] : Fin 2 → Nat) a + S256x64.size a ≤ S256x1024.size a
  inb_S1x2048x1024_S1x2048x64_0_0_768 : ∀ a, (![0, 0, 768] : Fin 3 → Nat) a + S1x2048x64.size a ≤ S1x2048x1024.size a
  inb_S256x1024_S256x64_0_768 : ∀ a, (![0, 768] : Fin 2 → Nat) a + S256x64.size a ≤ S256x1024.size a
  inb_S1x2048x1024_S1x2048x64_0_0_832 : ∀ a, (![0, 0, 832] : Fin 3 → Nat) a + S1x2048x64.size a ≤ S1x2048x1024.size a
  inb_S256x1024_S256x64_0_832 : ∀ a, (![0, 832] : Fin 2 → Nat) a + S256x64.size a ≤ S256x1024.size a
  inb_S1x2048x1024_S1x2048x64_0_0_896 : ∀ a, (![0, 0, 896] : Fin 3 → Nat) a + S1x2048x64.size a ≤ S1x2048x1024.size a
  inb_S256x1024_S256x64_0_896 : ∀ a, (![0, 896] : Fin 2 → Nat) a + S256x64.size a ≤ S256x1024.size a
  inb_S1x2048x1024_S1x2048x64_0_0_960 : ∀ a, (![0, 0, 960] : Fin 3 → Nat) a + S1x2048x64.size a ≤ S1x2048x1024.size a
  inb_S256x1024_S256x64_0_960 : ∀ a, (![0, 960] : Fin 2 → Nat) a + S256x64.size a ≤ S256x1024.size a
  h_S1x256x1024 : 0 < S1x256x1024.numel
  shapeCasts_S1x256x1024_S256x1024 : S1x256x1024.ShapeCasts S256x1024
  inb_S256x1024_S256x1024_0_0 : ∀ a, (![0, 0] : Fin 2 → Nat) a + S256x1024.size a ≤ S256x1024.size a
  h_S256x1024 : 0 < S256x1024.numel
  reduces_S256x1024_S256 : S256x1024.Reduces [1] S256
  broadcasts_S256x1_S256x1024 : S256x1.Broadcasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S256x1024_o0_0_S256x8 : S256x1024.Slices ![0, 0] S256x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S256x8 : S1x8.Broadcasts S256x8
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x8_S8x4096_S256x4096_1_0_0_1_n_n_wf : DotDims.WF S256x8 S8x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x256x64.size a ≤ S1x2048x1024.size a
  k0_off2_inb : ∀ i : grid0.Coords, ∀ a, (k0_off2 i) a + S1x256x64.size a ≤ S1x2048x1024.size a
  k0_off3_inb : ∀ i : grid0.Coords, ∀ a, (k0_off3 i) a + S1x256x64.size a ≤ S1x2048x1024.size a
  k0_off4_inb : ∀ i : grid0.Coords, ∀ a, (k0_off4 i) a + S1x256x64.size a ≤ S1x2048x1024.size a
  k0_off5_inb : ∀ i : grid0.Coords, ∀ a, (k0_off5 i) a + S1x256x64.size a ≤ S1x2048x1024.size a
  k0_off6_inb : ∀ i : grid0.Coords, ∀ a, (k0_off6 i) a + S1x256x64.size a ≤ S1x2048x1024.size a
  k0_off7_inb : ∀ i : grid0.Coords, ∀ a, (k0_off7 i) a + S1x256x64.size a ≤ S1x2048x1024.size a
  k0_off8_inb : ∀ i : grid0.Coords, ∀ a, (k0_off8 i) a + S1x256x64.size a ≤ S1x2048x1024.size a
  k0_off9_inb : ∀ i : grid0.Coords, ∀ a, (k0_off9 i) a + S1x256x64.size a ≤ S1x2048x1024.size a
  k0_off10_inb : ∀ i : grid0.Coords, ∀ a, (k0_off10 i) a + S1x256x64.size a ≤ S1x2048x1024.size a
  k0_off11_inb : ∀ i : grid0.Coords, ∀ a, (k0_off11 i) a + S1x256x64.size a ≤ S1x2048x1024.size a
  k0_off12_inb : ∀ i : grid0.Coords, ∀ a, (k0_off12 i) a + S1x256x64.size a ≤ S1x2048x1024.size a
  k0_off13_inb : ∀ i : grid0.Coords, ∀ a, (k0_off13 i) a + S1x256x64.size a ≤ S1x2048x1024.size a
  k0_off14_inb : ∀ i : grid0.Coords, ∀ a, (k0_off14 i) a + S1x256x64.size a ≤ S1x2048x1024.size a
  k0_off15_inb : ∀ i : grid0.Coords, ∀ a, (k0_off15 i) a + S1x256x64.size a ≤ S1x2048x1024.size a
  k0_off16_inb : ∀ i : grid0.Coords, ∀ a, (k0_off16 i) a + S1x256x64.size a ≤ S1x2048x1024.size a
  k0_off17_inb : ∀ i : grid0.Coords, ∀ a, (k0_off17 i) a + S1x256x1024.size a ≤ S1x2048x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1024.size a ≤ S4x2048x1024.size a
  hwx0_10 : ∀ i : grid0.Coords, EltTy.bits .f32 = 32 ∨ (Rect.block (s := S4x2048x1024) S1x256x1024.size (cc0_transform_10 i) (hinb0_10 i)).WholeWords (EltTy.packing .f32)

variable [Facts₀]

def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x8_S8x4096_S256x4096_1_0_0_1_n_n : DotDims S256x8 S8x4096 S256x4096 where
  lhsContracting := [1]
  rhsContracting := [0]
  lhsNonContracting := [0]
  rhsNonContracting := [1]
  lhsBatch := []
  rhsBatch := []
  wf := dot_S256x8_S8x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S8 : Shape := ⟨1, ![8]⟩
abbrev S4096x8 : Shape := ⟨2, ![4096, 8]⟩
abbrev S4096 : Shape := ⟨1, ![4096]⟩
abbrev S1024x4096 : Shape := ⟨2, ![1024, 4096]⟩
abbrev S1024 : Shape := ⟨1, ![1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048 : Shape := ⟨2, ![4, 2048]⟩
abbrev S4x2048x1 : Shape := ⟨3, ![4, 2048, 1]⟩
abbrev S1x1x1024 : Shape := ⟨3, ![1, 1, 1024]⟩
abbrev S4x2048x8 : Shape := ⟨3, ![4, 2048, 8]⟩
abbrev S1x1x8 : Shape := ⟨3, ![1, 1, 8]⟩
abbrev S4x2048x4096 : Shape := ⟨3, ![4, 2048, 4096]⟩
abbrev S1x1x4096 : Shape := ⟨3, ![1, 1, 4096]⟩

abbrev nBuf : Space → Nat
  | .hbm => 110
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S8, .f32⟩
  | .hbm, ⟨2, _⟩ => ⟨S4096x8, .f32⟩
  | .hbm, ⟨3, _⟩ => ⟨S4096, .f32⟩
  | .hbm, ⟨4, _⟩ => ⟨S1024x4096, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S4x2048x16x64, .f32⟩
  | .hbm, ⟨11, _⟩ => ⟨S4x16x2048x64, .f32⟩
  | .hbm, ⟨12, _⟩ => ⟨S4x16x2048x2048, .f32⟩
  | .hbm, ⟨13, _⟩ => ⟨S_, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S_, .f32⟩
  | .hbm, ⟨19, _⟩ => ⟨S4x16x2048, .f32⟩
  | .hbm, ⟨20, _⟩ => ⟨S4x16x2048, .f32⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S_, .f32⟩
  | .hbm, ⟨26, _⟩ => ⟨S4x16x2048, .f32⟩
  | .hbm, ⟨27, _⟩ => ⟨S4x16x2048x1, .f32⟩
  | .hbm, ⟨28, _⟩ => ⟨S4x16x2048x2048, .f32⟩
  | .hbm, ⟨29, _⟩ => ⟨S4x16x2048x2048, .f32⟩
  | .hbm, ⟨30, _⟩ => ⟨S4x16x2048x64, .f32⟩
  | .hbm, ⟨31, _⟩ => ⟨S4x2048x16x64, .f32⟩
  | .hbm, ⟨32, _⟩ => ⟨S4x2048x1024, .f32⟩
  | .hbm, ⟨33, _⟩ => ⟨S4x2048x1024, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S_, .f32⟩
  | .hbm, ⟨38, _⟩ => ⟨S4x2048x1, .f32⟩
  | .hbm, ⟨39, _⟩ => ⟨S4x2048x1, .f32⟩
  | .hbm, ⟨40, _⟩ => ⟨S4x2048x1024, .f32⟩
  | .hbm, ⟨41, _⟩ => ⟨S4x2048x1024, .f32⟩
  | .hbm, ⟨42, _⟩ => ⟨S4x2048x1024, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x1, .f32⟩
  | .hbm, ⟨55, _⟩ => ⟨S4x2048x1024, .f32⟩
  | .hbm, ⟨56, _⟩ => ⟨S4x2048x1024, .f32⟩
  | .hbm, ⟨57, _⟩ => ⟨S1x1x1024, .f32⟩
  | .hbm, ⟨58, _⟩ => ⟨S4x2048x1024, .f32⟩
  | .hbm, ⟨59, _⟩ => ⟨S4x2048x1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | .hbm, ⟨63, _⟩ => ⟨S4x2048x8, .f32⟩
  | .hbm, ⟨64, _⟩ => ⟨S4x2048x8, .f32⟩
  | .hbm, ⟨65, _⟩ => ⟨S8, .f32⟩
  | .hbm, ⟨66, _⟩ => ⟨S1x1x8, .f32⟩
  | .hbm, ⟨67, _⟩ => ⟨S4x2048x8, .f32⟩
  | .hbm, ⟨68, _⟩ => ⟨S4x2048x8, .f32⟩
  | .hbm, ⟨69, _⟩ => ⟨S4x2048x4096, .f32⟩
  | .hbm, ⟨70, _⟩ => ⟨S1x1x4096, .f32⟩
  | .hbm, ⟨71, _⟩ => ⟨S4x2048x4096, .f32⟩
  | .hbm, ⟨72, _⟩ => ⟨S4x2048x4096, .f32⟩
  | .hbm, ⟨73, _⟩ => ⟨S_, .f32⟩
  | .hbm, ⟨74, _⟩ => ⟨S4x2048x4096, .f32⟩
  | .hbm, ⟨75, _⟩ => ⟨S4x2048x4096, .f32⟩
  | .hbm, ⟨76, _⟩ => ⟨S4x2048x1024, .f32⟩
  | .hbm, ⟨77, _⟩ => ⟨S1x1x1024, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S_, .f32⟩
  | .hbm, ⟨82, _⟩ => ⟨S4x2048, .f32⟩
  | .hbm, ⟨83, _⟩ => ⟨S4x2048x1, .f32⟩
  | .hbm, ⟨84, _⟩ => ⟨S_, .f32⟩
  | .hbm, ⟨85, _⟩ => ⟨S4x2048x1, .f32⟩
  | .hbm, ⟨86, _⟩ => ⟨S4x2048x1, .f32⟩
  | .hbm, ⟨87, _⟩ => ⟨S4x2048x1024, .f32⟩
  | .hbm, ⟨88, _⟩ => ⟨S4x2048x1024, .f32⟩
  | .hbm, ⟨89, _⟩ => ⟨S4x2048x1024, .f32⟩
  | .hbm, ⟨90, _⟩ => ⟨S_, .f32⟩
  | .hbm, ⟨91, _⟩ => ⟨S4x2048, .f32⟩
  | .hbm, ⟨92, _⟩ => ⟨S4x2048x1, .f32⟩
  | .hbm, ⟨93, _⟩ => ⟨S_, .f32⟩
  | .hbm, ⟨94, _⟩ => ⟨S4x2048x1, .f32⟩
  | .hbm, ⟨95, _⟩ => ⟨S4x2048x1, .f32⟩
  | .hbm, ⟨96, _⟩ => ⟨S4x2048x1024, .f32⟩
  | .hbm, ⟨97, _⟩ => ⟨S4x2048x1024, .f32⟩
  | .hbm, ⟨98, _⟩ => ⟨S_, .f32⟩
  | .hbm, ⟨99, _⟩ => ⟨S4x2048x1, .f32⟩
  | .hbm, ⟨100, _⟩ => ⟨S4x2048x1, .f32⟩
  | .hbm, ⟨101, _⟩ => ⟨S4x2048x1, .f32⟩
  | .hbm, ⟨102, _⟩ => ⟨S4x2048x1024, .f32⟩
  | .hbm, ⟨103, _⟩ => ⟨S4x2048x1024, .f32⟩
  | .hbm, ⟨104, _⟩ => ⟨S1x1x1024, .f32⟩
  | .hbm, ⟨105, _⟩ => ⟨S4x2048x1024, .f32⟩
  | .hbm, ⟨106, _⟩ => ⟨S4x2048x1024, .f32⟩
  | .hbm, ⟨107, _⟩ => ⟨S1x1x1024, .f32⟩
  | .hbm, ⟨108, _⟩ => ⟨S4x2048x1024, .f32⟩
  | .hbm, ⟨109, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_call0_cst : Ref sig .tc := ⟨.hbm, 73, rfl⟩
abbrev main_call0_v0 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  slices_S4x2048x1024_S4x2048x8_0_0_0 : S4x2048x1024.Slices ![0, 0, 0] S4x2048x8
  bcast_S8_S1x1x8_2 : S8.BroadcastsInDim S1x1x8 (![2] : Fin 1 → Fin S1x1x8.rank)
  bcast_S1x1x8_S4x2048x8_0_1_2 : S1x1x8.BroadcastsInDim S4x2048x8 (![0, 1, 2] : Fin 3 → Fin S4x2048x8.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x8_S4096x8_S4x2048x4096_2_1_01_0_n_n_wf : DotDims.WF S4x2048x8 S4096x8 S4x2048x4096 [2] [1] [0, 1] [0] [] []
  dot_S4x2048x4096_S1024x4096_S4x2048x1024_2_1_01_0_n_n_wf : DotDims.WF S4x2048x4096 S1024x4096 S4x2048x1024 [2] [1] [0, 1] [0] [] []

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf
def dot_S4x2048x4096_S1024x4096_S4x2048x1024_2_1_01_0_n_n : DotDims S4x2048x4096 S1024x4096 S4x2048x1024 where
  lhsContracting := [2]
  rhsContracting := [1]
  lhsNonContracting := [0, 1]
  rhsNonContracting := [0]
  lhsBatch := []
  rhsBatch := []
  wf := dot_S4x2048x4096_S1024x4096_S4x2048x1024_2_1_01_0_n_n_wf

class Facts : Prop extends Facts₀ where

variable [Facts]
-- ==== Proof.Spec.lean ====
/-
  The layer as one function of its arguments, entry by entry, on the extended reals.

  A token's row of the batch's slab `X : Fin 2048 → Fin 1024 → EReal` is split into 16 heads of 64 columns.  In
  head `h` the score of row `s` against row `k` is `(Σ_d X s (64h+d) · X k (64h+d)) · 1/8`; the scores of a row are
  turned into weights by the stable softmax (subtract the row maximum, exponentiate, divide by the sum), and the
  head's output is the weighted sum of the rows' head columns.  The attention output is added to the row, the sum
  is layer-normalised, the first eight normalised entries feed `cos · cos θ` into a two-layer perceptron with a
  rectifier, the perceptron's output is added back, and the result is layer-normalised again.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The words the programs spell: 1/8, -∞, 1024, the variance's ε, 0. -/
abbrev c8 : EReal := Ideal.ofBits .f32 0x3E000000#32
abbrev cninf : EReal := Ideal.ofBits .f32 0xFF800000#32
abbrev c1024 : EReal := Ideal.ofBits .f32 0x44800000#32
abbrev ceps : EReal := Ideal.ofBits .f32 0x3727C5AC#32

/-! ## One attention head, for one query row `q` against the key rows `K` -/

/-- The scaled score of the query against key row `k`. -/
def hsc (q : Fin 64 → EReal) (K : Fin 2048 → Fin 64 → EReal) (k : Fin 2048) : EReal :=
  (∑ d : Fin 64, q d * K k d) * c8

/-- The largest score of the row. -/
def hmx (q : Fin 64 → EReal) (K : Fin 2048 → Fin 64 → EReal) : EReal :=
  (Finset.univ : Finset (Fin 2048)).fold max cninf (fun k => hsc q K k)

/-- The exponential of a score less the row's maximum. -/
def hpe (q : Fin 64 → EReal) (K : Fin 2048 → Fin 64 → EReal) (k : Fin 2048) : EReal :=
  Ideal.exp (hsc q K k - hmx q K)

/-- The softmax denominator. -/
def hden (q : Fin 64 → EReal) (K : Fin 2048 → Fin 64 → EReal) : EReal :=
  ∑ k : Fin 2048, hpe q K k

/-- The head's output: the softmax-weighted sum of the key rows. -/
def hout (q : Fin 64 → EReal) (K : Fin 2048 → Fin 64 → EReal) (d : Fin 64) : EReal :=
  ∑ k : Fin 2048, Ideal.div (hpe q K k) (hden q K) * K k d

/-! ## The slab: heads are groups of 64 columns -/

/-- Column `d` of head `h`. -/
def colOf (h : Fin 16) (d : Fin 64) : Fin 1024 :=
  ⟨h.val * 64 + d.val, by have := h.isLt; have := d.isLt; omega⟩

/-- The head a column belongs to, and its place inside it. -/
def headOf (e : Fin 1024) : Fin 16 := ⟨e.val / 64, by have := e.isLt; omega⟩
def laneOf (e : Fin 1024) : Fin 64 := ⟨e.val % 64, Nat.mod_lt _ (by norm_num)⟩

theorem colOf_head_lane (e : Fin 1024) : colOf (headOf e) (laneOf e) = e :=
  Fin.ext (by show e.val / 64 * 64 + e.val % 64 = e.val; omega)

/-- The attention output of slab row `s` at column `e`. -/
def att (X : Fin 2048 → Fin 1024 → EReal) (s : Fin 2048) (e : Fin 1024) : EReal :=
  hout (fun d => X s (colOf (headOf e) d)) (fun k d => X k (colOf (headOf e) d)) (laneOf e)

/-! ## Layer normalisation of a row of 1024 entries -/

def mean (v : Fin 1024 → EReal) : EReal := Ideal.div (∑ e : Fin 1024, v e) c1024

def lnorm (v g b : Fin 1024 → EReal) (e : Fin 1024) : EReal :=
  (v e - mean v) * Ideal.rsqrt (Ideal.div (∑ e' : Fin 1024, (v e' - mean v) * (v e' - mean v)) c1024 + ceps) * g e + b e

/-! ## The perceptron on the first eight normalised entries -/

def lead (q : Fin 8) : Fin 1024 := ⟨q.val, by have := q.isLt; omega⟩

def qo (h : Fin 1024 → EReal) (th : Fin 8 → EReal) (q : Fin 8) : EReal :=
  Ideal.cos (h (lead q)) * Ideal.cos (th q)

def hid (h : Fin 1024 → EReal) (th : Fin 8 → EReal) (w1t : Fin 8 → Fin 4096 → EReal) (b1 : Fin 4096 → EReal)
    (f : Fin 4096) : EReal :=
  max ((∑ q : Fin 8, qo h th q * w1t q f) + b1 f) (Ideal.ofBits .f32 0x00000000#32)

def ffn (h : Fin 1024 → EReal) (th : Fin 8 → EReal) (w1t : Fin 8 → Fin 4096 → EReal) (b1 : Fin 4096 → EReal)
    (w2t : Fin 4096 → Fin 1024 → EReal) (b2 : Fin 1024 → EReal) (e : Fin 1024) : EReal :=
  (∑ f : Fin 4096, hid h th w1t b1 f * w2t f e) + b2 e

/-! ## A whole row, from the row `x` itself and its attention output `a` -/

def rowOut (x a : Fin 1024 → EReal) (th : Fin 8 → EReal) (w1t : Fin 8 → Fin 4096 → EReal) (b1 : Fin 4096 → EReal)
    (w2t : Fin 4096 → Fin 1024 → EReal) (b2 g1 be1 g2 be2 : Fin 1024 → EReal) (e : Fin 1024) : EReal :=
  lnorm (fun e' => lnorm (fun e'' => x e'' + a e'') g1 be1 e'
      + ffn (lnorm (fun e'' => x e'' + a e'') g1 be1) th w1t b1 w2t b2 e') g2 be2 e

/-! ## The whole result array, from the ten argument arrays -/

/-- Entry `(b, s, e)` of the result: row `s` of batch `b`'s slab, its attention output, and the parameters
    (the two weight matrices read transposed: `w1 f q`, `w2 e f`). -/
def G (x : (⟨3, ![4, 2048, 1024]⟩ : Shape).Idx → EReal) (th : (⟨1, ![8]⟩ : Shape).Idx → EReal)
    (w1 : (⟨2, ![4096, 8]⟩ : Shape).Idx → EReal) (b1 : (⟨1, ![4096]⟩ : Shape).Idx → EReal)
    (w2 : (⟨2, ![1024, 4096]⟩ : Shape).Idx → EReal) (b2 g1 be1 g2 be2 : (⟨1, ![1024]⟩ : Shape).Idx → EReal) :
    (⟨3, ![4, 2048, 1024]⟩ : Shape).Idx → EReal := fun i =>
  rowOut (fun e => x (ix3 (i 0) (i 1) e)) (att (fun s e => x (ix3 (i 0) s e)) (i 1))
    (fun q => th (ix1 q)) (fun q f => w1 (ix2 f q)) (fun f => b1 (ix1 f)) (fun f e => w2 (ix2 e f))
    (fun e => b2 (ix1 e)) (fun e => g1 (ix1 e)) (fun e => be1 (ix1 e)) (fun e => g2 (ix1 e)) (fun e => be2 (ix1 e)) (i 2)

end Cert.Spec

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.KHead.lean ====
/-
  One attention head of the kernel's body, read entry by entry.

  The body loads the query tile (256 rows of the head's 64 columns) and the key slab (all 2048 rows of the same
  columns), multiplies the tile by the transposed slab, scales by 1/8, and applies the stable softmax along each
  row before multiplying by the slab again.  At row `r` and lane `d` this is `Spec.hout` of the tile's row `r`
  against the slab.
-/
import proofs.«138895_j65481071410061_2_alg».proof.Proof.Gen.KernelIdeal.Skeleton
import proofs.«138895_j65481071410061_2_alg».proof.Proof.Spec
import proofs.«138895_j65481071410061_2_alg».proof.Proof.LibMatmulT
import proofs.«138895_j65481071410061_2_alg».proof.Proof.LibMatmulPlain
import proofs.«138895_j65481071410061_2_alg».proof.Proof.LibRowReduce
import proofs.«138895_j65481071410061_2_alg».proof.Proof.LibKeepdims
import Idealize.ShloMosaic.Lib.Pipeline.Value
import Idealize.ShloMosaic.Lib.ValueIdx

noncomputable section

namespace Cert.KHead

open Idealize.ShloMosaic Idealize.ShloMosaic.ValueIdx Cert.KernelIdeal Cert.KernelIdeal.Gen Cert.Spec

/-- A block with a leading unit axis, cast to the matrix without it, reads the same entry. -/
theorem cast_drop_unit {a b : ℕ} {α : Type} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

/-- The scaled scores of the tile against the slab. -/
def scoresV (v3 : FVec Ideal S1x256x64 .f32) (v6 : FVec Ideal S1x2048x64 .f32) : FVec Ideal S256x2048 .f32 :=
  mulf (matmul dot_S256x64_S2048x64_S256x2048_1_1_0_0_n_n none
      (truncf .bf16 (shapeCast S256x64 v3 shapeCasts_S1x256x64_S256x64) bitsLt_bf16_f32)
      (truncf .bf16 (shapeCast S2048x64 v6 shapeCasts_S1x2048x64_S2048x64) bitsLt_bf16_f32)
      (constant S256x2048 .f32 0x00000000#32))
    (broadcast S256x2048 (Scalar.ofBits .f32 0x3E000000#32))

theorem scoresV_apply (v3 : FVec Ideal S1x256x64 .f32) (v6 : FVec Ideal S1x2048x64 .f32) (r : Fin 256) (k : Fin 2048) :
    scoresV v3 v6 (ix2 r k) = hsc (fun d => v3 (ix3 (0 : Fin 1) r d)) (fun k' d => v6 (ix3 (0 : Fin 1) k' d)) k := by
  unfold scoresV hsc
  rw [mulf_apply, broadcast_apply]
  refine congrArg (· * _) ?_
  refine (MatmulT.matmul_zero_apply (M := 256) (K := 64) (N := 2048) dot_S256x64_S2048x64_S256x2048_1_1_0_0_n_n_wf none _ _ r k).trans ?_
  refine Finset.sum_congr rfl fun d _ => ?_
  rw [truncf_apply, truncf_apply, cast_drop_unit, cast_drop_unit]

/-- The row maxima of a 256 × 2048 tile, from -∞. -/
theorem rowMax_tile (src : FVec Ideal S256x2048 .f32) (r : Fin 256) :
    multiReduction .maximumf [1] S256 src 0xFF800000#32 reduces_S256x2048_S256 (.inl rfl) rfl (ix1 r)
      = (Finset.univ : Finset (Fin 2048)).fold max cninf (fun k => src (ix2 r k)) :=
  RowReduce.rowMax_apply (a := 256) (b := 2048) src _ _ _ _ r

/-- The row sums of a 256 × 2048 tile. -/
theorem rowSum_tile (src : FVec Ideal S256x2048 .f32) (r : Fin 256) :
    multiReduction .add [1] S256 src 0x00000000#32 reduces_S256x2048_S256 (.inl rfl) rfl (ix1 r) = ∑ k : Fin 2048, src (ix2 r k) :=
  RowReduce.rowSum_apply (a := 256) (b := 2048) src _ _ _ _ r

/-- The exponentials of the scores less each row's maximum. -/
def expV (v3 : FVec Ideal S1x256x64 .f32) (v6 : FVec Ideal S1x2048x64 .f32) : FVec Ideal S256x2048 .f32 :=
  exp (subf (scoresV v3 v6)
    (broadcastTo S256x2048
      (shapeCast S256x1 (multiReduction .maximumf [1] S256 (scoresV v3 v6) 0xFF800000#32 reduces_S256x2048_S256 (.inl rfl) rfl)
        shapeCasts_S256_S256x1) broadcasts_S256x1_S256x2048))

theorem expV_apply (v3 : FVec Ideal S1x256x64 .f32) (v6 : FVec Ideal S1x2048x64 .f32) (r : Fin 256) (k : Fin 2048) :
    expV v3 v6 (ix2 r k) = hpe (fun d => v3 (ix3 (0 : Fin 1) r d)) (fun k' d => v6 (ix3 (0 : Fin 1) k' d)) k := by
  unfold expV hpe hmx
  show Ideal.exp (_ - _) = _
  rw [scoresV_apply, Keepdims.broadcastTo_a1_ab_apply (a := 256) (b := 2048), Keepdims.shapeCast_a_a1_apply (a := 256),
    rowMax_tile]
  simp only [scoresV_apply]

/-- The softmax weights. -/
def probsV (v3 : FVec Ideal S1x256x64 .f32) (v6 : FVec Ideal S1x2048x64 .f32) : FVec Ideal S256x2048 .f32 :=
  divf (expV v3 v6)
    (broadcastTo S256x2048
      (shapeCast S256x1 (multiReduction .add [1] S256 (expV v3 v6) 0x00000000#32 reduces_S256x2048_S256 (.inl rfl) rfl)
        shapeCasts_S256_S256x1) broadcasts_S256x1_S256x2048)

theorem probsV_apply (v3 : FVec Ideal S1x256x64 .f32) (v6 : FVec Ideal S1x2048x64 .f32) (r : Fin 256) (k : Fin 2048) :
    probsV v3 v6 (ix2 r k)
      = Ideal.div (hpe (fun d => v3 (ix3 (0 : Fin 1) r d)) (fun k' d => v6 (ix3 (0 : Fin 1) k' d)) k)
          (hden (fun d => v3 (ix3 (0 : Fin 1) r d)) (fun k' d => v6 (ix3 (0 : Fin 1) k' d))) := by
  unfold probsV hden
  rw [divf_apply, expV_apply, Keepdims.broadcastTo_a1_ab_apply (a := 256) (b := 2048), Keepdims.shapeCast_a_a1_apply (a := 256),
    rowSum_tile]
  simp only [expV_apply]

/-- The head's output tile. -/
def headV (v3 : FVec Ideal S1x256x64 .f32) (v6 : FVec Ideal S1x2048x64 .f32) : FVec Ideal S256x64 .f32 :=
  shapeCast S256x64
    (matmul dot_S256x2048_S2048x64_S256x64_1_0_0_1_n_n none (truncf .bf16 (probsV v3 v6) bitsLt_bf16_f32)
      (truncf .bf16 (shapeCast S2048x64 v6 shapeCasts_S1x2048x64_S2048x64) bitsLt_bf16_f32)
      (constant S256x64 .f32 0x00000000#32)) shapeCasts_S256x64_S256x64

theorem headV_apply (v3 : FVec Ideal S1x256x64 .f32) (v6 : FVec Ideal S1x2048x64 .f32) (r : Fin 256) (d : Fin 64) :
    headV v3 v6 (ix2 r d) = hout (fun d' => v3 (ix3 (0 : Fin 1) r d')) (fun k' d' => v6 (ix3 (0 : Fin 1) k' d')) d := by
  unfold headV hout
  rw [shapeCast_self]
  refine (MatmulPlain.matmul_zero_apply (M := 256) (K := 2048) (N := 64) none _ _ (ix2 r d)).trans ?_
  refine Finset.sum_congr rfl fun k _ => ?_
  rw [truncf_apply, truncf_apply, cast_drop_unit]
  show probsV v3 v6 (ix2 r k) * _ = _
  rw [probsV_apply]

/-- The body's first head is `headV` of its two loads. -/
theorem pay1_eq (v3 : FVec Ideal S1x256x64 .f32) (v6 : FVec Ideal S1x2048x64 .f32) : k0_pay1 (F := Ideal) v3 v6 = headV v3 v6 := rfl

end Cert.KHead

end
-- ==== Proof.KTail.lean ====
/-
  The rest of the kernel's body after the sixteen heads, read entry by entry: the row tile plus its attention
  output is layer-normalised, the first eight normalised entries go through `cos · cos θ` and the two-layer
  perceptron with a rectifier, the perceptron's output is added back and the sum is layer-normalised again.
  At row `r` and column `e` of the tile this is `Spec.rowOut` of row `r` of the tile and of the attention output.
-/
import proofs.«138895_j65481071410061_2_alg».proof.Proof.Gen.KernelIdeal.Skeleton
import proofs.«138895_j65481071410061_2_alg».proof.Proof.Spec
import proofs.«138895_j65481071410061_2_alg».proof.Proof.LibMatmulPlain
import proofs.«138895_j65481071410061_2_alg».proof.Proof.LibRowReduce
import proofs.«138895_j65481071410061_2_alg».proof.Proof.LibKeepdims
import Idealize.ShloMosaic.Lib.Pipeline.Value
import Idealize.ShloMosaic.Lib.ValueIdx

noncomputable section

namespace Cert.KTail

open Idealize.ShloMosaic Idealize.ShloMosaic.ValueIdx Cert.KernelIdeal Cert.KernelIdeal.Gen Cert.Spec

/-! ## Layout lemmas -/

/-- A block with a leading unit axis, cast to the matrix without it, reads the same entry. -/
theorem cast_drop_unit {a b : ℕ} {α : Type} (x : (⟨3, ![1, a, b]⟩ : Shape).Idx → α)
    (h : (⟨3, ![1, a, b]⟩ : Shape).ShapeCasts ⟨2, ![a, b]⟩) (r : Fin a) (c : Fin b) :
    shapeCast ⟨2, ![a, b]⟩ x h (ix2 r c) = x (ix3 (0 : Fin 1) r c) :=
  shapeCast_apply x h _ _ (by
    rw [Shape.rowMajor_val_three, Shape.rowMajor_val_two]
    show (0 * a + r.val) * b + c.val = r.val * b + c.val
    rw [Nat.zero_mul, Nat.zero_add])

/-- A matrix cast to the block with a leading unit axis reads the same entry. -/
theorem cast_add_unit {a b : ℕ} {α : Type} (x : (⟨2, ![a, b]⟩ : Shape).Idx → α)
    (h : (⟨2, ![a, b]⟩ : Shape).ShapeCasts ⟨3, ![1, a, b]⟩) (r : Fin a) (c : Fin b) :
    shapeCast ⟨3, ![1, a, b]⟩ x h (ix3 (0 : Fin 1) r c) = x (ix2 r c) :=
  shapeCast_apply x h _ _ (by
    rw [Shape.rowMajor_val_three, Shape.rowMajor_val_two]
    show r.val * b + c.val = (0 * a + r.val) * b + c.val
    rw [Nat.zero_mul, Nat.zero_add])

/-- A row `[1, b]` broadcast to `[a, b]` reads, at `(i, j)`, the row's entry `j`. -/
theorem broadcastTo_row {a b : ℕ} {α : Type} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The leading columns of a matrix: the slice at offset `(0, 0)` reads the matrix at the same place. -/
theorem slice_lead {α : Type} (x : S256x1024.Idx → α) (r : Fin 256) (q : Fin 8) :
    extractStridedSlice S256x8 ![0, 0] x slices_S256x1024_o0_0_S256x8 (ix2 r q) = x (ix2 r (lead q)) := by
  refine extractStridedSlice_apply _ x _ (ix2 r q) (ix2 r (lead q)) fun ax => ?_
  match ax with
  | ⟨0, _⟩ => show r.val = 0 + r.val; rw [Nat.zero_add]
  | ⟨1, _⟩ => show q.val = 0 + q.val; rw [Nat.zero_add]

theorem rsqrt_apply {s : Shape} {φ : FTy} (a : FVec Ideal s φ) (i : s.Idx) : rsqrt a i = Ideal.rsqrt (a i) := rfl
theorem cos_apply {s : Shape} {φ : FTy} (a : FVec Ideal s φ) (i : s.Idx) : cos a i = Ideal.cos (a i) := rfl

/-! ## Layer normalisation of a 256 × 1024 tile -/

/-- The row sums of a 256 × 1024 tile. -/
theorem rowSum_tile (src : FVec Ideal S256x1024 .f32) (r : Fin 256) :
    multiReduction .add [1] S256 src 0x00000000#32 reduces_S256x1024_S256 (.inl rfl) rfl (ix1 r) = ∑ e : Fin 1024, src (ix2 r e) :=
  RowReduce.rowSum_apply (a := 256) (b := 1024) src _ _ _ _ r

/-- The row means, as a column. -/
def muV (v : FVec Ideal S256x1024 .f32) : FVec Ideal S256x1 .f32 :=
  divf (shapeCast S256x1 (multiReduction .add [1] S256 v 0x00000000#32 reduces_S256x1024_S256 (.inl rfl) rfl) shapeCasts_S256_S256x1)
    (broadcast S256x1 (Scalar.ofBits .f32 0x44800000#32))

theorem muV_apply (v : FVec Ideal S256x1024 .f32) (r : Fin 256) :
    muV v (ix2 r (0 : Fin 1)) = mean (fun e => v (ix2 r e)) := by
  unfold muV mean
  rw [divf_apply, Keepdims.shapeCast_a_a1_apply (a := 256), rowSum_tile, broadcast_apply]
  rfl

/-- The tile less its row means. -/
def cenV (v : FVec Ideal S256x1024 .f32) : FVec Ideal S256x1024 .f32 :=
  subf v (broadcastTo S256x1024 (muV v) broadcasts_S256x1_S256x1024)

theorem cenV_apply (v : FVec Ideal S256x1024 .f32) (r : Fin 256) (e : Fin 1024) :
    cenV v (ix2 r e) = v (ix2 r e) - mean (fun e' => v (ix2 r e')) := by
  unfold cenV
  rw [subf_apply, Keepdims.broadcastTo_a1_ab_apply (a := 256) (b := 1024), muV_apply]

/-- The reciprocal standard deviations, as a column. -/
def rstdV (v : FVec Ideal S256x1024 .f32) : FVec Ideal S256x1 .f32 :=
  rsqrt (addf
    (divf (shapeCast S256x1 (multiReduction .add [1] S256 (mulf (cenV v) (cenV v)) 0x00000000#32 reduces_S256x1024_S256 (.inl rfl) rfl)
        shapeCasts_S256_S256x1) (broadcast S256x1 (Scalar.ofBits .f32 0x44800000#32)))
    (broadcast S256x1 (Scalar.ofBits .f32 0x3727C5AC#32)))

theorem rstdV_apply (v : FVec Ideal S256x1024 .f32) (r : Fin 256) :
    rstdV v (ix2 r (0 : Fin 1))
      = Ideal.rsqrt (Ideal.div (∑ e' : Fin 1024, (v (ix2 r e') - mean (fun e => v (ix2 r e))) * (v (ix2 r e') - mean (fun e => v (ix2 r e)))) c1024 + ceps) := by
  unfold rstdV
  rw [rsqrt_apply, addf_apply, divf_apply, Keepdims.shapeCast_a_a1_apply (a := 256), rowSum_tile,
    broadcast_apply, broadcast_apply]
  simp only [mulf_apply, cenV_apply]
  rfl

/-- The normalised tile. -/
def lnV (v : FVec Ideal S256x1024 .f32) (g b : FVec Ideal S1x1024 .f32) : FVec Ideal S256x1024 .f32 :=
  addf (mulf (mulf (cenV v) (broadcastTo S256x1024 (rstdV v) broadcasts_S256x1_S256x1024))
      (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

theorem lnV_apply (v : FVec Ideal S256x1024 .f32) (g b : FVec Ideal S1x1024 .f32) (r : Fin 256) (e : Fin 1024) :
    lnV v g b (ix2 r e)
      = lnorm (fun e' => v (ix2 r e')) (fun e' => g (ix2 (0 : Fin 1) e')) (fun e' => b (ix2 (0 : Fin 1) e')) e := by
  unfold lnV lnorm
  rw [addf_apply, mulf_apply, mulf_apply, cenV_apply, Keepdims.broadcastTo_a1_ab_apply (a := 256) (b := 1024), rstdV_apply,
    broadcastTo_row (a := 256) (b := 1024), broadcastTo_row (a := 256) (b := 1024), shapeCast_self, shapeCast_self]

/-! ## The perceptron -/

/-- The first layer before its bias: `cos · cos θ` of the leading eight columns times the first weight matrix. -/
def preV (h : FVec Ideal S256x1024 .f32) (th : FVec Ideal S1x8 .f32) (w1 : FVec Ideal S8x4096 .f32) : FVec Ideal S256x4096 .f32 :=
  matmul dot_S256x8_S8x4096_S256x4096_1_0_0_1_n_n none
    (mulf (cos (extractStridedSlice S256x8 ![0, 0] h slices_S256x1024_o0_0_S256x8))
      (broadcastTo S256x8 (cos (shapeCast S1x8 th shapeCasts_S1x8_S1x8)) broadcasts_S1x8_S256x8))
    (shapeCast S8x4096 w1 shapeCasts_S8x4096_S8x4096) (constant S256x4096 .f32 0x00000000#32)

theorem preV_apply (h : FVec Ideal S256x1024 .f32) (th : FVec Ideal S1x8 .f32) (w1 : FVec Ideal S8x4096 .f32)
    (r : Fin 256) (f : Fin 4096) :
    preV h th w1 (ix2 r f)
      = ∑ q : Fin 8, qo (fun e => h (ix2 r e)) (fun q' => th (ix2 (0 : Fin 1) q')) q * w1 (ix2 q f) := by
  unfold preV
  refine (MatmulPlain.matmul_zero_apply (M := 256) (K := 8) (N := 4096) none _ _ (ix2 r f)).trans ?_
  refine Finset.sum_congr rfl fun q _ => ?_
  unfold qo
  rw [shapeCast_self]
  show (mulf _ _) (ix2 r q) * _ = _
  rw [mulf_apply, cos_apply, slice_lead, broadcastTo_row (a := 256) (b := 8), cos_apply, shapeCast_self]

/-- The perceptron's output. -/
def ffnV (pre : FVec Ideal S256x4096 .f32) (b1 : FVec Ideal S1x4096 .f32) (w2 : FVec Ideal S4096x1024 .bf16)
    (b2 : FVec Ideal S1x1024 .f32) : FVec Ideal S256x1024 .f32 :=
  addf (matmul dot_S256x4096_S4096x1024_S256x1024_1_0_0_1_n_n none
      (truncf .bf16 (maximumf (addf pre (broadcastTo S256x4096 b1 broadcasts_S1x4096_S256x4096))
        (broadcast S256x4096 (Scalar.ofBits .f32 0x00000000#32))) bitsLt_bf16_f32)
      (shapeCast S4096x1024 w2 shapeCasts_S4096x1024_S4096x1024) (constant S256x1024 .f32 0x00000000#32))
    (broadcastTo S256x1024 (shapeCast S1x1024 b2 shapeCasts_S1x1024_S1x1024) broadcasts_S1x1024_S256x1024)

theorem ffnV_apply (h : FVec Ideal S256x1024 .f32) (th : FVec Ideal S1x8 .f32) (w1 : FVec Ideal S8x4096 .f32)
    (b1 : FVec Ideal S1x4096 .f32) (w2 : FVec Ideal S4096x1024 .bf16) (b2 : FVec Ideal S1x1024 .f32) (r : Fin 256) (e : Fin 1024) :
    ffnV (preV h th w1) b1 w2 b2 (ix2 r e)
      = ffn (fun e' => h (ix2 r e')) (fun q => th (ix2 (0 : Fin 1) q)) (fun q f => w1 (ix2 q f)) (fun f => b1 (ix2 (0 : Fin 1) f))
          (fun f e' => w2 (ix2 f e')) (fun e' => b2 (ix2 (0 : Fin 1) e')) e := by
  unfold ffnV ffn
  rw [addf_apply, broadcastTo_row (a := 256) (b := 1024), shapeCast_self, shapeCast_self]
  congr 1
  refine (MatmulPlain.matmul_zero_apply (M := 256) (K := 4096) (N := 1024) none _ _ (ix2 r e)).trans ?_
  refine Finset.sum_congr rfl fun f _ => ?_
  unfold hid
  show (maximumf (addf (preV h th w1) (broadcastTo S256x4096 b1 broadcasts_S1x4096_S256x4096))
      (broadcast S256x4096 (Scalar.ofBits .f32 0x00000000#32))) (ix2 r f) * w2 (ix2 f e) = _
  rw [maximumf_apply, addf_apply, preV_apply, broadcastTo_row (a := 256) (b := 4096), broadcast_apply]
  rfl

/-! ## The tail as a whole -/

/-- What the body stores to the output block, from the row tile `x`, the attention output `a` and the parameters. -/
def tailV (x : FVec Ideal S1x256x1024 .f32) (a : FVec Ideal S256x1024 .f32) (th : FVec Ideal S1x8 .f32) (w1 : FVec Ideal S8x4096 .f32)
    (b1 : FVec Ideal S1x4096 .f32) (w2 : FVec Ideal S4096x1024 .bf16) (b2 g1 be1 g2 be2 : FVec Ideal S1x1024 .f32) :
    FVec Ideal S1x256x1024 .f32 :=
  shapeCast S1x256x1024
    (lnV (addf (lnV (addf (shapeCast S256x1024 x shapeCasts_S1x256x1024_S256x1024) a) g1 be1)
        (ffnV (preV (lnV (addf (shapeCast S256x1024 x shapeCasts_S1x256x1024_S256x1024) a) g1 be1) th w1)
          (shapeCast S1x4096 b1 shapeCasts_S1x4096_S1x4096) w2 b2)) g2 be2)
    shapeCasts_S256x1024_S1x256x1024

theorem tailV_apply (x : FVec Ideal S1x256x1024 .f32) (a : FVec Ideal S256x1024 .f32) (th : FVec Ideal S1x8 .f32) (w1 : FVec Ideal S8x4096 .f32)
    (b1 : FVec Ideal S1x4096 .f32) (w2 : FVec Ideal S4096x1024 .bf16) (b2 g1 be1 g2 be2 : FVec Ideal S1x1024 .f32)
    (r : Fin 256) (e : Fin 1024) :
    tailV x a th w1 b1 w2 b2 g1 be1 g2 be2 (ix3 (0 : Fin 1) r e)
      = rowOut (fun e' => x (ix3 (0 : Fin 1) r e')) (fun e' => a (ix2 r e')) (fun q => th (ix2 (0 : Fin 1) q)) (fun q f => w1 (ix2 q f))
          (fun f => b1 (ix2 (0 : Fin 1) f)) (fun f e' => w2 (ix2 f e')) (fun e' => b2 (ix2 (0 : Fin 1) e'))
          (fun e' => g1 (ix2 (0 : Fin 1) e')) (fun e' => be1 (ix2 (0 : Fin 1) e')) (fun e' => g2 (ix2 (0 : Fin 1) e'))
          (fun e' => be2 (ix2 (0 : Fin 1) e')) e := by
  unfold tailV rowOut
  rw [cast_add_unit, lnV_apply]
  simp only [addf_apply, lnV_apply, ffnV_apply, cast_drop_unit, shapeCast_self]

/-- The body's last stores are `tailV` of their loads. -/
theorem pay_tail_eq (x : FVec Ideal S1x256x1024 .f32) (a : FVec Ideal S256x1024 .f32) (th : FVec Ideal S1x8 .f32) (w1 : FVec Ideal S8x4096 .f32)
    (b1 : FVec Ideal S1x4096 .f32) (w2 : FVec Ideal S4096x1024 .bf16) (b2 g1 be1 g2 be2 : FVec Ideal S1x1024 .f32) :
    k0_pay33 (F := Ideal) (k0_pay30 x a g1 be1) (k0_pay31 x a g1 be1 th w1) (k0_pay32 b1) w2 b2 g2 be2
      = tailV x a th w1 b1 w2 b2 g1 be1 g2 be2 := rfl

end Cert.KTail

end
-- ==== Proof.KBody.lean ====
/-
  What one grid point of the kernel writes back, as one function of its input blocks.

  At grid point `(b, sq)` the body reads the batch's slab `x[b]` (2048 × 1024), computes the sixteen heads' outputs
  for the 256 rows of tile `sq` into a scratch tile — head `h` fills columns `64h … 64h+63` —, reads the scratch
  tile back whole, and stores the normalised result.  Read back, the scratch tile holds at `(r, e)` the attention
  output of slab row `256·sq + r` at column `e` (`Spec.att`), so the stored block is `Spec.rowOut` of that row.
-/
import proofs.«138895_j65481071410061_2_alg».proof.Proof.Gen.KernelIdeal.Frame
import proofs.«138895_j65481071410061_2_alg».proof.Proof.KHead
import proofs.«138895_j65481071410061_2_alg».proof.Proof.KTail

set_option maxRecDepth 16384
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

noncomputable section

namespace Cert.KBody

open Idealize.ShloMosaic.ValueIdx Cert.KernelIdeal Cert.KernelIdeal.Gen Cert.Spec Cert.KHead Cert.KTail

/-! ## Loads of the slab -/

/-- A load of the slab through a unit-stride rectangle reads the slab at the rectangle's offsets plus the local
    coordinates. -/
theorem ld_at (x0 : Vec Ideal S1x2048x1024 .f32) (off sz : Fin 3 → ℕ) (inb : ∀ a, off a + sz a ≤ S1x2048x1024.size a)
    (y : (⟨3, sz⟩ : Shape).Idx) (s : Fin 2048) (e : Fin 1024)
    (h1 : off 1 + (y 1).val = s.val) (h2 : off 2 + (y 2).val = e.val) :
    View.ld (Val := Elt Ideal) x0 (Rect.unit off sz inb) y = x0 (ix3 (0 : Fin 1) s e) := by
  refine congrArg x0 (funext fun a => Fin.ext ?_)
  match a with
  | ⟨0, _⟩ =>
    have h := ((Rect.unit (s := S1x2048x1024) off sz inb).idx y (0 : Fin 3)).isLt
    have h' : ((Rect.unit (s := S1x2048x1024) off sz inb).idx y (0 : Fin 3)).val < 1 := h
    show ((Rect.unit (s := S1x2048x1024) off sz inb).idx y (0 : Fin 3)).val = 0
    omega
  | ⟨1, _⟩ => show off 1 + 1 * (y 1).val = s.val; omega
  | ⟨2, _⟩ => show off 2 + 1 * (y 2).val = e.val; omega

/-- The slab as a matrix. -/
abbrev slab (x0 : Vec Ideal S1x2048x1024 .f32) : Fin 2048 → Fin 1024 → EReal := fun s e => x0 (ix3 (0 : Fin 1) s e)

/-- Row `r` of the tile that starts at slab row `row0`. -/
def rowAt (row0 : ℕ) (hr : row0 + 256 ≤ 2048) (r : Fin 256) : Fin 2048 := ⟨row0 + r.val, by have := r.isLt; omega⟩

/-! ## The attention output at a head's column -/

theorem hz2' : (![0, 0] : Fin 2 → Nat) = fun _ => 0 := funext fun a => by fin_cases a <;> rfl

theorem att_colOf (X : Fin 2048 → Fin 1024 → EReal) (s : Fin 2048) (h : Fin 16) (d : Fin 64) :
    att X s (colOf h d) = hout (fun d' => X s (colOf h d')) (fun k d' => X k (colOf h d')) d := by
  have hh : headOf (colOf h d) = h := Fin.ext (by show (h.val * 64 + d.val) / 64 = h.val; have := d.isLt; omega)
  have hl : laneOf (colOf h d) = d := Fin.ext (by show (h.val * 64 + d.val) % 64 = d.val; have := d.isLt; omega)
  unfold att
  rw [hh, hl]

/-! ## The sixteen heads' stores, each `headV` of its two loads -/

theorem head0_eq (Q : FVec Ideal S1x256x64 .f32) (K : FVec Ideal S1x2048x64 .f32) :
    k0_pay1 (F := Ideal) Q K = headV Q K := rfl
theorem head1_eq (Q : FVec Ideal S1x256x64 .f32) (K : FVec Ideal S1x2048x64 .f32) :
    k0_pay4 (F := Ideal) (k0_pay2 K) (k0_pay3 Q K) = headV Q K := rfl
theorem head2_eq (Q : FVec Ideal S1x256x64 .f32) (K : FVec Ideal S1x2048x64 .f32) :
    k0_pay5 (F := Ideal) Q K = headV Q K := rfl
theorem head3_eq (Q : FVec Ideal S1x256x64 .f32) (K : FVec Ideal S1x2048x64 .f32) :
    k0_pay6 (F := Ideal) Q K = headV Q K := rfl
theorem head4_eq (Q : FVec Ideal S1x256x64 .f32) (K : FVec Ideal S1x2048x64 .f32) :
    k0_pay10 (F := Ideal) (k0_pay7 K) (k0_pay8 Q K) (k0_pay9 Q K) = headV Q K := rfl
theorem head5_eq (Q : FVec Ideal S1x256x64 .f32) (K : FVec Ideal S1x2048x64 .f32) :
    k0_pay11 (F := Ideal) Q K = headV Q K := rfl
theorem head6_eq (Q : FVec Ideal S1x256x64 .f32) (K : FVec Ideal S1x2048x64 .f32) :
    k0_pay14 (F := Ideal) (k0_pay12 Q) (k0_pay13 K) (constant S256x2048 .f32 0x00000000#32) = headV Q K := rfl
theorem head7_eq (Q : FVec Ideal S1x256x64 .f32) (K : FVec Ideal S1x2048x64 .f32) :
    k0_pay15 (F := Ideal) Q K = headV Q K := rfl
theorem head8_eq (Q : FVec Ideal S1x256x64 .f32) (K : FVec Ideal S1x2048x64 .f32) :
    k0_pay16 (F := Ideal) Q K = headV Q K := rfl
theorem head9_eq (Q : FVec Ideal S1x256x64 .f32) (K : FVec Ideal S1x2048x64 .f32) :
    k0_pay19 (F := Ideal) (k0_pay17 K) (k0_pay18 Q K) = headV Q K := rfl
theorem head10_eq (Q : FVec Ideal S1x256x64 .f32) (K : FVec Ideal S1x2048x64 .f32) :
    k0_pay20 (F := Ideal) Q K = headV Q K := rfl
theorem head11_eq (Q : FVec Ideal S1x256x64 .f32) (K : FVec Ideal S1x2048x64 .f32) :
    k0_pay22 (F := Ideal) (k0_pay21 Q) K = headV Q K := rfl
theorem head12_eq (Q : FVec Ideal S1x256x64 .f32) (K : FVec Ideal S1x2048x64 .f32) :
    k0_pay24 (F := Ideal) (k0_pay23 Q K) = headV Q K := rfl
theorem head13_eq (Q : FVec Ideal S1x256x64 .f32) (K : FVec Ideal S1x2048x64 .f32) :
    k0_pay25 (F := Ideal) Q K = headV Q K := rfl
theorem head14_eq (Q : FVec Ideal S1x256x64 .f32) (K : FVec Ideal S1x2048x64 .f32) :
    k0_pay28 (F := Ideal) (k0_pay26 K) (k0_pay27 Q K) = headV Q K := rfl
theorem head15_eq (Q : FVec Ideal S1x256x64 .f32) (K : FVec Ideal S1x2048x64 .f32) :
    k0_pay29 (F := Ideal) Q K = headV Q K := rfl

/-- What the scratch tile holds once the sixteen heads are stored: the attention output of the tile's rows. -/
def scrG (x0 : Vec Ideal S1x2048x1024 .f32) (row0 : ℕ) (hr : row0 + 256 ≤ 2048) : S256x1024.Idx → EReal :=
  fun y => att (slab x0) (rowAt row0 hr (y 0)) (y 1)

/-- Head `h`'s store is the tile of `scrG` its rectangle names. -/
theorem head_piece (x0 : Vec Ideal S1x2048x1024 .f32) (off : Fin 3 → ℕ) (row0 c0 : ℕ) (hr : row0 + 256 ≤ 2048) (h : Fin 16)
    (hc : c0 = 64 * h.val) (hoff : off = ![0, row0, c0])
    (inbq : ∀ a, off a + S1x256x64.size a ≤ S1x2048x1024.size a)
    (inbk : ∀ a, (![0, 0, c0] : Fin 3 → ℕ) a + S1x2048x64.size a ≤ S1x2048x1024.size a)
    (inbp : ∀ a, (![0, c0] : Fin 2 → ℕ) a + S256x64.size a ≤ S256x1024.size a) (x : S256x64.Idx) :
    headV (View.ld (Val := Elt Ideal) x0 (Rect.unit off S1x256x64.size inbq))
        (View.ld (Val := Elt Ideal) x0 (Rect.unit ![0, 0, c0] S1x2048x64.size inbk)) x
      = scrG x0 row0 hr ((Rect.unit (s := S256x1024) ![0, c0] S256x64.size inbp).emb x) := by
  subst hoff hc
  obtain ⟨r, d, rfl⟩ : ∃ (r : Fin 256) (d : Fin 64), x = ix2 r d := ⟨x 0, x 1, eq_ix2 x⟩
  have e0 : ((Rect.unit (s := S256x1024) ![0, 64 * h.val] S256x64.size inbp).emb (ix2 r d)) 0 = r := Fin.ext (by show 0 + 1 * r.val = r.val; omega)
  have e1 : ((Rect.unit (s := S256x1024) ![0, 64 * h.val] S256x64.size inbp).emb (ix2 r d)) 1 = colOf h d :=
    Fin.ext (by show 64 * h.val + 1 * d.val = h.val * 64 + d.val; omega)
  rw [headV_apply]
  unfold scrG
  rw [e0, e1, att_colOf]
  have hq : ∀ d' : Fin 64, View.ld (Val := Elt Ideal) x0 (Rect.unit ![0, row0, 64 * h.val] S1x256x64.size inbq) (ix3 (0 : Fin 1) r d')
      = slab x0 (rowAt row0 hr r) (colOf h d') := fun d' =>
    ld_at x0 _ _ inbq (ix3 (0 : Fin 1) r d') (rowAt row0 hr r) (colOf h d') rfl
      (by show 64 * h.val + d'.val = h.val * 64 + d'.val; omega)
  have hk : ∀ (k : Fin 2048) (d' : Fin 64), View.ld (Val := Elt Ideal) x0 (Rect.unit ![0, 0, 64 * h.val] S1x2048x64.size inbk) (ix3 (0 : Fin 1) k d')
      = slab x0 k (colOf h d') := fun k d' =>
    ld_at x0 _ _ inbk (ix3 (0 : Fin 1) k d') k (colOf h d') (by show 0 + k.val = k.val; omega)
      (by show 64 * h.val + d'.val = h.val * 64 + d'.val; omega)
  simp only [hq, hk]

/-! ## The stored block -/

/-- A whole-tile read of a scratch tile filled by stores that tile it, each store the tile of one function `G` its
    rectangle names, reads `G`. -/
theorem readCov_whole_eq {sig : RefSig} {κ : Kind} {sp : Space} (v : View sig κ sp S256x1024 .f32)
    (L : List (View.Piece (Elt Ideal) S256x1024 .f32)) (inb : ∀ a, (![0, 0] : Fin 2 → ℕ) a + S256x1024.size a ≤ S256x1024.size a)
    (G : S256x1024.Idx → EReal) (ht : View.Piece.tiledL L S256x64.size = true)
    (hL : ∀ p ∈ L, ∀ x : p.1.shape.Idx, p.2 x = G (p.1.emb x)) :
    v.readCov L (Rect.unit ![0, 0] S256x1024.size inb).toLoadRect = G := by
  rw [View.readCov_eq_canon_ld _ _ _ (View.cover_of_tiledL L S256x64.size ht), View.ld_unit_zero hz2']
  funext j
  exact View.canon_apply_of_pieces G L hL j (View.cover_of_tiledL L S256x64.size ht j)

theorem hz2 : (![0, 0] : Fin 2 → Nat) = fun _ => 0 := funext fun a => by fin_cases a <;> rfl
theorem hz3 : (![0, 0, 0] : Fin 3 → Nat) = fun _ => 0 := funext fun a => by fin_cases a <;> rfl

/-- A tile's 256 rows lie inside the slab. -/
theorem row_le (i : grid0.Coords) : 256 * (i 1).val + 256 ≤ 2048 := by
  have h : (i 1).val < 8 := (i 1).isLt
  omega

set_option maxHeartbeats 4000000 in
/-- The block a grid point stores: the tail of the body applied to the row tile and to the attention tile. -/
theorem out_eq (c : Dev nD) (i : grid0.Coords) (arg2 : Memref sig .tc .vmem S1x2048x1024 .f32) (harg2 : arg2.IsWhole) (arg3 : Memref sig .tc .vmem S1x8 .f32) (harg3 : arg3.IsWhole) (arg4 : Memref sig .tc .vmem S8x4096 .f32) (harg4 : arg4.IsWhole) (arg5 : Memref sig .tc .vmem S1x4096 .f32) (harg5 : arg5.IsWhole) (arg6 : Memref sig .tc .vmem S4096x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x256x1024 .f32) (harg12 : arg12.IsWhole) (arg13 : Memref sig .tc .vmem S256x1024 .f32) (harg13 : arg13.IsWhole)
        (x0 : Vec Ideal S1x2048x1024 .f32) (x1 : Vec Ideal S1x8 .f32) (x2 : Vec Ideal S8x4096 .f32) (x3 : Vec Ideal S1x4096 .f32) (x4 : Vec Ideal S4096x1024 .bf16) (x5 : Vec Ideal S1x1024 .f32) (x6 : Vec Ideal S1x1024 .f32) (x7 : Vec Ideal S1x1024 .f32) (x8 : Vec Ideal S1x1024 .f32) (x9 : Vec Ideal S1x1024 .f32) :
    out0_A_10 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9
      = tailV (View.ld (Val := Elt Ideal) x0 (Rect.unit (k0_off17 i) S1x256x1024.size (k0_off17_inb i))) (scrG x0 (256 * (i 1).val) (row_le i))
          x1 x2 x3 x4 x5 x6 x7 x8 x9 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x8) hz2, View.ld_unit_zero (S := S8x4096) hz2, View.ld_unit_zero (S := S1x4096) hz2, View.ld_unit_zero (S := S4096x1024) hz2, View.ld_unit_zero (S := S1x1024) hz2]
  rw [pay_tail_eq]
  refine congrArg₂ (fun X A => tailV X A x1 x2 x3 x4 x5 x6 x7 x8 x9) rfl ?_
  refine readCov_whole_eq _ _ _ (scrG x0 (256 * (i 1).val) (row_le i)) ?_ ?_
  · sl_kernel_rfl
  · intro p hp x
    simp only [List.mem_cons, List.not_mem_nil, or_false] at hp
    rcases hp with rfl | rfl | rfl | rfl | rfl | rfl | rfl | rfl | rfl | rfl | rfl | rfl | rfl | rfl | rfl | rfl
    · exact (congrFun (head15_eq _ _) x).trans (head_piece x0 _ _ 960 (row_le i) ⟨15, by decide⟩ rfl (k0_off16_eq i) (k0_off16_inb i) inb_S1x2048x1024_S1x2048x64_0_0_960 inb_S256x1024_S256x64_0_960 x)
    · exact (congrFun (head14_eq _ _) x).trans (head_piece x0 _ _ 896 (row_le i) ⟨14, by decide⟩ rfl (k0_off15_eq i) (k0_off15_inb i) inb_S1x2048x1024_S1x2048x64_0_0_896 inb_S256x1024_S256x64_0_896 x)
    · exact (congrFun (head13_eq _ _) x).trans (head_piece x0 _ _ 832 (row_le i) ⟨13, by decide⟩ rfl (k0_off14_eq i) (k0_off14_inb i) inb_S1x2048x1024_S1x2048x64_0_0_832 inb_S256x1024_S256x64_0_832 x)
    · exact (congrFun (head12_eq _ _) x).trans (head_piece x0 _ _ 768 (row_le i) ⟨12, by decide⟩ rfl (k0_off13_eq i) (k0_off13_inb i) inb_S1x2048x1024_S1x2048x64_0_0_768 inb_S256x1024_S256x64_0_768 x)
    · exact (congrFun (head11_eq _ _) x).trans (head_piece x0 _ _ 704 (row_le i) ⟨11, by decide⟩ rfl (k0_off12_eq i) (k0_off12_inb i) inb_S1x2048x1024_S1x2048x64_0_0_704 inb_S256x1024_S256x64_0_704 x)
    · exact (congrFun (head10_eq _ _) x).trans (head_piece x0 _ _ 640 (row_le i) ⟨10, by decide⟩ rfl (k0_off11_eq i) (k0_off11_inb i) inb_S1x2048x1024_S1x2048x64_0_0_640 inb_S256x1024_S256x64_0_640 x)
    · exact (congrFun (head9_eq _ _) x).trans (head_piece x0 _ _ 576 (row_le i) ⟨9, by decide⟩ rfl (k0_off10_eq i) (k0_off10_inb i) inb_S1x2048x1024_S1x2048x64_0_0_576 inb_S256x1024_S256x64_0_576 x)
    · exact (congrFun (head8_eq _ _) x).trans (head_piece x0 _ _ 512 (row_le i) ⟨8, by decide⟩ rfl (k0_off9_eq i) (k0_off9_inb i) inb_S1x2048x1024_S1x2048x64_0_0_512 inb_S256x1024_S256x64_0_512 x)
    · exact (congrFun (head7_eq _ _) x).trans (head_piece x0 _ _ 448 (row_le i) ⟨7, by decide⟩ rfl (k0_off8_eq i) (k0_off8_inb i) inb_S1x2048x1024_S1x2048x64_0_0_448 inb_S256x1024_S256x64_0_448 x)
    · exact (congrFun (head6_eq _ _) x).trans (head_piece x0 _ _ 384 (row_le i) ⟨6, by decide⟩ rfl (k0_off7_eq i) (k0_off7_inb i) inb_S1x2048x1024_S1x2048x64_0_0_384 inb_S256x1024_S256x64_0_384 x)
    · exact (congrFun (head5_eq _ _) x).trans (head_piece x0 _ _ 320 (row_le i) ⟨5, by decide⟩ rfl (k0_off6_eq i) (k0_off6_inb i) inb_S1x2048x1024_S1x2048x64_0_0_320 inb_S256x1024_S256x64_0_320 x)
    · exact (congrFun (head4_eq _ _) x).trans (head_piece x0 _ _ 256 (row_le i) ⟨4, by decide⟩ rfl (k0_off5_eq i) (k0_off5_inb i) inb_S1x2048x1024_S1x2048x64_0_0_256 inb_S256x1024_S256x64_0_256 x)
    · exact (congrFun (head3_eq _ _) x).trans (head_piece x0 _ _ 192 (row_le i) ⟨3, by decide⟩ rfl (k0_off4_eq i) (k0_off4_inb i) inb_S1x2048x1024_S1x2048x64_0_0_192 inb_S256x1024_S256x64_0_192 x)
    · exact (congrFun (head2_eq _ _) x).trans (head_piece x0 _ _ 128 (row_le i) ⟨2, by decide⟩ rfl (k0_off3_eq i) (k0_off3_inb i) inb_S1x2048x1024_S1x2048x64_0_0_128 inb_S256x1024_S256x64_0_128 x)
    · exact (congrFun (head1_eq _ _) x).trans (head_piece x0 _ _ 64 (row_le i) ⟨1, by decide⟩ rfl (k0_off2_eq i) (k0_off2_inb i) inb_S1x2048x1024_S1x2048x64_0_0_64 inb_S256x1024_S256x64_0_64 x)
    · exact (congrFun (head0_eq _ _) x).trans (head_piece x0 _ _ 0 (row_le i) ⟨0, by decide⟩ rfl (k0_off1_eq i) (k0_off1_inb i) inb_S1x2048x1024_S1x2048x64_0_0_0 inb_S256x1024_S256x64_0_0 x)

end Cert.KBody

end
-- ==== Proof.KGrid.lean ====
/-
  The grid's geometry.  The 32 grid points are the pairs (batch `b`, row tile `sq`); point `(b, sq)` stages the whole
  slab of batch `b`, every parameter array whole, and writes back the block of rows `256·sq … 256·sq+255` of batch
  `b`.  The index maps are decided once over the grid; the output's blocks cover the result array.
-/
import proofs.«138895_j65481071410061_2_alg».proof.Proof.Gen.KernelIdeal.Value
import Idealize.ShloMosaic.Lib.ValueIdx

set_option maxRecDepth 16384
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

noncomputable section

namespace Cert.KGrid

open Idealize.ShloMosaic.ValueIdx Cert.KernelIdeal Cert.KernelIdeal.Gen Cert.KernelIdeal.Value

variable (m : (ℓ : Loc nD τ sig) → Buf (Elt Ideal) ℓ)

/-- The printed index maps, decided over the grid: the output's block index is the point's coordinates, the slab's
    is the batch coordinate, every parameter window stays at block 0. -/
theorem idx_facts : ∀ t : Fin cfg0.N,
    win0_10.index t (0 : Fin 3) = (grid0.coords t 0).val ∧ win0_10.index t (1 : Fin 3) = (grid0.coords t 1).val
    ∧ win0_10.index t (2 : Fin 3) = 0
    ∧ win0_0.index t (0 : Fin 3) = (grid0.coords t 0).val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ (grid0.coords t 0).val ≤ 3 ∧ (grid0.coords t 1).val ≤ 7 :=
  (by decide +kernel : ∀ t : Fin grid0.N, _)

/-- Every block of the array is some point's. -/
theorem idx_onto : ∀ (q0 : Fin 4) (q1 : Fin 8), ∃ t : Fin cfg0.N, win0_10.index t = ![q0.val, q1.val, 0] :=
  (by decide +kernel : ∀ (q0 : Fin 4) (q1 : Fin 8), ∃ t : Fin grid0.N, win0_10.index t = ![q0.val, q1.val, 0])

/-- Window 1's block is its whole array. -/
theorem blk1 (c : Dev nD) (t : Fin cfg0.N) (a : Fin 1) (b : Fin 8) :
    iblk m c 1 t (ix2 a b) = V m c main_v3 (ix2 a b) := by
  obtain ⟨o0, o1, o2, z0, z1, z2, p1a, p1b, p2a, p2b, p3a, p3b, p4a, p4b, p5a, p5b, p6a, p6b, p7a, p7b, p8a, p8b, p9a, p9b, hb0, hb1⟩ := idx_facts t
  show V m c main_v3 (((cfg0.win 1).blk t).view.emb (ix2 a b)) = V m c main_v3 (ix2 a b)
  refine congrArg (V m c main_v3) (funext fun ax => Fin.ext ?_)
  match ax with
  | ⟨0, _⟩ => show win0_1.index t (0 : Fin 2) * 1 + 1 * a.val = a.val; omega
  | ⟨1, _⟩ => show win0_1.index t (1 : Fin 2) * 8 + 1 * b.val = b.val; omega

/-- Window 2's block is its whole array. -/
theorem blk2 (c : Dev nD) (t : Fin cfg0.N) (a : Fin 8) (b : Fin 4096) :
    iblk m c 2 t (ix2 a b) = V m c main_v0 (ix2 a b) := by
  obtain ⟨o0, o1, o2, z0, z1, z2, p1a, p1b, p2a, p2b, p3a, p3b, p4a, p4b, p5a, p5b, p6a, p6b, p7a, p7b, p8a, p8b, p9a, p9b, hb0, hb1⟩ := idx_facts t
  show V m c main_v0 (((cfg0.win 2).blk t).view.emb (ix2 a b)) = V m c main_v0 (ix2 a b)
  refine congrArg (V m c main_v0) (funext fun ax => Fin.ext ?_)
  match ax with
  | ⟨0, _⟩ => show win0_2.index t (0 : Fin 2) * 8 + 1 * a.val = a.val; omega
  | ⟨1, _⟩ => show win0_2.index t (1 : Fin 2) * 4096 + 1 * b.val = b.val; omega

/-- Window 3's block is its whole array. -/
theorem blk3 (c : Dev nD) (t : Fin cfg0.N) (a : Fin 1) (b : Fin 4096) :
    iblk m c 3 t (ix2 a b) = V m c main_v4 (ix2 a b) := by
  obtain ⟨o0, o1, o2, z0, z1, z2, p1a, p1b, p2a, p2b, p3a, p3b, p4a, p4b, p5a, p5b, p6a, p6b, p7a, p7b, p8a, p8b, p9a, p9b, hb0, hb1⟩ := idx_facts t
  show V m c main_v4 (((cfg0.win 3).blk t).view.emb (ix2 a b)) = V m c main_v4 (ix2 a b)
  refine congrArg (V m c main_v4) (funext fun ax => Fin.ext ?_)
  match ax with
  | ⟨0, _⟩ => show win0_3.index t (0 : Fin 2) * 1 + 1 * a.val = a.val; omega
  | ⟨1, _⟩ => show win0_3.index t (1 : Fin 2) * 4096 + 1 * b.val = b.val; omega

/-- Window 4's block is its whole array. -/
theorem blk4 (c : Dev nD) (t : Fin cfg0.N) (a : Fin 4096) (b : Fin 1024) :
    iblk m c 4 t (ix2 a b) = V m c main_v2 (ix2 a b) := by
  obtain ⟨o0, o1, o2, z0, z1, z2, p1a, p1b, p2a, p2b, p3a, p3b, p4a, p4b, p5a, p5b, p6a, p6b, p7a, p7b, p8a, p8b, p9a, p9b, hb0, hb1⟩ := idx_facts t
  show V m c main_v2 (((cfg0.win 4).blk t).view.emb (ix2 a b)) = V m c main_v2 (ix2 a b)
  refine congrArg (V m c main_v2) (funext fun ax => Fin.ext ?_)
  match ax with
  | ⟨0, _⟩ => show win0_4.index t (0 : Fin 2) * 4096 + 1 * a.val = a.val; omega
  | ⟨1, _⟩ => show win0_4.index t (1 : Fin 2) * 1024 + 1 * b.val = b.val; omega

/-- Window 5's block is its whole array. -/
theorem blk5 (c : Dev nD) (t : Fin cfg0.N) (a : Fin 1) (b : Fin 1024) :
    iblk m c 5 t (ix2 a b) = V m c main_v5 (ix2 a b) := by
  obtain ⟨o0, o1, o2, z0, z1, z2, p1a, p1b, p2a, p2b, p3a, p3b, p4a, p4b, p5a, p5b, p6a, p6b, p7a, p7b, p8a, p8b, p9a, p9b, hb0, hb1⟩ := idx_facts t
  show V m c main_v5 (((cfg0.win 5).blk t).view.emb (ix2 a b)) = V m c main_v5 (ix2 a b)
  refine congrArg (V m c main_v5) (funext fun ax => Fin.ext ?_)
  match ax with
  | ⟨0, _⟩ => show win0_5.index t (0 : Fin 2) * 1 + 1 * a.val = a.val; omega
  | ⟨1, _⟩ => show win0_5.index t (1 : Fin 2) * 1024 + 1 * b.val = b.val; omega

/-- Window 6's block is its whole array. -/
theorem blk6 (c : Dev nD) (t : Fin cfg0.N) (a : Fin 1) (b : Fin 1024) :
    iblk m c 6 t (ix2 a b) = V m c main_v6 (ix2 a b) := by
  obtain ⟨o0, o1, o2, z0, z1, z2, p1a, p1b, p2a, p2b, p3a, p3b, p4a, p4b, p5a, p5b, p6a, p6b, p7a, p7b, p8a, p8b, p9a, p9b, hb0, hb1⟩ := idx_facts t
  show V m c main_v6 (((cfg0.win 6).blk t).view.emb (ix2 a b)) = V m c main_v6 (ix2 a b)
  refine congrArg (V m c main_v6) (funext fun ax => Fin.ext ?_)
  match ax with
  | ⟨0, _⟩ => show win0_6.index t (0 : Fin 2) * 1 + 1 * a.val = a.val; omega
  | ⟨1, _⟩ => show win0_6.index t (1 : Fin 2) * 1024 + 1 * b.val = b.val; omega

/-- Window 7's block is its whole array. -/
theorem blk7 (c : Dev nD) (t : Fin cfg0.N) (a : Fin 1) (b : Fin 1024) :
    iblk m c 7 t (ix2 a b) = V m c main_v7 (ix2 a b) := by
  obtain ⟨o0, o1, o2, z0, z1, z2, p1a, p1b, p2a, p2b, p3a, p3b, p4a, p4b, p5a, p5b, p6a, p6b, p7a, p7b, p8a, p8b, p9a, p9b, hb0, hb1⟩ := idx_facts t
  show V m c main_v7 (((cfg0.win 7).blk t).view.emb (ix2 a b)) = V m c main_v7 (ix2 a b)
  refine congrArg (V m c main_v7) (funext fun ax => Fin.ext ?_)
  match ax with
  | ⟨0, _⟩ => show win0_7.index t (0 : Fin 2) * 1 + 1 * a.val = a.val; omega
  | ⟨1, _⟩ => show win0_7.index t (1 : Fin 2) * 1024 + 1 * b.val = b.val; omega

/-- Window 8's block is its whole array. -/
theorem blk8 (c : Dev nD) (t : Fin cfg0.N) (a : Fin 1) (b : Fin 1024) :
    iblk m c 8 t (ix2 a b) = V m c main_v8 (ix2 a b) := by
  obtain ⟨o0, o1, o2, z0, z1, z2, p1a, p1b, p2a, p2b, p3a, p3b, p4a, p4b, p5a, p5b, p6a, p6b, p7a, p7b, p8a, p8b, p9a, p9b, hb0, hb1⟩ := idx_facts t
  show V m c main_v8 (((cfg0.win 8).blk t).view.emb (ix2 a b)) = V m c main_v8 (ix2 a b)
  refine congrArg (V m c main_v8) (funext fun ax => Fin.ext ?_)
  match ax with
  | ⟨0, _⟩ => show win0_8.index t (0 : Fin 2) * 1 + 1 * a.val = a.val; omega
  | ⟨1, _⟩ => show win0_8.index t (1 : Fin 2) * 1024 + 1 * b.val = b.val; omega

/-- Window 9's block is its whole array. -/
theorem blk9 (c : Dev nD) (t : Fin cfg0.N) (a : Fin 1) (b : Fin 1024) :
    iblk m c 9 t (ix2 a b) = V m c main_v9 (ix2 a b) := by
  obtain ⟨o0, o1, o2, z0, z1, z2, p1a, p1b, p2a, p2b, p3a, p3b, p4a, p4b, p5a, p5b, p6a, p6b, p7a, p7b, p8a, p8b, p9a, p9b, hb0, hb1⟩ := idx_facts t
  show V m c main_v9 (((cfg0.win 9).blk t).view.emb (ix2 a b)) = V m c main_v9 (ix2 a b)
  refine congrArg (V m c main_v9) (funext fun ax => Fin.ext ?_)
  match ax with
  | ⟨0, _⟩ => show win0_9.index t (0 : Fin 2) * 1 + 1 * a.val = a.val; omega
  | ⟨1, _⟩ => show win0_9.index t (1 : Fin 2) * 1024 + 1 * b.val = b.val; omega

/-- The slab block is the batch's slab of the argument array. -/
theorem blk0 (c : Dev nD) (t : Fin cfg0.N) (s : Fin 2048) (e : Fin 1024) (b : Fin 4) (hb : b.val = (grid0.coords t 0).val) :
    iblk m c 0 t (ix3 (0 : Fin 1) s e) = m ((c : Thread nD τ).loc main_arg0) (ix3 b s e) := by
  obtain ⟨o0, o1, o2, z0, z1, z2, p1a, p1b, p2a, p2b, p3a, p3b, p4a, p4b, p5a, p5b, p6a, p6b, p7a, p7b, p8a, p8b, p9a, p9b, hb0, hb1⟩ := idx_facts t
  show V m c main_arg0 (((cfg0.win 0).blk t).view.emb (ix3 (0 : Fin 1) s e)) = _
  rw [V_main_arg0]
  refine congrArg (m ((c : Thread nD τ).loc main_arg0)) (funext fun ax => Fin.ext ?_)
  match ax with
  | ⟨0, _⟩ => show win0_0.index t (0 : Fin 3) * 1 + 1 * 0 = b.val; omega
  | ⟨1, _⟩ => show win0_0.index t (1 : Fin 3) * 2048 + 1 * s.val = s.val; omega
  | ⟨2, _⟩ => show win0_0.index t (2 : Fin 3) * 1024 + 1 * e.val = e.val; omega

/-- An index of the array is in point `t`'s block iff each coordinate is in the block's range on its axis. -/
theorem mem_blk (t : Fin cfg0.N) (i : S4x2048x1024.Idx) :
    i ∈ ((cfg0.win 10).blk t).view.set ↔ ∀ a : Fin 3, win0_10.index t a * S1x256x1024.size a ≤ (i a).val
      ∧ (i a).val < win0_10.index t a * S1x256x1024.size a + S1x256x1024.size a := by
  show i ∈ ((View.whole main_v10).slice (win0_10.rect t)).set ↔ _
  rw [View.set_slice_whole, Rect.mem_set_unit]
  exact Iff.rfl

/-- Every index of the array is in some point's block. -/
theorem cover (i : S4x2048x1024.Idx) : ∃ t : Fin cfg0.N, (cfg0.win 10).flush t = true ∧ i ∈ ((cfg0.win 10).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win0_10.index t (0 : Fin 3) = (i 0).val := congrFun ht 0
  have q1 : win0_10.index t (1 : Fin 3) = (i 1).val / 256 := congrFun ht 1
  have q2 : win0_10.index t (2 : Fin 3) = 0 := congrFun ht 2
  refine ⟨t, flush0_10 t, ?_⟩
  rw [mem_blk]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 1024 ≤ (i 2).val ∧ (i 2).val < win0_10.index t (2 : Fin 3) * 1024 + 1024; omega

end Cert.KGrid

end
-- ==== Proof.KHost.lean ====
/-
  The kernel program's host operations before its region, read at an index.

  Before the region the kernel program moves seven of its arguments into the layouts the region's windows read: the
  two weight matrices are transposed (the second then narrowed, which at the ideal values changes nothing), and the
  angle vector, the two bias vectors and the four normalisation vectors become one-row matrices.  Each result, at an
  index given by its coordinates, is the argument as launched at the matching index.
-/
import proofs.«138895_j65481071410061_2_alg».proof.Proof.Gen.KernelIdeal.Frame
import Idealize.ShloMosaic.Lib.StableHlo.Run
import Idealize.ShloMosaic.Lib.Pipeline.Value
import Idealize.ShloMosaic.Lib.ValueIdx

noncomputable section

namespace Cert.KHost

open Cert.KernelIdeal Cert.KernelIdeal.Gen Idealize.ShloMosaic Idealize.ShloMosaic.ValueIdx
open Idealize.ShloMosaic.TcCoe Idealize.ShloMosaic.StableHlo Idealize.SL.Sem

variable (m : (ℓ : Loc nD τ sig) → Buf (Elt Ideal) ℓ) (c : Dev nD)

/-! ## The two weight matrices -/

/-- The first weight matrix transposed: entry `(q, f)` is the argument's `(f, q)`. -/
theorem v0_apply (q : Fin 8) (f : Fin 4096) :
    V m c main_v0 (ix2 q f) = m ((c : Thread nD τ).loc main_arg2) (ix2 f q) := by
  have hV : (V m c main_v0 : S8x4096.Idx → EReal)
      = transpose S8x4096 [1, 0] (m ((c : Thread nD τ).loc main_arg2)) transposes_S4096x8_S8x4096_1_0 := by
    dsimp only [Gen.V, Gen.hostOps0]; after_results
  show (V m c main_v0 : S8x4096.Idx → EReal) (ix2 q f) = _
  rw [hV]
  exact transpose_apply [1, 0] _ transposes_S4096x8_S8x4096_1_0 (ix2 q f) (ix2 f q) (fun b => match b with
    | ⟨0, _⟩ => rfl
    | ⟨1, _⟩ => rfl)

/-- The second weight matrix transposed and then narrowed: entry `(f, e)` is the argument's `(e, f)`; at the ideal
    values the narrowing is the identity. -/
theorem v2_apply (f : Fin 4096) (e : Fin 1024) :
    V m c main_v2 (ix2 f e) = m ((c : Thread nD τ).loc main_arg4) (ix2 e f) := by
  have hV : (V m c main_v2 : S4096x1024.Idx → EReal)
      = truncf .bf16 (transpose S4096x1024 [1, 0] (m ((c : Thread nD τ).loc main_arg4))
          transposes_S1024x4096_S4096x1024_1_0 : FVec Ideal S4096x1024 .f32) bitsLt_bf16_f32 := by
    dsimp only [Gen.V, Gen.hostOps0]; after_results
  show (V m c main_v2 : S4096x1024.Idx → EReal) (ix2 f e) = _
  rw [hV, truncf_apply]
  exact transpose_apply [1, 0] _ transposes_S1024x4096_S4096x1024_1_0 (ix2 f e) (ix2 e f) (fun b => match b with
    | ⟨0, _⟩ => rfl
    | ⟨1, _⟩ => rfl)

/-! ## The seven vectors, each made a one-row matrix -/

/-- The angles. -/
theorem v3_apply (q : Fin 8) :
    V m c main_v3 (ix2 (0 : Fin 1) q) = m ((c : Thread nD τ).loc main_arg1) (ix1 q) := by
  have hV : (V m c main_v3 : S1x8.Idx → EReal)
      = shapeCast S1x8 (m ((c : Thread nD τ).loc main_arg1)) shapeCasts_S8_S1x8 := by
    dsimp only [Gen.V, Gen.hostOps0]; after_results; rfl
  show (V m c main_v3 : S1x8.Idx → EReal) (ix2 (0 : Fin 1) q) = _
  rw [hV]
  refine shapeCast_apply _ shapeCasts_S8_S1x8 (ix2 (0 : Fin 1) q) (ix1 q) ?_
  rw [Shape.rowMajor_val_one, Shape.rowMajor_val_two]
  show q.val = 0 * 8 + q.val
  omega

/-- The first bias. -/
theorem v4_apply (f : Fin 4096) :
    V m c main_v4 (ix2 (0 : Fin 1) f) = m ((c : Thread nD τ).loc main_arg3) (ix1 f) := by
  have hV : (V m c main_v4 : S1x4096.Idx → EReal)
      = shapeCast S1x4096 (m ((c : Thread nD τ).loc main_arg3)) shapeCasts_S4096_S1x4096 := by
    dsimp only [Gen.V, Gen.hostOps0]; after_results; rfl
  show (V m c main_v4 : S1x4096.Idx → EReal) (ix2 (0 : Fin 1) f) = _
  rw [hV]
  refine shapeCast_apply _ shapeCasts_S4096_S1x4096 (ix2 (0 : Fin 1) f) (ix1 f) ?_
  rw [Shape.rowMajor_val_one, Shape.rowMajor_val_two]
  show f.val = 0 * 4096 + f.val
  omega

/-- The second bias. -/
theorem v5_apply (e : Fin 1024) :
    V m c main_v5 (ix2 (0 : Fin 1) e) = m ((c : Thread nD τ).loc main_arg5) (ix1 e) := by
  have hV : (V m c main_v5 : S1x1024.Idx → EReal)
      = shapeCast S1x1024 (m ((c : Thread nD τ).loc main_arg5)) shapeCasts_S1024_S1x1024 := by
    dsimp only [Gen.V, Gen.hostOps0]; after_results; rfl
  show (V m c main_v5 : S1x1024.Idx → EReal) (ix2 (0 : Fin 1) e) = _
  rw [hV]
  refine shapeCast_apply _ shapeCasts_S1024_S1x1024 (ix2 (0 : Fin 1) e) (ix1 e) ?_
  rw [Shape.rowMajor_val_one, Shape.rowMajor_val_two]
  show e.val = 0 * 1024 + e.val
  omega

/-- The first normalisation's scale … -/
theorem v6_apply (e : Fin 1024) :
    V m c main_v6 (ix2 (0 : Fin 1) e) = m ((c : Thread nD τ).loc main_arg6) (ix1 e) := by
  have hV : (V m c main_v6 : S1x1024.Idx → EReal)
      = shapeCast S1x1024 (m ((c : Thread nD τ).loc main_arg6)) shapeCasts_S1024_S1x1024 := by
    dsimp only [Gen.V, Gen.hostOps0]; after_results; rfl
  show (V m c main_v6 : S1x1024.Idx → EReal) (ix2 (0 : Fin 1) e) = _
  rw [hV]
  refine shapeCast_apply _ shapeCasts_S1024_S1x1024 (ix2 (0 : Fin 1) e) (ix1 e) ?_
  rw [Shape.rowMajor_val_one, Shape.rowMajor_val_two]
  show e.val = 0 * 1024 + e.val
  omega

/-- … and shift. -/
theorem v7_apply (e : Fin 1024) :
    V m c main_v7 (ix2 (0 : Fin 1) e) = m ((c : Thread nD τ).loc main_arg7) (ix1 e) := by
  have hV : (V m c main_v7 : S1x1024.Idx → EReal)
      = shapeCast S1x1024 (m ((c : Thread nD τ).loc main_arg7)) shapeCasts_S1024_S1x1024 := by
    dsimp only [Gen.V, Gen.hostOps0]; after_results; rfl
  show (V m c main_v7 : S1x1024.Idx → EReal) (ix2 (0 : Fin 1) e) = _
  rw [hV]
  refine shapeCast_apply _ shapeCasts_S1024_S1x1024 (ix2 (0 : Fin 1) e) (ix1 e) ?_
  rw [Shape.rowMajor_val_one, Shape.rowMajor_val_two]
  show e.val = 0 * 1024 + e.val
  omega

/-- The second normalisation's scale … -/
theorem v8_apply (e : Fin 1024) :
    V m c main_v8 (ix2 (0 : Fin 1) e) = m ((c : Thread nD τ).loc main_arg8) (ix1 e) := by
  have hV : (V m c main_v8 : S1x1024.Idx → EReal)
      = shapeCast S1x1024 (m ((c : Thread nD τ).loc main_arg8)) shapeCasts_S1024_S1x1024 := by
    dsimp only [Gen.V, Gen.hostOps0]; after_results; rfl
  show (V m c main_v8 : S1x1024.Idx → EReal) (ix2 (0 : Fin 1) e) = _
  rw [hV]
  refine shapeCast_apply _ shapeCasts_S1024_S1x1024 (ix2 (0 : Fin 1) e) (ix1 e) ?_
  rw [Shape.rowMajor_val_one, Shape.rowMajor_val_two]
  show e.val = 0 * 1024 + e.val
  omega

/-- … and shift. -/
theorem v9_apply (e : Fin 1024) :
    V m c main_v9 (ix2 (0 : Fin 1) e) = m ((c : Thread nD τ).loc main_arg9) (ix1 e) := by
  have hV : (V m c main_v9 : S1x1024.Idx → EReal)
      = shapeCast S1x1024 (m ((c : Thread nD τ).loc main_arg9)) shapeCasts_S1024_S1x1024 := by
    dsimp only [Gen.V, Gen.hostOps0]; after_results; rfl
  show (V m c main_v9 : S1x1024.Idx → EReal) (ix2 (0 : Fin 1) e) = _
  rw [hV]
  refine shapeCast_apply _ shapeCasts_S1024_S1x1024 (ix2 (0 : Fin 1) e) (ix1 e) ?_
  rw [Shape.rowMajor_val_one, Shape.rowMajor_val_two]
  show e.val = 0 * 1024 + e.val
  omega

end Cert.KHost

end
-- ==== Proof.KBlocks.lean ====
/-
  From blocks to the array.  Grid point `(b, sq)` writes back rows `256·sq … 256·sq+255` of batch `b`; the 32 points'
  blocks tile the result array, and each block is the restriction of one function of the argument arrays,
  `Spec.G`: the batch's slab is the point's first input block, the parameter arrays are whole blocks of the arrays the
  host operations before the region wrote (the weights transposed, the vectors as rows).
-/
import proofs.«138895_j65481071410061_2_alg».proof.Proof.Gen.KernelIdeal.Value
import proofs.«138895_j65481071410061_2_alg».proof.Proof.KBody
import proofs.«138895_j65481071410061_2_alg».proof.Proof.KGrid
import proofs.«138895_j65481071410061_2_alg».proof.Proof.KHost

set_option maxRecDepth 16384
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

noncomputable section

namespace Cert.KBlocks

open Idealize.ShloMosaic.ValueIdx Cert.KernelIdeal Cert.KernelIdeal.Gen Cert.KernelIdeal.Value Cert.Spec Cert.KHead Cert.KTail Cert.KBody
open Cert.KHost Cert.KGrid

variable (m : (ℓ : Loc nD τ sig) → Buf (Elt Ideal) ℓ) (ρ : Dev nD → PrngReg)

/-- The result array as one function of the argument arrays. -/
def GK (c : Dev nD) : S4x2048x1024.Idx → EReal :=
  Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- `rowOut` respects equality of its arguments. -/
theorem rowOut_congr {x x' a a' : Fin 1024 → EReal} {th th' : Fin 8 → EReal} {w1 w1' : Fin 8 → Fin 4096 → EReal}
    {b1 b1' : Fin 4096 → EReal} {w2 w2' : Fin 4096 → Fin 1024 → EReal} {b2 b2' g1 g1' be1 be1' g2 g2' be2 be2' : Fin 1024 → EReal}
    {e e' : Fin 1024} (hx : x = x') (ha : a = a') (hth : th = th') (hw1 : w1 = w1') (hb1 : b1 = b1') (hw2 : w2 = w2')
    (hb2 : b2 = b2') (hg1 : g1 = g1') (hbe1 : be1 = be1') (hg2 : g2 = g2') (hbe2 : be2 = be2') (he : e = e') :
    rowOut x a th w1 b1 w2 b2 g1 be1 g2 be2 e = rowOut x' a' th' w1' b1' w2' b2' g1' be1' g2' be2' e' := by
  subst hx ha hth hw1 hb1 hw2 hb2 hg1 hbe1 hg2 hbe2 he; rfl

/-- The tail at any index of the block. -/
theorem tailV_at (x : FVec Ideal S1x256x1024 .f32) (a : FVec Ideal S256x1024 .f32) (th : FVec Ideal S1x8 .f32) (w1 : FVec Ideal S8x4096 .f32)
    (b1 : FVec Ideal S1x4096 .f32) (w2 : FVec Ideal S4096x1024 .bf16) (b2 g1 be1 g2 be2 : FVec Ideal S1x1024 .f32) (y : S1x256x1024.Idx) :
    tailV x a th w1 b1 w2 b2 g1 be1 g2 be2 y
      = rowOut (fun e' => x (ix3 (0 : Fin 1) (y 1) e')) (fun e' => a (ix2 (y 1) e')) (fun q => th (ix2 (0 : Fin 1) q)) (fun q f => w1 (ix2 q f))
          (fun f => b1 (ix2 (0 : Fin 1) f)) (fun f e' => w2 (ix2 f e')) (fun e' => b2 (ix2 (0 : Fin 1) e'))
          (fun e' => g1 (ix2 (0 : Fin 1) e')) (fun e' => be1 (ix2 (0 : Fin 1) e')) (fun e' => g2 (ix2 (0 : Fin 1) e'))
          (fun e' => be2 (ix2 (0 : Fin 1) e')) (y 2) := by
  obtain ⟨u, r, e, rfl⟩ : ∃ (u : Fin 1) (r : Fin 256) (e : Fin 1024), y = ix3 u r e := ⟨y 0, y 1, y 2, eq_ix3 y⟩
  have hu : u = 0 := Subsingleton.elim _ _
  subst hu
  exact tailV_apply x a th w1 b1 w2 b2 g1 be1 g2 be2 r e

set_option maxHeartbeats 2000000 in
/-- What point `t` writes back is block `t` of `GK`. -/
theorem flushed_eq (c : Dev nD) (t : Fin cfg0.N) :
    (dats m 0 c).flushed 10 t = ((cfg0.win 10).blk t).view.read (Elt Ideal) (GK m c) := by
  rw [Value.flushed10_A, out_eq]
  obtain ⟨o0, o1, o2, z0, z1, z2, p1a, p1b, p2a, p2b, p3a, p3b, p4a, p4b, p5a, p5b, p6a, p6b, p7a, p7b, p8a, p8b, p9a, p9b, hb0, hb1⟩ := idx_facts t
  funext y
  have hy0 : ((((cfg0.win 10).blk t).view.emb y) 0).val = (grid0.coords t 0).val := by
    show win0_10.index t (0 : Fin 3) * 1 + 1 * (y 0).val = _
    have h : (y 0).val < 1 := (y 0).isLt
    omega
  have hy1 : ((((cfg0.win 10).blk t).view.emb y) 1).val = 256 * (grid0.coords t 1).val + (y 1).val := by
    show win0_10.index t (1 : Fin 3) * 256 + 1 * (y 1).val = _
    omega
  have hy2 : ((((cfg0.win 10).blk t).view.emb y) 2).val = (y 2).val := by
    show win0_10.index t (2 : Fin 3) * 1024 + 1 * (y 2).val = _
    omega
  have hslab : ∀ (s : Fin 2048) (e : Fin 1024), iblk m c 0 t (ix3 (0 : Fin 1) s e)
      = m ((c : Thread nD τ).loc main_arg0) (ix3 ((((cfg0.win 10).blk t).view.emb y) 0) s e) :=
    fun s e => blk0 m c t s e _ hy0
  refine (tailV_at _ _ _ _ _ _ _ _ _ _ _ _).trans ?_
  show _ = GK m c (((cfg0.win 10).blk t).view.emb y)
  unfold GK Spec.G
  refine rowOut_congr ?_ ?_ ?_ ?_ ?_ ?_ ?_ ?_ ?_ ?_ ?_ ?_
  · funext e'
    refine (ld_at (iblk m c 0 t) _ _ (k0_off17_inb (grid0.coords t)) _ ((((cfg0.win 10).blk t).view.emb y) 1) e' ?_ ?_).trans (hslab _ _)
    · rw [k0_off17_eq]; show 256 * (grid0.coords t 1).val + (y 1).val = _; omega
    · rw [k0_off17_eq]; show 0 + e'.val = e'.val; omega
  · funext e'
    show att (slab (iblk m c 0 t)) (rowAt _ _ (y 1)) e' = att _ ((((cfg0.win 10).blk t).view.emb y) 1) e'
    have hrow : rowAt (256 * (grid0.coords t 1).val) (row_le (grid0.coords t)) (y 1) = (((cfg0.win 10).blk t).view.emb y) 1 :=
      Fin.ext (by show 256 * (grid0.coords t 1).val + (y 1).val = _; omega)
    rw [hrow]
    exact congrArg (fun X => att X _ e') (funext fun s => funext fun e'' => hslab s e'')
  · funext q; exact (blk1 m c t 0 q).trans (v3_apply m c q)
  · funext q f; exact (blk2 m c t q f).trans (v0_apply m c q f)
  · funext f; exact (blk3 m c t 0 f).trans (v4_apply m c f)
  · funext f e'; exact (blk4 m c t f e').trans (v2_apply m c f e')
  · funext e'; exact (blk5 m c t 0 e').trans (v5_apply m c e')
  · funext e'; exact (blk6 m c t 0 e').trans (v6_apply m c e')
  · funext e'; exact (blk7 m c t 0 e').trans (v7_apply m c e')
  · funext e'; exact (blk8 m c t 0 e').trans (v8_apply m c e')
  · funext e'; exact (blk9 m c t 0 e').trans (v9_apply m c e')
  · exact Fin.ext hy2.symm

/-- The result array after the run. -/
theorem final (c : Dev nD) : (dats m 0 c).arrAt 10 cfg0.N = GK m c :=
  (dats m 0 c).arrAt_eq_of_cover 10 (GK m c) (fun t _ => flushed_eq m c t) cover

/-- The kernel's run: the result array ends at `GK`, the arguments unchanged. -/
theorem run : θ_run defs (onTc (τ := τ) (main (F := Ideal))) ⟨m, fun _ => 0, ρ⟩ fun r => ∀ c : Dev nD,
      r.2.mem ((c : Thread nD τ).loc main_v10) = GK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KBlocks

end
-- ==== Proof.RefRead.lean ====
/-
  The reference program read one operation at a time.  `val_<buffer>` is the value an operation writes, as a function
  of the arguments of @main it depends on; `val_<buffer>_apply` reads it at an index from the operands at an index: a
  layout operation reads its operand at `idx_<buffer> i`, a contraction is the sum over `k` of the left operand at
  `lidx_<buffer> i k` times the right at `ridx_<buffer> i k`, a float sum is the initial value plus the sum over `k` of
  the operand at `idx_<buffer> i k`.  The row maximum of the softmax (`val_main_v5`) is a fold over an axis and has no
  such lemma here; it is read in the module that uses it.
-/
import proofs.«138895_j65481071410061_2_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.RefRead

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.reshape %arg0 : (tensor<4x2048x1024xf32>) -> tensor<4x2048x16x64xf32>
def val_main_v0 (x0 : (⟨S4x2048x1024, .f32⟩ : BufTy).Contents (Elt F)) : (⟨S4x2048x16x64, .f32⟩ : BufTy).Contents (Elt F) :=
  shapeCast _ (x0) shapeCasts_S4x2048x1024_S4x2048x16x64
abbrev idx_main_v0 (i : S4x2048x16x64.Idx) : S4x2048x1024.Idx := fun a => match a with
  | ⟨0, _⟩ => ⟨((((i 0).val * 2048 + (i 1).val) * 16 + (i 2).val) * 64 + (i 3).val) / 2097152, by have h0 : (i 0).val < 4 := (i 0).isLt; have h1 : (i 1).val < 2048 := (i 1).isLt; have h2 : (i 2).val < 16 := (i 2).isLt; have h3 : (i 3).val < 64 := (i 3).isLt; show ((((i 0).val * 2048 + (i 1).val) * 16 + (i 2).val) * 64 + (i 3).val) / 2097152 < 4; omega⟩
  | ⟨1, _⟩ => ⟨((((i 0).val * 2048 + (i 1).val) * 16 + (i 2).val) * 64 + (i 3).val) / 1024 % 2048, by have h0 : (i 0).val < 4 := (i 0).isLt; have h1 : (i 1).val < 2048 := (i 1).isLt; have h2 : (i 2).val < 16 := (i 2).isLt; have h3 : (i 3).val < 64 := (i 3).isLt; show ((((i 0).val * 2048 + (i 1).val) * 16 + (i 2).val) * 64 + (i 3).val) / 1024 % 2048 < 2048; omega⟩
  | ⟨2, _⟩ => ⟨((((i 0).val * 2048 + (i 1).val) * 16 + (i 2).val) * 64 + (i 3).val) % 1024, by have h0 : (i 0).val < 4 := (i 0).isLt; have h1 : (i 1).val < 2048 := (i 1).isLt; have h2 : (i 2).val < 16 := (i 2).isLt; have h3 : (i 3).val < 64 := (i 3).isLt; show ((((i 0).val * 2048 + (i 1).val) * 16 + (i 2).val) * 64 + (i 3).val) % 1024 < 1024; omega⟩
theorem val_main_v0_apply (x0 : (⟨S4x2048x1024, .f32⟩ : BufTy).Contents (Elt F)) (i : S4x2048x16x64.Idx) :
    val_main_v0 (F := F) x0 i = x0 (idx_main_v0 i) := by
  unfold val_main_v0
  exact shapeCast_apply x0 shapeCasts_S4x2048x1024_S4x2048x16x64 i (idx_main_v0 i)
    (by rewrite [Shape.rowMajor_val_three, Shape.rowMajor_val_four]; have h0 : (i 0).val < 4 := (i 0).isLt; have h1 : (i 1).val < 2048 := (i 1).isLt; have h2 : (i 2).val < 16 := (i 2).isLt; have h3 : (i 3).val < 64 := (i 3).isLt; show (((((i 0).val * 2048 + (i 1).val) * 16 + (i 2).val) * 64 + (i 3).val) / 2097152 * 2048 + ((((i 0).val * 2048 + (i 1).val) * 16 + (i 2).val) * 64 + (i 3).val) / 1024 % 2048) * 1024 + ((((i 0).val * 2048 + (i 1).val) * 16 + (i 2).val) * 64 + (i 3).val) % 1024 = (((i 0).val * 2048 + (i 1).val) * 16 + (i 2).val) * 64 + (i 3).val; omega)

-- %1 = stablehlo.transpose %0, dims = [0, 2, 1, 3] : (tensor<4x2048x16x64xf32>) -> tensor<4x16x2048x64xf32>
def val_main_v1 (x0 : (⟨S4x2048x1024, .f32⟩ : BufTy).Contents (Elt F)) : (⟨S4x16x2048x64, .f32⟩ : BufTy).Contents (Elt F) :=
  transpose S4x16x2048x64 [0, 2, 1, 3] (val_main_v0 (F := F) x0) transposes_S4x2048x16x64_S4x16x2048x64_0_2_1_3
abbrev idx_main_v1 (i : S4x16x2048x64.Idx) : S4x2048x16x64.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨(i 3).val, (i 3).isLt⟩
theorem val_main_v1_apply (x0 : (⟨S4x2048x1024, .f32⟩ : BufTy).Contents (Elt F)) (i : S4x16x2048x64.Idx) :
    val_main_v1 (F := F) x0 i = val_main_v0 (F := F) x0 (idx_main_v1 i) := by
  unfold val_main_v1
  generalize val_main_v0 (F := F) x0 = y
  exact transpose_apply [0, 2, 1, 3] y transposes_S4x2048x16x64_S4x16x2048x64_0_2_1_3 i (idx_main_v1 i) (fun b => match b with
    | ⟨0, _⟩ => rfl
    | ⟨1, _⟩ => rfl
    | ⟨2, _⟩ => rfl
    | ⟨3, _⟩ => rfl)

-- %2 = stablehlo.dot_general %1, %1, batching_dims = [0, 1] x [0, 1], contracting_dims = [3] x [3], precision = [DEFAULT, DEFAULT] : (tensor<4x16x2048x64xf32>, tensor<4x16x2048x64xf32>) -> tensor<4x16x2048x2048xf32>
def val_main_v2 (x0 : (⟨S4x2048x1024, .f32⟩ : BufTy).Contents (Elt F)) : (⟨S4x16x2048x2048, .f32⟩ : BufTy).Contents (Elt F) :=
  Host.dotGeneral dot_S4x16x2048x64_S4x16x2048x64_S4x16x2048x2048_3_3_2_2_01_01 none (val_main_v1 (F := F) x0) (val_main_v1 (F := F) x0)
theorem lhs_main_v2_0 (i : S4x16x2048x2048.Idx) (q : dot_S4x16x2048x64_S4x16x2048x64_S4x16x2048x2048_3_3_2_2_01_01.contr.Idx) :
    (dot_S4x16x2048x64_S4x16x2048x64_S4x16x2048x2048_3_3_2_2_01_01.lhsIdx i q 0).val = (i 0).val := by
  unfold DotDims.lhsIdx
  rw [dif_pos (show (0 : Fin S4x16x2048x64.rank) ∈ dot_S4x16x2048x64_S4x16x2048x64_S4x16x2048x2048_3_3_2_2_01_01.lhsBatch by decide)]
  rfl
theorem lhs_main_v2_1 (i : S4x16x2048x2048.Idx) (q : dot_S4x16x2048x64_S4x16x2048x64_S4x16x2048x2048_3_3_2_2_01_01.contr.Idx) :
    (dot_S4x16x2048x64_S4x16x2048x64_S4x16x2048x2048_3_3_2_2_01_01.lhsIdx i q 1).val = (i 1).val := by
  unfold DotDims.lhsIdx
  rw [dif_pos (show (1 : Fin S4x16x2048x64.rank) ∈ dot_S4x16x2048x64_S4x16x2048x64_S4x16x2048x2048_3_3_2_2_01_01.lhsBatch by decide)]
  rfl
theorem lhs_main_v2_2 (i : S4x16x2048x2048.Idx) (q : dot_S4x16x2048x64_S4x16x2048x64_S4x16x2048x2048_3_3_2_2_01_01.contr.Idx) :
    (dot_S4x16x2048x64_S4x16x2048x64_S4x16x2048x2048_3_3_2_2_01_01.lhsIdx i q 2).val = (i 2).val := by
  unfold DotDims.lhsIdx
  rw [dif_neg (show ¬(2 : Fin S4x16x2048x64.rank) ∈ dot_S4x16x2048x64_S4x16x2048x64_S4x16x2048x2048_3_3_2_2_01_01.lhsBatch by decide), dif_pos (show (2 : Fin S4x16x2048x64.rank) ∈ dot_S4x16x2048x64_S4x16x2048x64_S4x16x2048x2048_3_3_2_2_01_01.lhsNonContracting by decide)]
  rfl
theorem lhs_main_v2_3 (i : S4x16x2048x2048.Idx) (q : dot_S4x16x2048x64_S4x16x2048x64_S4x16x2048x2048_3_3_2_2_01_01.contr.Idx) :
    (dot_S4x16x2048x64_S4x16x2048x64_S4x16x2048x2048_3_3_2_2_01_01.lhsIdx i q 3).val = (q ⟨0, by decide⟩).val :=
  dot_S4x16x2048x64_S4x16x2048x64_S4x16x2048x2048_3_3_2_2_01_01.lhsIdx_val_of_single rfl i q
theorem rhs_main_v2_0 (i : S4x16x2048x2048.Idx) (q : dot_S4x16x2048x64_S4x16x2048x64_S4x16x2048x2048_3_3_2_2_01_01.contr.Idx) :
    (dot_S4x16x2048x64_S4x16x2048x64_S4x16x2048x2048_3_3_2_2_01_01.rhsIdx i q 0).val = (i 0).val := by
  unfold DotDims.rhsIdx
  rw [dif_pos (show (0 : Fin S4x16x2048x64.rank) ∈ dot_S4x16x2048x64_S4x16x2048x64_S4x16x2048x2048_3_3_2_2_01_01.rhsBatch by decide)]
  rfl
theorem rhs_main_v2_1 (i : S4x16x2048x2048.Idx) (q : dot_S4x16x2048x64_S4x16x2048x64_S4x16x2048x2048_3_3_2_2_01_01.contr.Idx) :
    (dot_S4x16x2048x64_S4x16x2048x64_S4x16x2048x2048_3_3_2_2_01_01.rhsIdx i q 1).val = (i 1).val := by
  unfold DotDims.rhsIdx
  rw [dif_pos (show (1 : Fin S4x16x2048x64.rank) ∈ dot_S4x16x2048x64_S4x16x2048x64_S4x16x2048x2048_3_3_2_2_01_01.rhsBatch by decide)]
  rfl
theorem rhs_main_v2_2 (i : S4x16x2048x2048.Idx) (q : dot_S4x16x2048x64_S4x16x2048x64_S4x16x2048x2048_3_3_2_2_01_01.contr.Idx) :
    (dot_S4x16x2048x64_S4x16x2048x64_S4x16x2048x2048_3_3_2_2_01_01.rhsIdx i q 2).val = (i 3).val := by
  unfold DotDims.rhsIdx
  rw [dif_neg (show ¬(2 : Fin S4x16x2048x64.rank) ∈ dot_S4x16x2048x64_S4x16x2048x64_S4x16x2048x2048_3_3_2_2_01_01.rhsBatch by decide), dif_pos (show (2 : Fin S4x16x2048x64.rank) ∈ dot_S4x16x2048x64_S4x16x2048x64_S4x16x2048x2048_3_3_2_2_01_01.rhsNonContracting by decide)]
  rfl
theorem rhs_main_v2_3 (i : S4x16x2048x2048.Idx) (q : dot_S4x16x2048x64_S4x16x2048x64_S4x16x2048x2048_3_3_2_2_01_01.contr.Idx) :
    (dot_S4x16x2048x64_S4x16x2048x64_S4x16x2048x2048_3_3_2_2_01_01.rhsIdx i q 3).val = (q ⟨0, by decide⟩).val :=
  dot_S4x16x2048x64_S4x16x2048x64_S4x16x2048x2048_3_3_2_2_01_01.rhsIdx_val_of_single rfl i q
abbrev lidx_main_v2 (i : S4x16x2048x2048.Idx) (k : Fin 64) : S4x16x2048x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
abbrev ridx_main_v2 (i : S4x16x2048x2048.Idx) (k : Fin 64) : S4x16x2048x64.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨k.val, k.isLt⟩
/-- Stated at `F := Ideal`, where the host's `dot_general` is this sum; at a bit-exact instance it is an opaque function of its operands. -/
theorem val_main_v2_apply (x0 : (⟨S4x2048x1024, .f32⟩ : BufTy).Contents (Elt Ideal)) (i : S4x16x2048x2048.Idx) :
    val_main_v2 (F := Ideal) x0 i = ∑ k : Fin 64, (val_main_v1 (F := Ideal) x0) (lidx_main_v2 i k) * (val_main_v1 (F := Ideal) x0) (ridx_main_v2 i k) := by
  unfold val_main_v2
  generalize val_main_v1 (F := Ideal) x0 = y0
  simp only [Host.dotGeneral]
  rw [Ideal.dotGeneral_apply, ← Equiv.sum_comp (ValueIdx.contrEquiv1 dot_S4x16x2048x64_S4x16x2048x64_S4x16x2048x2048_3_3_2_2_01_01 64 rfl rfl).symm]
  refine Finset.sum_congr rfl fun k _ => ?_
  have hk := ValueIdx.contrEquiv1_symm_val dot_S4x16x2048x64_S4x16x2048x64_S4x16x2048x2048_3_3_2_2_01_01 64 rfl rfl k
  have el : dot_S4x16x2048x64_S4x16x2048x64_S4x16x2048x2048_3_3_2_2_01_01.lhsIdx i ((ValueIdx.contrEquiv1 dot_S4x16x2048x64_S4x16x2048x64_S4x16x2048x2048_3_3_2_2_01_01 64 rfl rfl).symm k) = lidx_main_v2 i k := funext fun a => Fin.ext (by
    match a with
    | ⟨0, _⟩ => exact lhs_main_v2_0 _ _
    | ⟨1, _⟩ => exact lhs_main_v2_1 _ _
    | ⟨2, _⟩ => exact lhs_main_v2_2 _ _
    | ⟨3, _⟩ => exact (lhs_main_v2_3 _ _).trans hk)
  have er : dot_S4x16x2048x64_S4x16x2048x64_S4x16x2048x2048_3_3_2_2_01_01.rhsIdx i ((ValueIdx.contrEquiv1 dot_S4x16x2048x64_S4x16x2048x64_S4x16x2048x2048_3_3_2_2_01_01 64 rfl rfl).symm k) = ridx_main_v2 i k := funext fun a => Fin.ext (by
    match a with
    | ⟨0, _⟩ => exact rhs_main_v2_0 _ _
    | ⟨1, _⟩ => exact rhs_main_v2_1 _ _
    | ⟨2, _⟩ => exact rhs_main_v2_2 _ _
    | ⟨3, _⟩ => exact (rhs_main_v2_3 _ _).trans hk)
  rw [el, er]

-- %cst = stablehlo.constant dense<8.000000e+00> : tensor<f32>
def val_main_cst : (⟨S_, .f32⟩ : BufTy).Contents (Elt F) :=
  constant S_ .f32 0x41000000#32
theorem val_main_cst_apply (i : S_.Idx) :
    val_main_cst (F := F) i = FloatOps.ofBits .f32 0x41000000#32 := rfl

-- %3 = stablehlo.broadcast_in_dim %cst, dims = [] : (tensor<f32>) -> tensor<4x16x2048x2048xf32>
def val_main_v3 : (⟨S4x16x2048x2048, .f32⟩ : BufTy).Contents (Elt F) :=
  broadcastInDim S4x16x2048x2048 ![] bcast_S_S4x16x2048x2048 (val_main_cst (F := F))
abbrev idx_main_v3 (i : S4x16x2048x2048.Idx) : S_.Idx := fun a => a.elim0
theorem val_main_v3_apply (i : S4x16x2048x2048.Idx) :
    val_main_v3 (F := F) i = val_main_cst (F := F) (idx_main_v3 i) := by
  unfold val_main_v3
  generalize val_main_cst (F := F) = y
  exact broadcastInDim_apply _ bcast_S_S4x16x2048x2048 y i (idx_main_v3 i) (fun a => a.elim0)

-- %4 = stablehlo.divide %2, %3 : tensor<4x16x2048x2048xf32>
def val_main_v4 (x0 : (⟨S4x2048x1024, .f32⟩ : BufTy).Contents (Elt F)) : (⟨S4x16x2048x2048, .f32⟩ : BufTy).Contents (Elt F) :=
  Host.divf (val_main_v2 (F := F) x0) (val_main_v3 (F := F))
theorem val_main_v4_apply (x0 : (⟨S4x2048x1024, .f32⟩ : BufTy).Contents (Elt F)) (i : S4x16x2048x2048.Idx) :
    val_main_v4 (F := F) x0 i = FloatOps.hostDivf (val_main_v2 (F := F) x0 i) (val_main_v3 (F := F) i) := rfl

-- %cst_0 = stablehlo.constant dense<0xFF800000> : tensor<f32>
def val_main_cst_0 : (⟨S_, .f32⟩ : BufTy).Contents (Elt F) :=
  constant S_ .f32 0xFF800000#32
theorem val_main_cst_0_apply (i : S_.Idx) :
    val_main_cst_0 (F := F) i = FloatOps.ofBits .f32 0xFF800000#32 := rfl

-- %5 = stablehlo.reduce(%4 init: %cst_0) applies stablehlo.maximum across dimensions = [3] : (tensor<4x16x2048x2048xf32>, tensor<f32>) -> tensor<4x16x2048xf32> {
def val_main_v5 (x0 : (⟨S4x2048x1024, .f32⟩ : BufTy).Contents (Elt F)) : (⟨S4x16x2048, .f32⟩ : BufTy).Contents (Elt F) :=
  Host.reduce FloatOps.maximumf (val_main_v4 (F := F) x0) (val_main_cst_0 (F := F)) reducesTo_S4x16x2048x2048_S4x16x2048_d3 h_S_

-- %cst_1 = stablehlo.constant dense<0xFF800000> : tensor<f32>
def val_main_cst_1 : (⟨S_, .f32⟩ : BufTy).Contents (Elt F) :=
  constant S_ .f32 0xFF800000#32
theorem val_main_cst_1_apply (i : S_.Idx) :
    val_main_cst_1 (F := F) i = FloatOps.ofBits .f32 0xFF800000#32 := rfl

-- %6 = stablehlo.broadcast_in_dim %cst_1, dims = [] : (tensor<f32>) -> tensor<4x16x2048xf32>
def val_main_v6 : (⟨S4x16x2048, .f32⟩ : BufTy).Contents (Elt F) :=
  broadcastInDim S4x16x2048 ![] bcast_S_S4x16x2048 (val_main_cst_1 (F := F))
abbrev idx_main_v6 (i : S4x16x2048.Idx) : S_.Idx := fun a => a.elim0
theorem val_main_v6_apply (i : S4x16x2048.Idx) :
    val_main_v6 (F := F) i = val_main_cst_1 (F := F) (idx_main_v6 i) := by
  unfold val_main_v6
  generalize val_main_cst_1 (F := F) = y
  exact broadcastInDim_apply _ bcast_S_S4x16x2048 y i (idx_main_v6 i) (fun a => a.elim0)

-- %7 = stablehlo.maximum %6, %5 : tensor<4x16x2048xf32>
def val_main_v7 (x0 : (⟨S4x2048x1024, .f32⟩ : BufTy).Contents (Elt F)) : (⟨S4x16x2048, .f32⟩ : BufTy).Contents (Elt F) :=
  maximumf (val_main_v6 (F := F)) (val_main_v5 (F := F) x0)
theorem val_main_v7_apply (x0 : (⟨S4x2048x1024, .f32⟩ : BufTy).Contents (Elt F)) (i : S4x16x2048.Idx) :
    val_main_v7 (F := F) x0 i = FloatOps.maximumf (val_main_v6 (F := F) i) (val_main_v5 (F := F) x0 i) := rfl

-- %8 = stablehlo.broadcast_in_dim %7, dims = [0, 1, 2] : (tensor<4x16x2048xf32>) -> tensor<4x16x2048x1xf32>
def val_main_v8 (x0 : (⟨S4x2048x1024, .f32⟩ : BufTy).Contents (Elt F)) : (⟨S4x16x2048x1, .f32⟩ : BufTy).Contents (Elt F) :=
  broadcastInDim S4x16x2048x1 ![0, 1, 2] bcast_S4x16x2048_S4x16x2048x1_0_1_2 (val_main_v7 (F := F) x0)
abbrev idx_main_v8 (i : S4x16x2048x1.Idx) : S4x16x2048.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v8_apply (x0 : (⟨S4x2048x1024, .f32⟩ : BufTy).Contents (Elt F)) (i : S4x16x2048x1.Idx) :
    val_main_v8 (F := F) x0 i = val_main_v7 (F := F) x0 (idx_main_v8 i) := by
  unfold val_main_v8
  generalize val_main_v7 (F := F) x0 = y
  exact broadcastInDim_apply _ bcast_S4x16x2048_S4x16x2048x1_0_1_2 y i (idx_main_v8 i) (fun a => match a with
    | ⟨0, _⟩ => by show (i 0).val = if (4 : Nat) = 1 then 0 else (i 0).val; rw [if_neg (by decide)]
    | ⟨1, _⟩ => by show (i 1).val = if (16 : Nat) = 1 then 0 else (i 1).val; rw [if_neg (by decide)]
    | ⟨2, _⟩ => by show (i 2).val = if (2048 : Nat) = 1 then 0 else (i 2).val; rw [if_neg (by decide)])

-- %9 = stablehlo.broadcast_in_dim %8, dims = [0, 1, 2, 3] : (tensor<4x16x2048x1xf32>) -> tensor<4x16x2048x2048xf32>
def val_main_v9 (x0 : (⟨S4x2048x1024, .f32⟩ : BufTy).Contents (Elt F)) : (⟨S4x16x2048x2048, .f32⟩ : BufTy).Contents (Elt F) :=
  broadcastInDim S4x16x2048x2048 ![0, 1, 2, 3] bcast_S4x16x2048x1_S4x16x2048x2048_0_1_2_3 (val_main_v8 (F := F) x0)
abbrev idx_main_v9 (i : S4x16x2048x2048.Idx) : S4x16x2048x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v9_apply (x0 : (⟨S4x2048x1024, .f32⟩ : BufTy).Contents (Elt F)) (i : S4x16x2048x2048.Idx) :
    val_main_v9 (F := F) x0 i = val_main_v8 (F := F) x0 (idx_main_v9 i) := by
  unfold val_main_v9
  generalize val_main_v8 (F := F) x0 = y
  exact broadcastInDim_apply _ bcast_S4x16x2048x1_S4x16x2048x2048_0_1_2_3 y i (idx_main_v9 i) (fun a => match a with
    | ⟨0, _⟩ => by show (i 0).val = if (4 : Nat) = 1 then 0 else (i 0).val; rw [if_neg (by decide)]
    | ⟨1, _⟩ => by show (i 1).val = if (16 : Nat) = 1 then 0 else (i 1).val; rw [if_neg (by decide)]
    | ⟨2, _⟩ => by show (i 2).val = if (2048 : Nat) = 1 then 0 else (i 2).val; rw [if_neg (by decide)]
    | ⟨3, _⟩ => by show 0 = if (1 : Nat) = 1 then 0 else (i 3).val; rw [if_pos rfl])

-- %10 = stablehlo.subtract %4, %9 : tensor<4x16x2048x2048xf32>
def val_main_v10 (x0 : (⟨S4x2048x1024, .f32⟩ : BufTy).Contents (Elt F)) : (⟨S4x16x2048x2048, .f32⟩ : BufTy).Contents (Elt F) :=
  subf (val_main_v4 (F := F) x0) (val_main_v9 (F := F) x0)
theorem val_main_v10_apply (x0 : (⟨S4x2048x1024, .f32⟩ : BufTy).Contents (Elt F)) (i : S4x16x2048x2048.Idx) :
    val_main_v10 (F := F) x0 i = FloatOps.subf (val_main_v4 (F := F) x0 i) (val_main_v9 (F := F) x0 i) := rfl

-- %11 = stablehlo.exponential %10 : tensor<4x16x2048x2048xf32>
def val_main_v11 (x0 : (⟨S4x2048x1024, .f32⟩ : BufTy).Contents (Elt F)) : (⟨S4x16x2048x2048, .f32⟩ : BufTy).Contents (Elt F) :=
  Host.exp (val_main_v10 (F := F) x0)
theorem val_main_v11_apply (x0 : (⟨S4x2048x1024, .f32⟩ : BufTy).Contents (Elt F)) (i : S4x16x2048x2048.Idx) :
    val_main_v11 (F := F) x0 i = FloatOps.hostUnary .exp (val_main_v10 (F := F) x0 i) := rfl

-- %cst_2 = stablehlo.constant dense<0.000000e+00> : tensor<f32>
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- %12 = stablehlo.reduce(%11 init: %cst_2) applies stablehlo.add across dimensions = [3] : (tensor<4x16x2048x2048xf32>, tensor<f32>) -> tensor<4x16x2048xf32> {
def val_main_v12 (x0 : (⟨S4x2048x1024, .f32⟩ : BufTy).Contents (Elt F)) : (⟨S4x16x2048, .f32⟩ : BufTy).Contents (Elt F) :=
  Host.reduceAdd (val_main_v11 (F := F) x0) (val_main_cst_2 (F := F)) reducesTo_S4x16x2048x2048_S4x16x2048_d3 h_S_
abbrev idx_main_v12 (i : S4x16x2048.Idx) (k : Fin 2048) : S4x16x2048x2048.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_v12_apply (x0 : (⟨S4x2048x1024, .f32⟩ : BufTy).Contents (Elt Ideal)) (i : S4x16x2048.Idx) :
    val_main_v12 (F := Ideal) x0 i = (val_main_cst_2 (F := Ideal)) (Shape.Idx.first h_S_) + ∑ k : Fin 2048, (val_main_v11 (F := Ideal) x0) (idx_main_v12 i k) := by
  unfold val_main_v12
  generalize val_main_v11 (F := Ideal) x0 = y0
  simp only [Host.reduceAdd, Ideal.hostReduceAdd_def]
  rw [Ideal.hostReduceAdd_single reducesTo_S4x16x2048x2048_S4x16x2048_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %13 = stablehlo.broadcast_in_dim %12, dims = [0, 1, 2] : (tensor<4x16x2048xf32>) -> tensor<4x16x2048x1xf32>
def val_main_v13 (x0 : (⟨S4x2048x1024, .f32⟩ : BufTy).Contents (Elt F)) : (⟨S4x16x2048x1, .f32⟩ : BufTy).Contents (Elt F) :=
  broadcastInDim S4x16x2048x1 ![0, 1, 2] bcast_S4x16x2048_S4x16x2048x1_0_1_2 (val_main_v12 (F := F) x0)
abbrev idx_main_v13 (i : S4x16x2048x1.Idx) : S4x16x2048.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v13_apply (x0 : (⟨S4x2048x1024, .f32⟩ : BufTy).Contents (Elt F)) (i : S4x16x2048x1.Idx) :
    val_main_v13 (F := F) x0 i = val_main_v12 (F := F) x0 (idx_main_v13 i) := by
  unfold val_main_v13
  generalize val_main_v12 (F := F) x0 = y
  exact broadcastInDim_apply _ bcast_S4x16x2048_S4x16x2048x1_0_1_2 y i (idx_main_v13 i) (fun a => match a with
    | ⟨0, _⟩ => by show (i 0).val = if (4 : Nat) = 1 then 0 else (i 0).val; rw [if_neg (by decide)]
    | ⟨1, _⟩ => by show (i 1).val = if (16 : Nat) = 1 then 0 else (i 1).val; rw [if_neg (by decide)]
    | ⟨2, _⟩ => by show (i 2).val = if (2048 : Nat) = 1 then 0 else (i 2).val; rw [if_neg (by decide)])

-- %14 = stablehlo.broadcast_in_dim %13, dims = [0, 1, 2, 3] : (tensor<4x16x2048x1xf32>) -> tensor<4x16x2048x2048xf32>
def val_main_v14 (x0 : (⟨S4x2048x1024, .f32⟩ : BufTy).Contents (Elt F)) : (⟨S4x16x2048x2048, .f32⟩ : BufTy).Contents (Elt F) :=
  broadcastInDim S4x16x2048x2048 ![0, 1, 2, 3] bcast_S4x16x2048x1_S4x16x2048x2048_0_1_2_3 (val_main_v13 (F := F) x0)
abbrev idx_main_v14 (i : S4x16x2048x2048.Idx) : S4x16x2048x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v14_apply (x0 : (⟨S4x2048x1024, .f32⟩ : BufTy).Contents (Elt F)) (i : S4x16x2048x2048.Idx) :
    val_main_v14 (F := F) x0 i = val_main_v13 (F := F) x0 (idx_main_v14 i) := by
  unfold val_main_v14
  generalize val_main_v13 (F := F) x0 = y
  exact broadcastInDim_apply _ bcast_S4x16x2048x1_S4x16x2048x2048_0_1_2_3 y i (idx_main_v14 i) (fun a => match a with
    | ⟨0, _⟩ => by show (i 0).val = if (4 : Nat) = 1 then 0 else (i 0).val; rw [if_neg (by decide)]
    | ⟨1, _⟩ => by show (i 1).val = if (16 : Nat) = 1 then 0 else (i 1).val; rw [if_neg (by decide)]
    | ⟨2, _⟩ => by show (i 2).val = if (2048 : Nat) = 1 then 0 else (i 2).val; rw [if_neg (by decide)]
    | ⟨3, _⟩ => by show 0 = if (1 : Nat) = 1 then 0 else (i 3).val; rw [if_pos rfl])

-- %15 = stablehlo.divide %11, %14 : tensor<4x16x2048x2048xf32>
def val_main_v15 (x0 : (⟨S4x2048x1024, .f32⟩ : BufTy).Contents (Elt F)) : (⟨S4x16x2048x2048, .f32⟩ : BufTy).Contents (Elt F) :=
  Host.divf (val_main_v11 (F := F) x0) (val_main_v14 (F := F) x0)
theorem val_main_v15_apply (x0 : (⟨S4x2048x1024, .f32⟩ : BufTy).Contents (Elt F)) (i : S4x16x2048x2048.Idx) :
    val_main_v15 (F := F) x0 i = FloatOps.hostDivf (val_main_v11 (F := F) x0 i) (val_main_v14 (F := F) x0 i) := rfl

-- %16 = stablehlo.dot_general %15, %1, batching_dims = [0, 1] x [0, 1], contracting_dims = [3] x [2], precision = [DEFAULT, DEFAULT] : (tensor<4x16x2048x2048xf32>, tensor<4x16x2048x64xf32>) -> tensor<4x16x2048x64xf32>
def val_main_v16 (x0 : (⟨S4x2048x1024, .f32⟩ : BufTy).Contents (Elt F)) : (⟨S4x16x2048x64, .f32⟩ : BufTy).Contents (Elt F) :=
  Host.dotGeneral dot_S4x16x2048x2048_S4x16x2048x64_S4x16x2048x64_3_2_2_3_01_01 none (val_main_v15 (F := F) x0) (val_main_v1 (F := F) x0)
theorem lhs_main_v16_0 (i : S4x16x2048x64.Idx) (q : dot_S4x16x2048x2048_S4x16x2048x64_S4x16x2048x64_3_2_2_3_01_01.contr.Idx) :
    (dot_S4x16x2048x2048_S4x16x2048x64_S4x16x2048x64_3_2_2_3_01_01.lhsIdx i q 0).val = (i 0).val := by
  unfold DotDims.lhsIdx
  rw [dif_pos (show (0 : Fin S4x16x2048x2048.rank) ∈ dot_S4x16x2048x2048_S4x16x2048x64_S4x16x2048x64_3_2_2_3_01_01.lhsBatch by decide)]
  rfl
theorem lhs_main_v16_1 (i : S4x16x2048x64.Idx) (q : dot_S4x16x2048x2048_S4x16x2048x64_S4x16x2048x64_3_2_2_3_01_01.contr.Idx) :
    (dot_S4x16x2048x2048_S4x16x2048x64_S4x16x2048x64_3_2_2_3_01_01.lhsIdx i q 1).val = (i 1).val := by
  unfold DotDims.lhsIdx
  rw [dif_pos (show (1 : Fin S4x16x2048x2048.rank) ∈ dot_S4x16x2048x2048_S4x16x2048x64_S4x16x2048x64_3_2_2_3_01_01.lhsBatch by decide)]
  rfl
theorem lhs_main_v16_2 (i : S4x16x2048x64.Idx) (q : dot_S4x16x2048x2048_S4x16x2048x64_S4x16x2048x64_3_2_2_3_01_01.contr.Idx) :
    (dot_S4x16x2048x2048_S4x16x2048x64_S4x16x2048x64_3_2_2_3_01_01.lhsIdx i q 2).val = (i 2).val := by
  unfold DotDims.lhsIdx
  rw [dif_neg (show ¬(2 : Fin S4x16x2048x2048.rank) ∈ dot_S4x16x2048x2048_S4x16x2048x64_S4x16x2048x64_3_2_2_3_01_01.lhsBatch by decide), dif_pos (show (2 : Fin S4x16x2048x2048.rank) ∈ dot_S4x16x2048x2048_S4x16x2048x64_S4x16x2048x64_3_2_2_3_01_01.lhsNonContracting by decide)]
  rfl
theorem lhs_main_v16_3 (i : S4x16x2048x64.Idx) (q : dot_S4x16x2048x2048_S4x16x2048x64_S4x16x2048x64_3_2_2_3_01_01.contr.Idx) :
    (dot_S4x16x2048x2048_S4x16x2048x64_S4x16x2048x64_3_2_2_3_01_01.lhsIdx i q 3).val = (q ⟨0, by decide⟩).val :=
  dot_S4x16x2048x2048_S4x16x2048x64_S4x16x2048x64_3_2_2_3_01_01.lhsIdx_val_of_single rfl i q
theorem rhs_main_v16_0 (i : S4x16x2048x64.Idx) (q : dot_S4x16x2048x2048_S4x16x2048x64_S4x16x2048x64_3_2_2_3_01_01.contr.Idx) :
    (dot_S4x16x2048x2048_S4x16x2048x64_S4x16x2048x64_3_2_2_3_01_01.rhsIdx i q 0).val = (i 0).val := by
  unfold DotDims.rhsIdx
  rw [dif_pos (show (0 : Fin S4x16x2048x64.rank) ∈ dot_S4x16x2048x2048_S4x16x2048x64_S4x16x2048x64_3_2_2_3_01_01.rhsBatch by decide)]
  rfl
theorem rhs_main_v16_1 (i : S4x16x2048x64.Idx) (q : dot_S4x16x2048x2048_S4x16x2048x64_S4x16x2048x64_3_2_2_3_01_01.contr.Idx) :
    (dot_S4x16x2048x2048_S4x16x2048x64_S4x16x2048x64_3_2_2_3_01_01.rhsIdx i q 1).val = (i 1).val := by
  unfold DotDims.rhsIdx
  rw [dif_pos (show (1 : Fin S4x16x2048x64.rank) ∈ dot_S4x16x2048x2048_S4x16x2048x64_S4x16x2048x64_3_2_2_3_01_01.rhsBatch by decide)]
  rfl
theorem rhs_main_v16_2 (i : S4x16x2048x64.Idx) (q : dot_S4x16x2048x2048_S4x16x2048x64_S4x16x2048x64_3_2_2_3_01_01.contr.Idx) :
    (dot_S4x16x2048x2048_S4x16x2048x64_S4x16x2048x64_3_2_2_3_01_01.rhsIdx i q 2).val = (q ⟨0, by decide⟩).val :=
  dot_S4x16x2048x2048_S4x16x2048x64_S4x16x2048x64_3_2_2_3_01_01.rhsIdx_val_of_single rfl i q
theorem rhs_main_v16_3 (i : S4x16x2048x64.Idx) (q : dot_S4x16x2048x2048_S4x16x2048x64_S4x16x2048x64_3_2_2_3_01_01.contr.Idx) :
    (dot_S4x16x2048x2048_S4x16x2048x64_S4x16x2048x64_3_2_2_3_01_01.rhsIdx i q 3).val = (i 3).val := by
  unfold DotDims.rhsIdx
  rw [dif_neg (show ¬(3 : Fin S4x16x2048x64.rank) ∈ dot_S4x16x2048x2048_S4x16x2048x64_S4x16x2048x64_3_2_2_3_01_01.rhsBatch by decide), dif_pos (show (3 : Fin S4x16x2048x64.rank) ∈ dot_S4x16x2048x2048_S4x16x2048x64_S4x16x2048x64_3_2_2_3_01_01.rhsNonContracting by decide)]
  rfl
abbrev lidx_main_v16 (i : S4x16x2048x64.Idx) (k : Fin 2048) : S4x16x2048x2048.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
abbrev ridx_main_v16 (i : S4x16x2048x64.Idx) (k : Fin 2048) : S4x16x2048x64.Idx := fun a => match a with
  | ⟨0, _⟩ => ⟨(i 0).val, (i 0).isLt⟩
  | ⟨1, _⟩ => ⟨(i 1).val, (i 1).isLt⟩
  | ⟨2, _⟩ => ⟨k.val, k.isLt⟩
  | ⟨3, _⟩ => ⟨(i 3).val, (i 3).isLt⟩
/-- Stated at `F := Ideal`, where the host's `dot_general` is this sum; at a bit-exact instance it is an opaque function of its operands. -/
theorem val_main_v16_apply (x0 : (⟨S4x2048x1024, .f32⟩ : BufTy).Contents (Elt Ideal)) (i : S4x16x2048x64.Idx) :
    val_main_v16 (F := Ideal) x0 i = ∑ k : Fin 2048, (val_main_v15 (F := Ideal) x0) (lidx_main_v16 i k) * (val_main_v1 (F := Ideal) x0) (ridx_main_v16 i k) := by
  unfold val_main_v16
  generalize val_main_v15 (F := Ideal) x0 = y0
  generalize val_main_v1 (F := Ideal) x0 = y1
  simp only [Host.dotGeneral]
  rw [Ideal.dotGeneral_apply, ← Equiv.sum_comp (ValueIdx.contrEquiv1 dot_S4x16x2048x2048_S4x16x2048x64_S4x16x2048x64_3_2_2_3_01_01 2048 rfl rfl).symm]
  refine Finset.sum_congr rfl fun k _ => ?_
  have hk := ValueIdx.contrEquiv1_symm_val dot_S4x16x2048x2048_S4x16x2048x64_S4x16x2048x64_3_2_2_3_01_01 2048 rfl rfl k
  have el : dot_S4x16x2048x2048_S4x16x2048x64_S4x16x2048x64_3_2_2_3_01_01.lhsIdx i ((ValueIdx.contrEquiv1 dot_S4x16x2048x2048_S4x16x2048x64_S4x16x2048x64_3_2_2_3_01_01 2048 rfl rfl).symm k) = lidx_main_v16 i k := funext fun a => Fin.ext (by
    match a with
    | ⟨0, _⟩ => exact lhs_main_v16_0 _ _
    | ⟨1, _⟩ => exact lhs_main_v16_1 _ _
    | ⟨2, _⟩ => exact lhs_main_v16_2 _ _
    | ⟨3, _⟩ => exact (lhs_main_v16_3 _ _).trans hk)
  have er : dot_S4x16x2048x2048_S4x16x2048x64_S4x16x2048x64_3_2_2_3_01_01.rhsIdx i ((ValueIdx.contrEquiv1 dot_S4x16x2048x2048_S4x16x2048x64_S4x16x2048x64_3_2_2_3_01_01 2048 rfl rfl).symm k) = ridx_main_v16 i k := funext fun a => Fin.ext (by
    match a with
    | ⟨0, _⟩ => exact rhs_main_v16_0 _ _
    | ⟨1, _⟩ => exact rhs_main_v16_1 _ _
    | ⟨2, _⟩ => exact (rhs_main_v16_2 _ _).trans hk
    | ⟨3, _⟩ => exact rhs_main_v16_3 _ _)
  rw [el, er]

-- %17 = stablehlo.transpose %16, dims = [0, 2, 1, 3] : (tensor<4x16x2048x64xf32>) -> tensor<4x2048x16x64xf32>
def val_main_v17 (x0 : (⟨S4x2048x1024, .f32⟩ : BufTy).Contents (Elt F)) : (⟨S4x2048x16x64, .f32⟩ : BufTy).Contents (Elt F) :=
  transpose S4x2048x16x64 [0, 2, 1, 3] (val_main_v16 (F := F) x0) transposes_S4x16x2048x64_S4x2048x16x64_0_2_1_3
abbrev idx_main_v17 (i : S4x2048x16x64.Idx) : S4x16x2048x64.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨(i 3).val, (i 3).isLt⟩
theorem val_main_v17_apply (x0 : (⟨S4x2048x1024, .f32⟩ : BufTy).Contents (Elt F)) (i : S4x2048x16x64.Idx) :
    val_main_v17 (F := F) x0 i = val_main_v16 (F := F) x0 (idx_main_v17 i) := by
  unfold val_main_v17
  generalize val_main_v16 (F := F) x0 = y
  exact transpose_apply [0, 2, 1, 3] y transposes_S4x16x2048x64_S4x2048x16x64_0_2_1_3 i (idx_main_v17 i) (fun b => match b with
    | ⟨0, _⟩ => rfl
    | ⟨1, _⟩ => rfl
    | ⟨2, _⟩ => rfl
    | ⟨3, _⟩ => rfl)

-- %18 = stablehlo.reshape %17 : (tensor<4x2048x16x64xf32>) -> tensor<4x2048x1024xf32>
def val_main_v18 (x0 : (⟨S4x2048x1024, .f32⟩ : BufTy).Contents (Elt F)) : (⟨S4x2048x1024, .f32⟩ : BufTy).Contents (Elt F) :=
  shapeCast _ (val_main_v17 (F := F) x0) shapeCasts_S4x2048x16x64_S4x2048x1024
abbrev idx_main_v18 (i : S4x2048x1024.Idx) : S4x2048x16x64.Idx := fun a => match a with
  | ⟨0, _⟩ => ⟨(((i 0).val * 2048 + (i 1).val) * 1024 + (i 2).val) / 2097152, by have h0 : (i 0).val < 4 := (i 0).isLt; have h1 : (i 1).val < 2048 := (i 1).isLt; have h2 : (i 2).val < 1024 := (i 2).isLt; show (((i 0).val * 2048 + (i 1).val) * 1024 + (i 2).val) / 2097152 < 4; omega⟩
  | ⟨1, _⟩ => ⟨(((i 0).val * 2048 + (i 1).val) * 1024 + (i 2).val) / 1024 % 2048, by have h0 : (i 0).val < 4 := (i 0).isLt; have h1 : (i 1).val < 2048 := (i 1).isLt; have h2 : (i 2).val < 1024 := (i 2).isLt; show (((i 0).val * 2048 + (i 1).val) * 1024 + (i 2).val) / 1024 % 2048 < 2048; omega⟩
  | ⟨2, _⟩ => ⟨(((i 0).val * 2048 + (i 1).val) * 1024 + (i 2).val) / 64 % 16, by have h0 : (i 0).val < 4 := (i 0).isLt; have h1 : (i 1).val < 2048 := (i 1).isLt; have h2 : (i 2).val < 1024 := (i 2).isLt; show (((i 0).val * 2048 + (i 1).val) * 1024 + (i 2).val) / 64 % 16 < 16; omega⟩
  | ⟨3, _⟩ => ⟨(((i 0).val * 2048 + (i 1).val) * 1024 + (i 2).val) % 64, by have h0 : (i 0).val < 4 := (i 0).isLt; have h1 : (i 1).val < 2048 := (i 1).isLt; have h2 : (i 2).val < 1024 := (i 2).isLt; show (((i 0).val * 2048 + (i 1).val) * 1024 + (i 2).val) % 64 < 64; omega⟩
theorem val_main_v18_apply (x0 : (⟨S4x2048x1024, .f32⟩ : BufTy).Contents (Elt F)) (i : S4x2048x1024.Idx) :
    val_main_v18 (F := F) x0 i = val_main_v17 (F := F) x0 (idx_main_v18 i) := by
  unfold val_main_v18
  generalize val_main_v17 (F := F) x0 = y
  exact shapeCast_apply y shapeCasts_S4x2048x16x64_S4x2048x1024 i (idx_main_v18 i)
    (by rewrite [Shape.rowMajor_val_four, Shape.rowMajor_val_three]; have h0 : (i 0).val < 4 := (i 0).isLt; have h1 : (i 1).val < 2048 := (i 1).isLt; have h2 : (i 2).val < 1024 := (i 2).isLt; show (((((i 0).val * 2048 + (i 1).val) * 1024 + (i 2).val) / 2097152 * 2048 + (((i 0).val * 2048 + (i 1).val) * 1024 + (i 2).val) / 1024 % 2048) * 16 + (((i 0).val * 2048 + (i 1).val) * 1024 + (i 2).val) / 64 % 16) * 64 + (((i 0).val * 2048 + (i 1).val) * 1024 + (i 2).val) % 64 = ((i 0).val * 2048 + (i 1).val) * 1024 + (i 2).val; omega)

-- %19 = stablehlo.add %arg0, %18 : tensor<4x2048x1024xf32>
def val_main_v19 (x0 : (⟨S4x2048x1024, .f32⟩ : BufTy).Contents (Elt F)) : (⟨S4x2048x1024, .f32⟩ : BufTy).Contents (Elt F) :=
  addf (x0) (val_main_v18 (F := F) x0)
theorem val_main_v19_apply (x0 : (⟨S4x2048x1024, .f32⟩ : BufTy).Contents (Elt F)) (i : S4x2048x1024.Idx) :
    val_main_v19 (F := F) x0 i = FloatOps.addf (x0 i) (val_main_v18 (F := F) x0 i) := rfl

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- %20 = stablehlo.reduce(%19 init: %cst_3) applies stablehlo.add across dimensions = [2] : (tensor<4x2048x1024xf32>, tensor<f32>) -> tensor<4x2048xf32> {
def val_main_v20 (x0 : (⟨S4x2048x1024, .f32⟩ : BufTy).Contents (Elt F)) : (⟨S4x2048, .f32⟩ : BufTy).Contents (Elt F) :=
  Host.reduceAdd (val_main_v19 (F := F) x0) (val_main_cst_3 (F := F)) reducesTo_S4x2048x1024_S4x2048_d2 h_S_
abbrev idx_main_v20 (i : S4x2048.Idx) (k : Fin 1024) : S4x2048x1024.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v20_apply (x0 : (⟨S4x2048x1024, .f32⟩ : BufTy).Contents (Elt Ideal)) (i : S4x2048.Idx) :
    val_main_v20 (F := Ideal) x0 i = (val_main_cst_3 (F := Ideal)) (Shape.Idx.first h_S_) + ∑ k : Fin 1024, (val_main_v19 (F := Ideal) x0) (idx_main_v20 i k) := by
  unfold val_main_v20
  generalize val_main_v19 (F := Ideal) x0 = y0
  simp only [Host.reduceAdd, Ideal.hostReduceAdd_def]
  rw [Ideal.hostReduceAdd_single reducesTo_S4x2048x1024_S4x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %21 = stablehlo.broadcast_in_dim %20, dims = [0, 1] : (tensor<4x2048xf32>) -> tensor<4x2048x1xf32>
def val_main_v21 (x0 : (⟨S4x2048x1024, .f32⟩ : BufTy).Contents (Elt F)) : (⟨S4x2048x1, .f32⟩ : BufTy).Contents (Elt F) :=
  broadcastInDim S4x2048x1 ![0, 1] bcast_S4x2048_S4x2048x1_0_1 (val_main_v20 (F := F) x0)
abbrev idx_main_v21 (i : S4x2048x1.Idx) : S4x2048.Idx := fun a => match a with
  | ⟨0, _⟩ => ⟨(i 0).val, (i 0).isLt⟩
  | ⟨1, _⟩ => ⟨(i 1).val, (i 1).isLt⟩
theorem val_main_v21_apply (x0 : (⟨S4x2048x1024, .f32⟩ : BufTy).Contents (Elt F)) (i : S4x2048x1.Idx) :
    val_main_v21 (F := F) x0 i = val_main_v20 (F := F) x0 (idx_main_v21 i) := by
  unfold val_main_v21
  generalize val_main_v20 (F := F) x0 = y
  exact broadcastInDim_apply _ bcast_S4x2048_S4x2048x1_0_1 y i (idx_main_v21 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)])

-- %cst_4 = stablehlo.constant dense<1.024000e+03> : tensor<f32>
def val_main_cst_4 : (⟨S_, .f32⟩ : BufTy).Contents (Elt F) :=
  constant S_ .f32 0x44800000#32
theorem val_main_cst_4_apply (i : S_.Idx) :
    val_main_cst_4 (F := F) i = FloatOps.ofBits .f32 0x44800000#32 := rfl

-- %22 = stablehlo.broadcast_in_dim %cst_4, dims = [] : (tensor<f32>) -> tensor<4x2048x1xf32>
def val_main_v22 : (⟨S4x2048x1, .f32⟩ : BufTy).Contents (Elt F) :=
  broadcastInDim S4x2048x1 ![] bcast_S_S4x2048x1 (val_main_cst_4 (F := F))
abbrev idx_main_v22 (i : S4x2048x1.Idx) : S_.Idx := fun a => a.elim0
theorem val_main_v22_apply (i : S4x2048x1.Idx) :
    val_main_v22 (F := F) i = val_main_cst_4 (F := F) (idx_main_v22 i) := by
  unfold val_main_v22
  generalize val_main_cst_4 (F := F) = y
  exact broadcastInDim_apply _ bcast_S_S4x2048x1 y i (idx_main_v22 i) (fun a => a.elim0)

-- %23 = stablehlo.divide %21, %22 : tensor<4x2048x1xf32>
def val_main_v23 (x0 : (⟨S4x2048x1024, .f32⟩ : BufTy).Contents (Elt F)) : (⟨S4x2048x1, .f32⟩ : BufTy).Contents (Elt F) :=
  Host.divf (val_main_v21 (F := F) x0) (val_main_v22 (F := F))
theorem val_main_v23_apply (x0 : (⟨S4x2048x1024, .f32⟩ : BufTy).Contents (Elt F)) (i : S4x2048x1.Idx) :
    val_main_v23 (F := F) x0 i = FloatOps.hostDivf (val_main_v21 (F := F) x0 i) (val_main_v22 (F := F) i) := rfl

-- %24 = stablehlo.broadcast_in_dim %23, dims = [0, 1, 2] : (tensor<4x2048x1xf32>) -> tensor<4x2048x1024xf32>
def val_main_v24 (x0 : (⟨S4x2048x1024, .f32⟩ : BufTy).Contents (Elt F)) : (⟨S4x2048x1024, .f32⟩ : BufTy).Contents (Elt F) :=
  broadcastInDim S4x2048x1024 ![0, 1, 2] bcast_S4x2048x1_S4x2048x1024_0_1_2 (val_main_v23 (F := F) x0)
abbrev idx_main_v24 (i : S4x2048x1024.Idx) : S4x2048x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v24_apply (x0 : (⟨S4x2048x1024, .f32⟩ : BufTy).Contents (Elt F)) (i : S4x2048x1024.Idx) :
    val_main_v24 (F := F) x0 i = val_main_v23 (F := F) x0 (idx_main_v24 i) := by
  unfold val_main_v24
  generalize val_main_v23 (F := F) x0 = y
  exact broadcastInDim_apply _ bcast_S4x2048x1_S4x2048x1024_0_1_2 y i (idx_main_v24 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

-- %25 = stablehlo.subtract %19, %24 : tensor<4x2048x1024xf32>
def val_main_v25 (x0 : (⟨S4x2048x1024, .f32⟩ : BufTy).Contents (Elt F)) : (⟨S4x2048x1024, .f32⟩ : BufTy).Contents (Elt F) :=
  subf (val_main_v19 (F := F) x0) (val_main_v24 (F := F) x0)
theorem val_main_v25_apply (x0 : (⟨S4x2048x1024, .f32⟩ : BufTy).Contents (Elt F)) (i : S4x2048x1024.Idx) :
    val_main_v25 (F := F) x0 i = FloatOps.subf (val_main_v19 (F := F) x0 i) (val_main_v24 (F := F) x0 i) := rfl

-- %26 = chlo.square %25 : tensor<4x2048x1024xf32> -> tensor<4x2048x1024xf32>
def val_main_v26 (x0 : (⟨S4x2048x1024, .f32⟩ : BufTy).Contents (Elt F)) : (⟨S4x2048x1024, .f32⟩ : BufTy).Contents (Elt F) :=
  mulf (val_main_v25 (F := F) x0) (val_main_v25 (F := F) x0)
theorem val_main_v26_apply (x0 : (⟨S4x2048x1024, .f32⟩ : BufTy).Contents (Elt F)) (i : S4x2048x1024.Idx) :
    val_main_v26 (F := F) x0 i = FloatOps.mulf (val_main_v25 (F := F) x0 i) (val_main_v25 (F := F) x0 i) := rfl

-- %cst_5 = stablehlo.constant dense<0.000000e+00> : tensor<f32>
def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

-- %27 = stablehlo.reduce(%26 init: %cst_5) applies stablehlo.add across dimensions = [2] : (tensor<4x2048x1024xf32>, tensor<f32>) -> tensor<4x2048xf32> {
def val_main_v27 (x0 : (⟨S4x2048x1024, .f32⟩ : BufTy).Contents (Elt F)) : (⟨S4x2048, .f32⟩ : BufTy).Contents (Elt F) :=
  Host.reduceAdd (val_main_v26 (F := F) x0) (val_main_cst_5 (F := F)) reducesTo_S4x2048x1024_S4x2048_d2 h_S_
abbrev idx_main_v27 (i : S4x2048.Idx) (k : Fin 1024) : S4x2048x1024.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v27_apply (x0 : (⟨S4x2048x1024, .f32⟩ : BufTy).Contents (Elt Ideal)) (i : S4x2048.Idx) :
    val_main_v27 (F := Ideal) x0 i = (val_main_cst_5 (F := Ideal)) (Shape.Idx.first h_S_) + ∑ k : Fin 1024, (val_main_v26 (F := Ideal) x0) (idx_main_v27 i k) := by
  unfold val_main_v27
  generalize val_main_v26 (F := Ideal) x0 = y0
  simp only [Host.reduceAdd, Ideal.hostReduceAdd_def]
  rw [Ideal.hostReduceAdd_single reducesTo_S4x2048x1024_S4x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %28 = stablehlo.broadcast_in_dim %27, dims = [0, 1] : (tensor<4x2048xf32>) -> tensor<4x2048x1xf32>
def val_main_v28 (x0 : (⟨S4x2048x1024, .f32⟩ : BufTy).Contents (Elt F)) : (⟨S4x2048x1, .f32⟩ : BufTy).Contents (Elt F) :=
  broadcastInDim S4x2048x1 ![0, 1] bcast_S4x2048_S4x2048x1_0_1 (val_main_v27 (F := F) x0)
abbrev idx_main_v28 (i : S4x2048x1.Idx) : S4x2048.Idx := fun a => match a with
  | ⟨0, _⟩ => ⟨(i 0).val, (i 0).isLt⟩
  | ⟨1, _⟩ => ⟨(i 1).val, (i 1).isLt⟩
theorem val_main_v28_apply (x0 : (⟨S4x2048x1024, .f32⟩ : BufTy).Contents (Elt F)) (i : S4x2048x1.Idx) :
    val_main_v28 (F := F) x0 i = val_main_v27 (F := F) x0 (idx_main_v28 i) := by
  unfold val_main_v28
  generalize val_main_v27 (F := F) x0 = y
  exact broadcastInDim_apply _ bcast_S4x2048_S4x2048x1_0_1 y i (idx_main_v28 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)])

-- %cst_6 = stablehlo.constant dense<1.024000e+03> : tensor<f32>
def val_main_cst_6 : (⟨S_, .f32⟩ : BufTy).Contents (Elt F) :=
  constant S_ .f32 0x44800000#32
theorem val_main_cst_6_apply (i : S_.Idx) :
    val_main_cst_6 (F := F) i = FloatOps.ofBits .f32 0x44800000#32 := rfl

-- %29 = stablehlo.broadcast_in_dim %cst_6, dims = [] : (tensor<f32>) -> tensor<4x2048x1xf32>
def val_main_v29 : (⟨S4x2048x1, .f32⟩ : BufTy).Contents (Elt F) :=
  broadcastInDim S4x2048x1 ![] bcast_S_S4x2048x1 (val_main_cst_6 (F := F))
abbrev idx_main_v29 (i : S4x2048x1.Idx) : S_.Idx := fun a => a.elim0
theorem val_main_v29_apply (i : S4x2048x1.Idx) :
    val_main_v29 (F := F) i = val_main_cst_6 (F := F) (idx_main_v29 i) := by
  unfold val_main_v29
  generalize val_main_cst_6 (F := F) = y
  exact broadcastInDim_apply _ bcast_S_S4x2048x1 y i (idx_main_v29 i) (fun a => a.elim0)

-- %30 = stablehlo.divide %28, %29 : tensor<4x2048x1xf32>
def val_main_v30 (x0 : (⟨S4x2048x1024, .f32⟩ : BufTy).Contents (Elt F)) : (⟨S4x2048x1, .f32⟩ : BufTy).Contents (Elt F) :=
  Host.divf (val_main_v28 (F := F) x0) (val_main_v29 (F := F))
theorem val_main_v30_apply (x0 : (⟨S4x2048x1024, .f32⟩ : BufTy).Contents (Elt F)) (i : S4x2048x1.Idx) :
    val_main_v30 (F := F) x0 i = FloatOps.hostDivf (val_main_v28 (F := F) x0 i) (val_main_v29 (F := F) i) := rfl

-- %31 = stablehlo.broadcast_in_dim %23, dims = [0, 1, 2] : (tensor<4x2048x1xf32>) -> tensor<4x2048x1024xf32>
def val_main_v31 (x0 : (⟨S4x2048x1024, .f32⟩ : BufTy).Contents (Elt F)) : (⟨S4x2048x1024, .f32⟩ : BufTy).Contents (Elt F) :=
  broadcastInDim S4x2048x1024 ![0, 1, 2] bcast_S4x2048x1_S4x2048x1024_0_1_2 (val_main_v23 (F := F) x0)
abbrev idx_main_v31 (i : S4x2048x1024.Idx) : S4x2048x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v31_apply (x0 : (⟨S4x2048x1024, .f32⟩ : BufTy).Contents (Elt F)) (i : S4x2048x1024.Idx) :
    val_main_v31 (F := F) x0 i = val_main_v23 (F := F) x0 (idx_main_v31 i) := by
  unfold val_main_v31
  generalize val_main_v23 (F := F) x0 = y
  exact broadcastInDim_apply _ bcast_S4x2048x1_S4x2048x1024_0_1_2 y i (idx_main_v31 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

-- %32 = stablehlo.subtract %19, %31 : tensor<4x2048x1024xf32>
def val_main_v32 (x0 : (⟨S4x2048x1024, .f32⟩ : BufTy).Contents (Elt F)) : (⟨S4x2048x1024, .f32⟩ : BufTy).Contents (Elt F) :=
  subf (val_main_v19 (F := F) x0) (val_main_v31 (F := F) x0)
theorem val_main_v32_apply (x0 : (⟨S4x2048x1024, .f32⟩ : BufTy).Contents (Elt F)) (i : S4x2048x1024.Idx) :
    val_main_v32 (F := F) x0 i = FloatOps.subf (val_main_v19 (F := F) x0 i) (val_main_v31 (F := F) x0 i) := rfl

-- %cst_7 = stablehlo.constant dense<9.99999974E-6> : tensor<f32>
def val_main_cst_7 : (⟨S_, .f32⟩ : BufTy).Contents (Elt F) :=
  constant S_ .f32 0x3727C5AC#32
theorem val_main_cst_7_apply (i : S_.Idx) :
    val_main_cst_7 (F := F) i = FloatOps.ofBits .f32 0x3727C5AC#32 := rfl

-- %33 = stablehlo.broadcast_in_dim %cst_7, dims = [] : (tensor<f32>) -> tensor<4x2048x1xf32>
def val_main_v33 : (⟨S4x2048x1, .f32⟩ : BufTy).Contents (Elt F) :=
  broadcastInDim S4x2048x1 ![] bcast_S_S4x2048x1 (val_main_cst_7 (F := F))
abbrev idx_main_v33 (i : S4x2048x1.Idx) : S_.Idx := fun a => a.elim0
theorem val_main_v33_apply (i : S4x2048x1.Idx) :
    val_main_v33 (F := F) i = val_main_cst_7 (F := F) (idx_main_v33 i) := by
  unfold val_main_v33
  generalize val_main_cst_7 (F := F) = y
  exact broadcastInDim_apply _ bcast_S_S4x2048x1 y i (idx_main_v33 i) (fun a => a.elim0)

-- %34 = stablehlo.add %30, %33 : tensor<4x2048x1xf32>
def val_main_v34 (x0 : (⟨S4x2048x1024, .f32⟩ : BufTy).Contents (Elt F)) : (⟨S4x2048x1, .f32⟩ : BufTy).Contents (Elt F) :=
  addf (val_main_v30 (F := F) x0) (val_main_v33 (F := F))
theorem val_main_v34_apply (x0 : (⟨S4x2048x1024, .f32⟩ : BufTy).Contents (Elt F)) (i : S4x2048x1.Idx) :
    val_main_v34 (F := F) x0 i = FloatOps.addf (val_main_v30 (F := F) x0 i) (val_main_v33 (F := F) i) := rfl

-- %35 = stablehlo.rsqrt %34 : tensor<4x2048x1xf32>
def val_main_v35 (x0 : (⟨S4x2048x1024, .f32⟩ : BufTy).Contents (Elt F)) : (⟨S4x2048x1, .f32⟩ : BufTy).Contents (Elt F) :=
  Host.rsqrt (val_main_v34 (F := F) x0)
theorem val_main_v35_apply (x0 : (⟨S4x2048x1024, .f32⟩ : BufTy).Contents (Elt F)) (i : S4x2048x1.Idx) :
    val_main_v35 (F := F) x0 i = FloatOps.hostUnary .rsqrt (val_main_v34 (F := F) x0 i) := rfl

-- %36 = stablehlo.broadcast_in_dim %35, dims = [0, 1, 2] : (tensor<4x2048x1xf32>) -> tensor<4x2048x1024xf32>
def val_main_v36 (x0 : (⟨S4x2048x1024, .f32⟩ : BufTy).Contents (Elt F)) : (⟨S4x2048x1024, .f32⟩ : BufTy).Contents (Elt F) :=
  broadcastInDim S4x2048x1024 ![0, 1, 2] bcast_S4x2048x1_S4x2048x1024_0_1_2 (val_main_v35 (F := F) x0)
abbrev idx_main_v36 (i : S4x2048x1024.Idx) : S4x2048x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v36_apply (x0 : (⟨S4x2048x1024, .f32⟩ : BufTy).Contents (Elt F)) (i : S4x2048x1024.Idx) :
    val_main_v36 (F := F) x0 i = val_main_v35 (F := F) x0 (idx_main_v36 i) := by
  unfold val_main_v36
  generalize val_main_v35 (F := F) x0 = y
  exact broadcastInDim_apply _ bcast_S4x2048x1_S4x2048x1024_0_1_2 y i (idx_main_v36 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

-- %37 = stablehlo.multiply %32, %36 : tensor<4x2048x1024xf32>
def val_main_v37 (x0 : (⟨S4x2048x1024, .f32⟩ : BufTy).Contents (Elt F)) : (⟨S4x2048x1024, .f32⟩ : BufTy).Contents (Elt F) :=
  mulf (val_main_v32 (F := F) x0) (val_main_v36 (F := F) x0)
theorem val_main_v37_apply (x0 : (⟨S4x2048x1024, .f32⟩ : BufTy).Contents (Elt F)) (i : S4x2048x1024.Idx) :
    val_main_v37 (F := F) x0 i = FloatOps.mulf (val_main_v32 (F := F) x0 i) (val_main_v36 (F := F) x0 i) := rfl

-- %38 = stablehlo.broadcast_in_dim %arg6, dims = [2] : (tensor<1024xf32>) -> tensor<1x1x1024xf32>
def val_main_v38 (x6 : (⟨S1024, .f32⟩ : BufTy).Contents (Elt F)) : (⟨S1x1x1024, .f32⟩ : BufTy).Contents (Elt F) :=
  broadcastInDim S1x1x1024 ![2] bcast_S1024_S1x1x1024_2 (x6)
abbrev idx_main_v38 (i : S1x1x1024.Idx) : S1024.Idx := fun a => match a with
  | ⟨0, _⟩ => ⟨(i 2).val, (i 2).isLt⟩
theorem val_main_v38_apply (x6 : (⟨S1024, .f32⟩ : BufTy).Contents (Elt F)) (i : S1x1x1024.Idx) :
    val_main_v38 (F := F) x6 i = x6 (idx_main_v38 i) := by
  unfold val_main_v38
  exact broadcastInDim_apply _ bcast_S1024_S1x1x1024_2 x6 i (idx_main_v38 i) (fun a => match a with
    | ⟨0, _⟩ => by show (i 2).val = if (1024 : Nat) = 1 then 0 else (i 2).val; rw [if_neg (by decide)])

-- %39 = stablehlo.broadcast_in_dim %38, dims = [0, 1, 2] : (tensor<1x1x1024xf32>) -> tensor<4x2048x1024xf32>
def val_main_v39 (x6 : (⟨S1024, .f32⟩ : BufTy).Contents (Elt F)) : (⟨S4x2048x1024, .f32⟩ : BufTy).Contents (Elt F) :=
  broadcastInDim S4x2048x1024 ![0, 1, 2] bcast_S1x1x1024_S4x2048x1024_0_1_2 (val_main_v38 (F := F) x6)
abbrev idx_main_v39 (i : S4x2048x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩
theorem val_main_v39_apply (x6 : (⟨S1024, .f32⟩ : BufTy).Contents (Elt F)) (i : S4x2048x1024.Idx) :
    val_main_v39 (F := F) x6 i = val_main_v38 (F := F) x6 (idx_main_v39 i) := by
  unfold val_main_v39
  generalize val_main_v38 (F := F) x6 = y
  exact broadcastInDim_apply _ bcast_S1x1x1024_S4x2048x1024_0_1_2 y i (idx_main_v39 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

-- %40 = stablehlo.multiply %37, %39 : tensor<4x2048x1024xf32>
def val_main_v40 (x0 : (⟨S4x2048x1024, .f32⟩ : BufTy).Contents (Elt F)) (x6 : (⟨S1024, .f32⟩ : BufTy).Contents (Elt F)) : (⟨S4x2048x1024, .f32⟩ : BufTy).Contents (Elt F) :=
  mulf (val_main_v37 (F := F) x0) (val_main_v39 (F := F) x6)
theorem val_main_v40_apply (x0 : (⟨S4x2048x1024, .f32⟩ : BufTy).Contents (Elt F)) (x6 : (⟨S1024, .f32⟩ : BufTy).Contents (Elt F)) (i : S4x2048x1024.Idx) :
    val_main_v40 (F := F) x0 x6 i = FloatOps.mulf (val_main_v37 (F := F) x0 i) (val_main_v39 (F := F) x6 i) := rfl

-- %41 = stablehlo.broadcast_in_dim %arg7, dims = [2] : (tensor<1024xf32>) -> tensor<1x1x1024xf32>
def val_main_v41 (x7 : (⟨S1024, .f32⟩ : BufTy).Contents (Elt F)) : (⟨S1x1x1024, .f32⟩ : BufTy).Contents (Elt F) :=
  broadcastInDim S1x1x1024 ![2] bcast_S1024_S1x1x1024_2 (x7)
abbrev idx_main_v41 (i : S1x1x1024.Idx) : S1024.Idx := fun a => match a with
  | ⟨0, _⟩ => ⟨(i 2).val, (i 2).isLt⟩
theorem val_main_v41_apply (x7 : (⟨S1024, .f32⟩ : BufTy).Contents (Elt F)) (i : S1x1x1024.Idx) :
    val_main_v41 (F := F) x7 i = x7 (idx_main_v41 i) := by
  unfold val_main_v41
  exact broadcastInDim_apply _ bcast_S1024_S1x1x1024_2 x7 i (idx_main_v41 i) (fun a => match a with
    | ⟨0, _⟩ => by show (i 2).val = if (1024 : Nat) = 1 then 0 else (i 2).val; rw [if_neg (by decide)])

-- %42 = stablehlo.broadcast_in_dim %41, dims = [0, 1, 2] : (tensor<1x1x1024xf32>) -> tensor<4x2048x1024xf32>
def val_main_v42 (x7 : (⟨S1024, .f32⟩ : BufTy).Contents (Elt F)) : (⟨S4x2048x1024, .f32⟩ : BufTy).Contents (Elt F) :=
  broadcastInDim S4x2048x1024 ![0, 1, 2] bcast_S1x1x1024_S4x2048x1024_0_1_2 (val_main_v41 (F := F) x7)
abbrev idx_main_v42 (i : S4x2048x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩
theorem val_main_v42_apply (x7 : (⟨S1024, .f32⟩ : BufTy).Contents (Elt F)) (i : S4x2048x1024.Idx) :
    val_main_v42 (F := F) x7 i = val_main_v41 (F := F) x7 (idx_main_v42 i) := by
  unfold val_main_v42
  generalize val_main_v41 (F := F) x7 = y
  exact broadcastInDim_apply _ bcast_S1x1x1024_S4x2048x1024_0_1_2 y i (idx_main_v42 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

-- %43 = stablehlo.add %40, %42 : tensor<4x2048x1024xf32>
def val_main_v43 (x0 : (⟨S4x2048x1024, .f32⟩ : BufTy).Contents (Elt F)) (x6 x7 : (⟨S1024, .f32⟩ : BufTy).Contents (Elt F)) : (⟨S4x2048x1024, .f32⟩ : BufTy).Contents (Elt F) :=
  addf (val_main_v40 (F := F) x0 x6) (val_main_v42 (F := F) x7)
theorem val_main_v43_apply (x0 : (⟨S4x2048x1024, .f32⟩ : BufTy).Contents (Elt F)) (x6 x7 : (⟨S1024, .f32⟩ : BufTy).Contents (Elt F)) (i : S4x2048x1024.Idx) :
    val_main_v43 (F := F) x0 x6 x7 i = FloatOps.addf (val_main_v40 (F := F) x0 x6 i) (val_main_v42 (F := F) x7 i) := rfl

-- %44 = stablehlo.slice %43 [0:4, 0:2048, 0:8] : (tensor<4x2048x1024xf32>) -> tensor<4x2048x8xf32>
def val_main_v44 (x0 : (⟨S4x2048x1024, .f32⟩ : BufTy).Contents (Elt F)) (x6 x7 : (⟨S1024, .f32⟩ : BufTy).Contents (Elt F)) : (⟨S4x2048x8, .f32⟩ : BufTy).Contents (Elt F) :=
  extractStridedSlice S4x2048x8 ![0, 0, 0] (val_main_v43 (F := F) x0 x6 x7) slices_S4x2048x1024_S4x2048x8_0_0_0
abbrev idx_main_v44 (i : S4x2048x8.Idx) : S4x2048x1024.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 8 := (i 2).isLt; show (i 2).val < 1024; omega⟩
theorem val_main_v44_apply (x0 : (⟨S4x2048x1024, .f32⟩ : BufTy).Contents (Elt F)) (x6 x7 : (⟨S1024, .f32⟩ : BufTy).Contents (Elt F)) (i : S4x2048x8.Idx) :
    val_main_v44 (F := F) x0 x6 x7 i = val_main_v43 (F := F) x0 x6 x7 (idx_main_v44 i) := by
  unfold val_main_v44
  generalize val_main_v43 (F := F) x0 x6 x7 = y
  exact extractStridedSlice_apply ![0, 0, 0] y slices_S4x2048x1024_S4x2048x8_0_0_0 i (idx_main_v44 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %45 = stablehlo.cosine %44 : tensor<4x2048x8xf32>
def val_main_v45 (x0 : (⟨S4x2048x1024, .f32⟩ : BufTy).Contents (Elt F)) (x6 x7 : (⟨S1024, .f32⟩ : BufTy).Contents (Elt F)) : (⟨S4x2048x8, .f32⟩ : BufTy).Contents (Elt F) :=
  Host.cos (val_main_v44 (F := F) x0 x6 x7)
theorem val_main_v45_apply (x0 : (⟨S4x2048x1024, .f32⟩ : BufTy).Contents (Elt F)) (x6 x7 : (⟨S1024, .f32⟩ : BufTy).Contents (Elt F)) (i : S4x2048x8.Idx) :
    val_main_v45 (F := F) x0 x6 x7 i = FloatOps.hostUnary .cos (val_main_v44 (F := F) x0 x6 x7 i) := rfl

-- %46 = stablehlo.cosine %arg1 : tensor<8xf32>
def val_main_v46 (x1 : (⟨S8, .f32⟩ : BufTy).Contents (Elt F)) : (⟨S8, .f32⟩ : BufTy).Contents (Elt F) :=
  Host.cos (x1)
theorem val_main_v46_apply (x1 : (⟨S8, .f32⟩ : BufTy).Contents (Elt F)) (i : S8.Idx) :
    val_main_v46 (F := F) x1 i = FloatOps.hostUnary .cos (x1 i) := rfl

-- %47 = stablehlo.broadcast_in_dim %46, dims = [2] : (tensor<8xf32>) -> tensor<1x1x8xf32>
def val_main_v47 (x1 : (⟨S8, .f32⟩ : BufTy).Contents (Elt F)) : (⟨S1x1x8, .f32⟩ : BufTy).Contents (Elt F) :=
  broadcastInDim S1x1x8 ![2] bcast_S8_S1x1x8_2 (val_main_v46 (F := F) x1)
abbrev idx_main_v47 (i : S1x1x8.Idx) : S8.Idx := fun a => match a with
  | ⟨0, _⟩ => ⟨(i 2).val, (i 2).isLt⟩
theorem val_main_v47_apply (x1 : (⟨S8, .f32⟩ : BufTy).Contents (Elt F)) (i : S1x1x8.Idx) :
    val_main_v47 (F := F) x1 i = val_main_v46 (F := F) x1 (idx_main_v47 i) := by
  unfold val_main_v47
  generalize val_main_v46 (F := F) x1 = y
  exact broadcastInDim_apply _ bcast_S8_S1x1x8_2 y i (idx_main_v47 i) (fun a => match a with
    | ⟨0, _⟩ => by show (i 2).val = if (8 : Nat) = 1 then 0 else (i 2).val; rw [if_neg (by decide)])

-- %48 = stablehlo.broadcast_in_dim %47, dims = [0, 1, 2] : (tensor<1x1x8xf32>) -> tensor<4x2048x8xf32>
def val_main_v48 (x1 : (⟨S8, .f32⟩ : BufTy).Contents (Elt F)) : (⟨S4x2048x8, .f32⟩ : BufTy).Contents (Elt F) :=
  broadcastInDim S4x2048x8 ![0, 1, 2] bcast_S1x1x8_S4x2048x8_0_1_2 (val_main_v47 (F := F) x1)
abbrev idx_main_v48 (i : S4x2048x8.Idx) : S1x1x8.Idx := fun a => match a with
  | ⟨0, _⟩ => ⟨0, Nat.one_pos⟩
  | ⟨1, _⟩ => ⟨0, Nat.one_pos⟩
  | ⟨2, _⟩ => ⟨(i 2).val, (i 2).isLt⟩
theorem val_main_v48_apply (x1 : (⟨S8, .f32⟩ : BufTy).Contents (Elt F)) (i : S4x2048x8.Idx) :
    val_main_v48 (F := F) x1 i = val_main_v47 (F := F) x1 (idx_main_v48 i) := by
  unfold val_main_v48
  generalize val_main_v47 (F := F) x1 = y
  exact broadcastInDim_apply _ bcast_S1x1x8_S4x2048x8_0_1_2 y i (idx_main_v48 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (8 : Nat) = 1 then 0 else (i 2).val; rw [if_neg (by decide)])

-- %49 = stablehlo.multiply %45, %48 : tensor<4x2048x8xf32>
def val_main_v49 (x0 : (⟨S4x2048x1024, .f32⟩ : BufTy).Contents (Elt F)) (x1 : (⟨S8, .f32⟩ : BufTy).Contents (Elt F)) (x6 x7 : (⟨S1024, .f32⟩ : BufTy).Contents (Elt F)) : (⟨S4x2048x8, .f32⟩ : BufTy).Contents (Elt F) :=
  mulf (val_main_v45 (F := F) x0 x6 x7) (val_main_v48 (F := F) x1)
theorem val_main_v49_apply (x0 : (⟨S4x2048x1024, .f32⟩ : BufTy).Contents (Elt F)) (x1 : (⟨S8, .f32⟩ : BufTy).Contents (Elt F)) (x6 x7 : (⟨S1024, .f32⟩ : BufTy).Contents (Elt F)) (i : S4x2048x8.Idx) :
    val_main_v49 (F := F) x0 x1 x6 x7 i = FloatOps.mulf (val_main_v45 (F := F) x0 x6 x7 i) (val_main_v48 (F := F) x1 i) := rfl

-- %50 = stablehlo.dot_general %49, %arg2, contracting_dims = [2] x [1], precision = [DEFAULT, DEFAULT] : (tensor<4x2048x8xf32>, tensor<4096x8xf32>) -> tensor<4x2048x4096xf32>
def val_main_v50 (x0 : (⟨S4x2048x1024, .f32⟩ : BufTy).Contents (Elt F)) (x1 : (⟨S8, .f32⟩ : BufTy).Contents (Elt F)) (x2 : (⟨S4096x8, .f32⟩ : BufTy).Contents (Elt F)) (x6 x7 : (⟨S1024, .f32⟩ : BufTy).Contents (Elt F)) : (⟨S4x2048x4096, .f32⟩ : BufTy).Contents (Elt F) :=
  Host.dotGeneral dot_S4x2048x8_S4096x8_S4x2048x4096_2_1_01_0_n_n none (val_main_v49 (F := F) x0 x1 x6 x7) (x2)
theorem lhs_main_v50_0 (i : S4x2048x4096.Idx) (q : dot_S4x2048x8_S4096x8_S4x2048x4096_2_1_01_0_n_n.contr.Idx) :
    (dot_S4x2048x8_S4096x8_S4x2048x4096_2_1_01_0_n_n.lhsIdx i q 0).val = (i 0).val := by
  unfold DotDims.lhsIdx
  rw [dif_neg (show ¬(0 : Fin S4x2048x8.rank) ∈ dot_S4x2048x8_S4096x8_S4x2048x4096_2_1_01_0_n_n.lhsBatch by decide), dif_pos (show (0 : Fin S4x2048x8.rank) ∈ dot_S4x2048x8_S4096x8_S4x2048x4096_2_1_01_0_n_n.lhsNonContracting by decide)]
  rfl
theorem lhs_main_v50_1 (i : S4x2048x4096.Idx) (q : dot_S4x2048x8_S4096x8_S4x2048x4096_2_1_01_0_n_n.contr.Idx) :
    (dot_S4x2048x8_S4096x8_S4x2048x4096_2_1_01_0_n_n.lhsIdx i q 1).val = (i 1).val := by
  unfold DotDims.lhsIdx
  rw [dif_neg (show ¬(1 : Fin S4x2048x8.rank) ∈ dot_S4x2048x8_S4096x8_S4x2048x4096_2_1_01_0_n_n.lhsBatch by decide), dif_pos (show (1 : Fin S4x2048x8.rank) ∈ dot_S4x2048x8_S4096x8_S4x2048x4096_2_1_01_0_n_n.lhsNonContracting by decide)]
  rfl
theorem lhs_main_v50_2 (i : S4x2048x4096.Idx) (q : dot_S4x2048x8_S4096x8_S4x2048x4096_2_1_01_0_n_n.contr.Idx) :
    (dot_S4x2048x8_S4096x8_S4x2048x4096_2_1_01_0_n_n.lhsIdx i q 2).val = (q ⟨0, by decide⟩).val :=
  dot_S4x2048x8_S4096x8_S4x2048x4096_2_1_01_0_n_n.lhsIdx_val_of_single rfl i q
theorem rhs_main_v50_0 (i : S4x2048x4096.Idx) (q : dot_S4x2048x8_S4096x8_S4x2048x4096_2_1_01_0_n_n.contr.Idx) :
    (dot_S4x2048x8_S4096x8_S4x2048x4096_2_1_01_0_n_n.rhsIdx i q 0).val = (i 2).val := by
  unfold DotDims.rhsIdx
  rw [dif_neg (show ¬(0 : Fin S4096x8.rank) ∈ dot_S4x2048x8_S4096x8_S4x2048x4096_2_1_01_0_n_n.rhsBatch by decide), dif_pos (show (0 : Fin S4096x8.rank) ∈ dot_S4x2048x8_S4096x8_S4x2048x4096_2_1_01_0_n_n.rhsNonContracting by decide)]
  rfl
theorem rhs_main_v50_1 (i : S4x2048x4096.Idx) (q : dot_S4x2048x8_S4096x8_S4x2048x4096_2_1_01_0_n_n.contr.Idx) :
    (dot_S4x2048x8_S4096x8_S4x2048x4096_2_1_01_0_n_n.rhsIdx i q 1).val = (q ⟨0, by decide⟩).val :=
  dot_S4x2048x8_S4096x8_S4x2048x4096_2_1_01_0_n_n.rhsIdx_val_of_single rfl i q
abbrev lidx_main_v50 (i : S4x2048x4096.Idx) (k : Fin 8) : S4x2048x8.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v50 (i : S4x2048x4096.Idx) (k : Fin 8) : S4096x8.Idx := fun a => match a with
  | ⟨0, _⟩ => ⟨(i 2).val, (i 2).isLt⟩
  | ⟨1, _⟩ => ⟨k.val, k.isLt⟩
/-- Stated at `F := Ideal`, where the host's `dot_general` is this sum; at a bit-exact instance it is an opaque function of its operands. -/
theorem val_main_v50_apply (x0 : (⟨S4x2048x1024, .f32⟩ : BufTy).Contents (Elt Ideal)) (x1 : (⟨S8, .f32⟩ : BufTy).Contents (Elt Ideal)) (x2 : (⟨S4096x8, .f32⟩ : BufTy).Contents (Elt Ideal)) (x6 x7 : (⟨S1024, .f32⟩ : BufTy).Contents (Elt Ideal)) (i : S4x2048x4096.Idx) :
    val_main_v50 (F := Ideal) x0 x1 x2 x6 x7 i = ∑ k : Fin 8, (val_main_v49 (F := Ideal) x0 x1 x6 x7) (lidx_main_v50 i k) * x2 (ridx_main_v50 i k) := by
  unfold val_main_v50
  generalize val_main_v49 (F := Ideal) x0 x1 x6 x7 = y0
  simp only [Host.dotGeneral]
  rw [Ideal.dotGeneral_apply, ← Equiv.sum_comp (ValueIdx.contrEquiv1 dot_S4x2048x8_S4096x8_S4x2048x4096_2_1_01_0_n_n 8 rfl rfl).symm]
  refine Finset.sum_congr rfl fun k _ => ?_
  have hk := ValueIdx.contrEquiv1_symm_val dot_S4x2048x8_S4096x8_S4x2048x4096_2_1_01_0_n_n 8 rfl rfl k
  have el : dot_S4x2048x8_S4096x8_S4x2048x4096_2_1_01_0_n_n.lhsIdx i ((ValueIdx.contrEquiv1 dot_S4x2048x8_S4096x8_S4x2048x4096_2_1_01_0_n_n 8 rfl rfl).symm k) = lidx_main_v50 i k := funext fun a => Fin.ext (by
    match a with
    | ⟨0, _⟩ => exact lhs_main_v50_0 _ _
    | ⟨1, _⟩ => exact lhs_main_v50_1 _ _
    | ⟨2, _⟩ => exact (lhs_main_v50_2 _ _).trans hk)
  have er : dot_S4x2048x8_S4096x8_S4x2048x4096_2_1_01_0_n_n.rhsIdx i ((ValueIdx.contrEquiv1 dot_S4x2048x8_S4096x8_S4x2048x4096_2_1_01_0_n_n 8 rfl rfl).symm k) = ridx_main_v50 i k := funext fun a => Fin.ext (by
    match a with
    | ⟨0, _⟩ => exact rhs_main_v50_0 _ _
    | ⟨1, _⟩ => exact (rhs_main_v50_1 _ _).trans hk)
  rw [el, er]

-- %51 = stablehlo.broadcast_in_dim %arg3, dims = [2] : (tensor<4096xf32>) -> tensor<1x1x4096xf32>
def val_main_v51 (x3 : (⟨S4096, .f32⟩ : BufTy).Contents (Elt F)) : (⟨S1x1x4096, .f32⟩ : BufTy).Contents (Elt F) :=
  broadcastInDim S1x1x4096 ![2] bcast_S4096_S1x1x4096_2 (x3)
abbrev idx_main_v51 (i : S1x1x4096.Idx) : S4096.Idx := fun a => match a with
  | ⟨0, _⟩ => ⟨(i 2).val, (i 2).isLt⟩
theorem val_main_v51_apply (x3 : (⟨S4096, .f32⟩ : BufTy).Contents (Elt F)) (i : S1x1x4096.Idx) :
    val_main_v51 (F := F) x3 i = x3 (idx_main_v51 i) := by
  unfold val_main_v51
  exact broadcastInDim_apply _ bcast_S4096_S1x1x4096_2 x3 i (idx_main_v51 i) (fun a => match a with
    | ⟨0, _⟩ => by show (i 2).val = if (4096 : Nat) = 1 then 0 else (i 2).val; rw [if_neg (by decide)])

-- %52 = stablehlo.broadcast_in_dim %51, dims = [0, 1, 2] : (tensor<1x1x4096xf32>) -> tensor<4x2048x4096xf32>
def val_main_v52 (x3 : (⟨S4096, .f32⟩ : BufTy).Contents (Elt F)) : (⟨S4x2048x4096, .f32⟩ : BufTy).Contents (Elt F) :=
  broadcastInDim S4x2048x4096 ![0, 1, 2] bcast_S1x1x4096_S4x2048x4096_0_1_2 (val_main_v51 (F := F) x3)
abbrev idx_main_v52 (i : S4x2048x4096.Idx) : S1x1x4096.Idx := fun a => match a with
  | ⟨0, _⟩ => ⟨0, Nat.one_pos⟩
  | ⟨1, _⟩ => ⟨0, Nat.one_pos⟩
  | ⟨2, _⟩ => ⟨(i 2).val, (i 2).isLt⟩
theorem val_main_v52_apply (x3 : (⟨S4096, .f32⟩ : BufTy).Contents (Elt F)) (i : S4x2048x4096.Idx) :
    val_main_v52 (F := F) x3 i = val_main_v51 (F := F) x3 (idx_main_v52 i) := by
  unfold val_main_v52
  generalize val_main_v51 (F := F) x3 = y
  exact broadcastInDim_apply _ bcast_S1x1x4096_S4x2048x4096_0_1_2 y i (idx_main_v52 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (4096 : Nat) = 1 then 0 else (i 2).val; rw [if_neg (by decide)])

-- %53 = stablehlo.add %50, %52 : tensor<4x2048x4096xf32>
def val_main_v53 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x6 x7 : (⟨S1024, .f32⟩ : BufTy).Contents (Elt F)) : (⟨S4x2048x4096, .f32⟩ : BufTy).Contents (Elt F) :=
  addf (val_main_v50 (F := F) x0 x1 x2 x6 x7) (val_main_v52 (F := F) x3)
theorem val_main_v53_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x6 x7 : (⟨S1024, .f32⟩ : BufTy).Contents (Elt F)) (i : S4x2048x4096.Idx) :
    val_main_v53 (F := F) x0 x1 x2 x3 x6 x7 i = FloatOps.addf (val_main_v50 (F := F) x0 x1 x2 x6 x7 i) (val_main_v52 (F := F) x3 i) := rfl

-- @relu's %cst = stablehlo.constant dense<0.000000e+00> : tensor<f32>, in %54 = func.call @relu(…) (record main_call0)
def val_main_call0_cst : (⟨S_, .f32⟩ : BufTy).Contents (Elt F) :=
  constant S_ .f32 0x00000000#32
theorem val_main_call0_cst_apply (i : S_.Idx) :
    val_main_call0_cst (F := F) i = FloatOps.ofBits .f32 0x00000000#32 := rfl

-- @relu's %0 = stablehlo.broadcast_in_dim %cst, dims = [] : (tensor<f32>) -> tensor<4x2048x4096xf32>, in %54 = func.call @relu(…) (record main_call0)
def val_main_call0_v0 : (⟨S4x2048x4096, .f32⟩ : BufTy).Contents (Elt F) :=
  broadcastInDim S4x2048x4096 ![] bcast_S_S4x2048x4096 (val_main_call0_cst (F := F))
abbrev idx_main_call0_v0 (i : S4x2048x4096.Idx) : S_.Idx := fun a => a.elim0
theorem val_main_call0_v0_apply (i : S4x2048x4096.Idx) :
    val_main_call0_v0 (F := F) i = val_main_call0_cst (F := F) (idx_main_call0_v0 i) := by
  unfold val_main_call0_v0
  generalize val_main_call0_cst (F := F) = y
  exact broadcastInDim_apply _ bcast_S_S4x2048x4096 y i (idx_main_call0_v0 i) (fun a => a.elim0)

-- %54 = func.call @relu(…) (record main_call0) result 0: @relu's %1 = stablehlo.maximum %arg0, %0 : tensor<4x2048x4096xf32>
def val_main_v54 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x6 x7 : (⟨S1024, .f32⟩ : BufTy).Contents (Elt F)) : (⟨S4x2048x4096, .f32⟩ : BufTy).Contents (Elt F) :=
  maximumf (val_main_v53 (F := F) x0 x1 x2 x3 x6 x7) (val_main_call0_v0 (F := F))
theorem val_main_v54_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x6 x7 : (⟨S1024, .f32⟩ : BufTy).Contents (Elt F)) (i : S4x2048x4096.Idx) :
    val_main_v54 (F := F) x0 x1 x2 x3 x6 x7 i = FloatOps.maximumf (val_main_v53 (F := F) x0 x1 x2 x3 x6 x7 i) (val_main_call0_v0 (F := F) i) := rfl

-- %55 = stablehlo.dot_general %54, %arg4, contracting_dims = [2] x [1], precision = [DEFAULT, DEFAULT] : (tensor<4x2048x4096xf32>, tensor<1024x4096xf32>) -> tensor<4x2048x1024xf32>
def val_main_v55 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x6 x7 : (⟨S1024, .f32⟩ : BufTy).Contents (Elt F)) : (⟨S4x2048x1024, .f32⟩ : BufTy).Contents (Elt F) :=
  Host.dotGeneral dot_S4x2048x4096_S1024x4096_S4x2048x1024_2_1_01_0_n_n none (val_main_v54 (F := F) x0 x1 x2 x3 x6 x7) (x4)
theorem lhs_main_v55_0 (i : S4x2048x1024.Idx) (q : dot_S4x2048x4096_S1024x4096_S4x2048x1024_2_1_01_0_n_n.contr.Idx) :
    (dot_S4x2048x4096_S1024x4096_S4x2048x1024_2_1_01_0_n_n.lhsIdx i q 0).val = (i 0).val := by
  unfold DotDims.lhsIdx
  rw [dif_neg (show ¬(0 : Fin S4x2048x4096.rank) ∈ dot_S4x2048x4096_S1024x4096_S4x2048x1024_2_1_01_0_n_n.lhsBatch by decide), dif_pos (show (0 : Fin S4x2048x4096.rank) ∈ dot_S4x2048x4096_S1024x4096_S4x2048x1024_2_1_01_0_n_n.lhsNonContracting by decide)]
  rfl
theorem lhs_main_v55_1 (i : S4x2048x1024.Idx) (q : dot_S4x2048x4096_S1024x4096_S4x2048x1024_2_1_01_0_n_n.contr.Idx) :
    (dot_S4x2048x4096_S1024x4096_S4x2048x1024_2_1_01_0_n_n.lhsIdx i q 1).val = (i 1).val := by
  unfold DotDims.lhsIdx
  rw [dif_neg (show ¬(1 : Fin S4x2048x4096.rank) ∈ dot_S4x2048x4096_S1024x4096_S4x2048x1024_2_1_01_0_n_n.lhsBatch by decide), dif_pos (show (1 : Fin S4x2048x4096.rank) ∈ dot_S4x2048x4096_S1024x4096_S4x2048x1024_2_1_01_0_n_n.lhsNonContracting by decide)]
  rfl
theorem lhs_main_v55_2 (i : S4x2048x1024.Idx) (q : dot_S4x2048x4096_S1024x4096_S4x2048x1024_2_1_01_0_n_n.contr.Idx) :
    (dot_S4x2048x4096_S1024x4096_S4x2048x1024_2_1_01_0_n_n.lhsIdx i q 2).val = (q ⟨0, by decide⟩).val :=
  dot_S4x2048x4096_S1024x4096_S4x2048x1024_2_1_01_0_n_n.lhsIdx_val_of_single rfl i q
theorem rhs_main_v55_0 (i : S4x2048x1024.Idx) (q : dot_S4x2048x4096_S1024x4096_S4x2048x1024_2_1_01_0_n_n.contr.Idx) :
    (dot_S4x2048x4096_S1024x4096_S4x2048x1024_2_1_01_0_n_n.rhsIdx i q 0).val = (i 2).val := by
  unfold DotDims.rhsIdx
  rw [dif_neg (show ¬(0 : Fin S1024x4096.rank) ∈ dot_S4x2048x4096_S1024x4096_S4x2048x1024_2_1_01_0_n_n.rhsBatch by decide), dif_pos (show (0 : Fin S1024x4096.rank) ∈ dot_S4x2048x4096_S1024x4096_S4x2048x1024_2_1_01_0_n_n.rhsNonContracting by decide)]
  rfl
theorem rhs_main_v55_1 (i : S4x2048x1024.Idx) (q : dot_S4x2048x4096_S1024x4096_S4x2048x1024_2_1_01_0_n_n.contr.Idx) :
    (dot_S4x2048x4096_S1024x4096_S4x2048x1024_2_1_01_0_n_n.rhsIdx i q 1).val = (q ⟨0, by decide⟩).val :=
  dot_S4x2048x4096_S1024x4096_S4x2048x1024_2_1_01_0_n_n.rhsIdx_val_of_single rfl i q
abbrev lidx_main_v55 (i : S4x2048x1024.Idx) (k : Fin 4096) : S4x2048x4096.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v55 (i : S4x2048x1024.Idx) (k : Fin 4096) : S1024x4096.Idx := fun a => match a with
  | ⟨0, _⟩ => ⟨(i 2).val, (i 2).isLt⟩
  | ⟨1, _⟩ => ⟨k.val, k.isLt⟩
/-- Stated at `F := Ideal`, where the host's `dot_general` is this sum; at a bit-exact instance it is an opaque function of its operands. -/
theorem val_main_v55_apply (x0 : (⟨S4x2048x1024, .f32⟩ : BufTy).Contents (Elt Ideal)) (x1 : (⟨S8, .f32⟩ : BufTy).Contents (Elt Ideal)) (x2 : (⟨S4096x8, .f32⟩ : BufTy).Contents (Elt Ideal)) (x3 : (⟨S4096, .f32⟩ : BufTy).Contents (Elt Ideal)) (x4 : (⟨S1024x4096, .f32⟩ : BufTy).Contents (Elt Ideal)) (x6 x7 : (⟨S1024, .f32⟩ : BufTy).Contents (Elt Ideal)) (i : S4x2048x1024.Idx) :
    val_main_v55 (F := Ideal) x0 x1 x2 x3 x4 x6 x7 i = ∑ k : Fin 4096, (val_main_v54 (F := Ideal) x0 x1 x2 x3 x6 x7) (lidx_main_v55 i k) * x4 (ridx_main_v55 i k) := by
  unfold val_main_v55
  generalize val_main_v54 (F := Ideal) x0 x1 x2 x3 x6 x7 = y0
  simp only [Host.dotGeneral]
  rw [Ideal.dotGeneral_apply, ← Equiv.sum_comp (ValueIdx.contrEquiv1 dot_S4x2048x4096_S1024x4096_S4x2048x1024_2_1_01_0_n_n 4096 rfl rfl).symm]
  refine Finset.sum_congr rfl fun k _ => ?_
  have hk := ValueIdx.contrEquiv1_symm_val dot_S4x2048x4096_S1024x4096_S4x2048x1024_2_1_01_0_n_n 4096 rfl rfl k
  have el : dot_S4x2048x4096_S1024x4096_S4x2048x1024_2_1_01_0_n_n.lhsIdx i ((ValueIdx.contrEquiv1 dot_S4x2048x4096_S1024x4096_S4x2048x1024_2_1_01_0_n_n 4096 rfl rfl).symm k) = lidx_main_v55 i k := funext fun a => Fin.ext (by
    match a with
    | ⟨0, _⟩ => exact lhs_main_v55_0 _ _
    | ⟨1, _⟩ => exact lhs_main_v55_1 _ _
    | ⟨2, _⟩ => exact (lhs_main_v55_2 _ _).trans hk)
  have er : dot_S4x2048x4096_S1024x4096_S4x2048x1024_2_1_01_0_n_n.rhsIdx i ((ValueIdx.contrEquiv1 dot_S4x2048x4096_S1024x4096_S4x2048x1024_2_1_01_0_n_n 4096 rfl rfl).symm k) = ridx_main_v55 i k := funext fun a => Fin.ext (by
    match a with
    | ⟨0, _⟩ => exact rhs_main_v55_0 _ _
    | ⟨1, _⟩ => exact (rhs_main_v55_1 _ _).trans hk)
  rw [el, er]

-- %56 = stablehlo.broadcast_in_dim %arg5, dims = [2] : (tensor<1024xf32>) -> tensor<1x1x1024xf32>
def val_main_v56 (x5 : (⟨S1024, .f32⟩ : BufTy).Contents (Elt F)) : (⟨S1x1x1024, .f32⟩ : BufTy).Contents (Elt F) :=
  broadcastInDim S1x1x1024 ![2] bcast_S1024_S1x1x1024_2 (x5)
abbrev idx_main_v56 (i : S1x1x1024.Idx) : S1024.Idx := fun a => match a with
  | ⟨0, _⟩ => ⟨(i 2).val, (i 2).isLt⟩
theorem val_main_v56_apply (x5 : (⟨S1024, .f32⟩ : BufTy).Contents (Elt F)) (i : S1x1x1024.Idx) :
    val_main_v56 (F := F) x5 i = x5 (idx_main_v56 i) := by
  unfold val_main_v56
  exact broadcastInDim_apply _ bcast_S1024_S1x1x1024_2 x5 i (idx_main_v56 i) (fun a => match a with
    | ⟨0, _⟩ => by show (i 2).val = if (1024 : Nat) = 1 then 0 else (i 2).val; rw [if_neg (by decide)])

-- %57 = stablehlo.broadcast_in_dim %56, dims = [0, 1, 2] : (tensor<1x1x1024xf32>) -> tensor<4x2048x1024xf32>
def val_main_v57 (x5 : (⟨S1024, .f32⟩ : BufTy).Contents (Elt F)) : (⟨S4x2048x1024, .f32⟩ : BufTy).Contents (Elt F) :=
  broadcastInDim S4x2048x1024 ![0, 1, 2] bcast_S1x1x1024_S4x2048x1024_0_1_2 (val_main_v56 (F := F) x5)
abbrev idx_main_v57 (i : S4x2048x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩
theorem val_main_v57_apply (x5 : (⟨S1024, .f32⟩ : BufTy).Contents (Elt F)) (i : S4x2048x1024.Idx) :
    val_main_v57 (F := F) x5 i = val_main_v56 (F := F) x5 (idx_main_v57 i) := by
  unfold val_main_v57
  generalize val_main_v56 (F := F) x5 = y
  exact broadcastInDim_apply _ bcast_S1x1x1024_S4x2048x1024_0_1_2 y i (idx_main_v57 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

-- %58 = stablehlo.add %55, %57 : tensor<4x2048x1024xf32>
def val_main_v58 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1024, .f32⟩ : BufTy).Contents (Elt F) :=
  addf (val_main_v55 (F := F) x0 x1 x2 x3 x4 x6 x7) (val_main_v57 (F := F) x5)
theorem val_main_v58_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1024.Idx) :
    val_main_v58 (F := F) x0 x1 x2 x3 x4 x5 x6 x7 i = FloatOps.addf (val_main_v55 (F := F) x0 x1 x2 x3 x4 x6 x7 i) (val_main_v57 (F := F) x5 i) := rfl

-- %59 = stablehlo.add %43, %58 : tensor<4x2048x1024xf32>
def val_main_v59 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1024, .f32⟩ : BufTy).Contents (Elt F) :=
  addf (val_main_v43 (F := F) x0 x6 x7) (val_main_v58 (F := F) x0 x1 x2 x3 x4 x5 x6 x7)
theorem val_main_v59_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1024.Idx) :
    val_main_v59 (F := F) x0 x1 x2 x3 x4 x5 x6 x7 i = FloatOps.addf (val_main_v43 (F := F) x0 x6 x7 i) (val_main_v58 (F := F) x0 x1 x2 x3 x4 x5 x6 x7 i) := rfl

-- %cst_8 = stablehlo.constant dense<0.000000e+00> : tensor<f32>
def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

-- %60 = stablehlo.reduce(%59 init: %cst_8) applies stablehlo.add across dimensions = [2] : (tensor<4x2048x1024xf32>, tensor<f32>) -> tensor<4x2048xf32> {
def val_main_v60 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048, .f32⟩ : BufTy).Contents (Elt F) :=
  Host.reduceAdd (val_main_v59 (F := F) x0 x1 x2 x3 x4 x5 x6 x7) (val_main_cst_8 (F := F)) reducesTo_S4x2048x1024_S4x2048_d2 h_S_
abbrev idx_main_v60 (i : S4x2048.Idx) (k : Fin 1024) : S4x2048x1024.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v60_apply (x0 : (⟨S4x2048x1024, .f32⟩ : BufTy).Contents (Elt Ideal)) (x1 : (⟨S8, .f32⟩ : BufTy).Contents (Elt Ideal)) (x2 : (⟨S4096x8, .f32⟩ : BufTy).Contents (Elt Ideal)) (x3 : (⟨S4096, .f32⟩ : BufTy).Contents (Elt Ideal)) (x4 : (⟨S1024x4096, .f32⟩ : BufTy).Contents (Elt Ideal)) (x5 x6 x7 : (⟨S1024, .f32⟩ : BufTy).Contents (Elt Ideal)) (i : S4x2048.Idx) :
    val_main_v60 (F := Ideal) x0 x1 x2 x3 x4 x5 x6 x7 i = (val_main_cst_8 (F := Ideal)) (Shape.Idx.first h_S_) + ∑ k : Fin 1024, (val_main_v59 (F := Ideal) x0 x1 x2 x3 x4 x5 x6 x7) (idx_main_v60 i k) := by
  unfold val_main_v60
  generalize val_main_v59 (F := Ideal) x0 x1 x2 x3 x4 x5 x6 x7 = y0
  simp only [Host.reduceAdd, Ideal.hostReduceAdd_def]
  rw [Ideal.hostReduceAdd_single reducesTo_S4x2048x1024_S4x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %61 = stablehlo.broadcast_in_dim %60, dims = [0, 1] : (tensor<4x2048xf32>) -> tensor<4x2048x1xf32>
def val_main_v61 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1, .f32⟩ : BufTy).Contents (Elt F) :=
  broadcastInDim S4x2048x1 ![0, 1] bcast_S4x2048_S4x2048x1_0_1 (val_main_v60 (F := F) x0 x1 x2 x3 x4 x5 x6 x7)
abbrev idx_main_v61 (i : S4x2048x1.Idx) : S4x2048.Idx := fun a => match a with
  | ⟨0, _⟩ => ⟨(i 0).val, (i 0).isLt⟩
  | ⟨1, _⟩ => ⟨(i 1).val, (i 1).isLt⟩
theorem val_main_v61_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1.Idx) :
    val_main_v61 (F := F) x0 x1 x2 x3 x4 x5 x6 x7 i = val_main_v60 (F := F) x0 x1 x2 x3 x4 x5 x6 x7 (idx_main_v61 i) := by
  unfold val_main_v61
  generalize val_main_v60 (F := F) x0 x1 x2 x3 x4 x5 x6 x7 = y
  exact broadcastInDim_apply _ bcast_S4x2048_S4x2048x1_0_1 y i (idx_main_v61 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)])

-- %cst_9 = stablehlo.constant dense<1.024000e+03> : tensor<f32>
def val_main_cst_9 : (⟨S_, .f32⟩ : BufTy).Contents (Elt F) :=
  constant S_ .f32 0x44800000#32
theorem val_main_cst_9_apply (i : S_.Idx) :
    val_main_cst_9 (F := F) i = FloatOps.ofBits .f32 0x44800000#32 := rfl

-- %62 = stablehlo.broadcast_in_dim %cst_9, dims = [] : (tensor<f32>) -> tensor<4x2048x1xf32>
def val_main_v62 : (⟨S4x2048x1, .f32⟩ : BufTy).Contents (Elt F) :=
  broadcastInDim S4x2048x1 ![] bcast_S_S4x2048x1 (val_main_cst_9 (F := F))
abbrev idx_main_v62 (i : S4x2048x1.Idx) : S_.Idx := fun a => a.elim0
theorem val_main_v62_apply (i : S4x2048x1.Idx) :
    val_main_v62 (F := F) i = val_main_cst_9 (F := F) (idx_main_v62 i) := by
  unfold val_main_v62
  generalize val_main_cst_9 (F := F) = y
  exact broadcastInDim_apply _ bcast_S_S4x2048x1 y i (idx_main_v62 i) (fun a => a.elim0)

-- %63 = stablehlo.divide %61, %62 : tensor<4x2048x1xf32>
def val_main_v63 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1, .f32⟩ : BufTy).Contents (Elt F) :=
  Host.divf (val_main_v61 (F := F) x0 x1 x2 x3 x4 x5 x6 x7) (val_main_v62 (F := F))
theorem val_main_v63_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1.Idx) :
    val_main_v63 (F := F) x0 x1 x2 x3 x4 x5 x6 x7 i = FloatOps.hostDivf (val_main_v61 (F := F) x0 x1 x2 x3 x4 x5 x6 x7 i) (val_main_v62 (F := F) i) := rfl

-- %64 = stablehlo.broadcast_in_dim %63, dims = [0, 1, 2] : (tensor<4x2048x1xf32>) -> tensor<4x2048x1024xf32>
def val_main_v64 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1024, .f32⟩ : BufTy).Contents (Elt F) :=
  broadcastInDim S4x2048x1024 ![0, 1, 2] bcast_S4x2048x1_S4x2048x1024_0_1_2 (val_main_v63 (F := F) x0 x1 x2 x3 x4 x5 x6 x7)
abbrev idx_main_v64 (i : S4x2048x1024.Idx) : S4x2048x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v64_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1024.Idx) :
    val_main_v64 (F := F) x0 x1 x2 x3 x4 x5 x6 x7 i = val_main_v63 (F := F) x0 x1 x2 x3 x4 x5 x6 x7 (idx_main_v64 i) := by
  unfold val_main_v64
  generalize val_main_v63 (F := F) x0 x1 x2 x3 x4 x5 x6 x7 = y
  exact broadcastInDim_apply _ bcast_S4x2048x1_S4x2048x1024_0_1_2 y i (idx_main_v64 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

-- %65 = stablehlo.subtract %59, %64 : tensor<4x2048x1024xf32>
def val_main_v65 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1024, .f32⟩ : BufTy).Contents (Elt F) :=
  subf (val_main_v59 (F := F) x0 x1 x2 x3 x4 x5 x6 x7) (val_main_v64 (F := F) x0 x1 x2 x3 x4 x5 x6 x7)
theorem val_main_v65_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1024.Idx) :
    val_main_v65 (F := F) x0 x1 x2 x3 x4 x5 x6 x7 i = FloatOps.subf (val_main_v59 (F := F) x0 x1 x2 x3 x4 x5 x6 x7 i) (val_main_v64 (F := F) x0 x1 x2 x3 x4 x5 x6 x7 i) := rfl

-- %66 = chlo.square %65 : tensor<4x2048x1024xf32> -> tensor<4x2048x1024xf32>
def val_main_v66 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1024, .f32⟩ : BufTy).Contents (Elt F) :=
  mulf (val_main_v65 (F := F) x0 x1 x2 x3 x4 x5 x6 x7) (val_main_v65 (F := F) x0 x1 x2 x3 x4 x5 x6 x7)
theorem val_main_v66_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1024.Idx) :
    val_main_v66 (F := F) x0 x1 x2 x3 x4 x5 x6 x7 i = FloatOps.mulf (val_main_v65 (F := F) x0 x1 x2 x3 x4 x5 x6 x7 i) (val_main_v65 (F := F) x0 x1 x2 x3 x4 x5 x6 x7 i) := rfl

-- %cst_10 = stablehlo.constant dense<0.000000e+00> : tensor<f32>
def val_main_cst_10 : (⟨S_, .f32⟩ : BufTy).Contents (Elt F) :=
  constant S_ .f32 0x00000000#32
theorem val_main_cst_10_apply (i : S_.Idx) :
    val_main_cst_10 (F := F) i = FloatOps.ofBits .f32 0x00000000#32 := rfl

-- %67 = stablehlo.reduce(%66 init: %cst_10) applies stablehlo.add across dimensions = [2] : (tensor<4x2048x1024xf32>, tensor<f32>) -> tensor<4x2048xf32> {
def val_main_v67 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048, .f32⟩ : BufTy).Contents (Elt F) :=
  Host.reduceAdd (val_main_v66 (F := F) x0 x1 x2 x3 x4 x5 x6 x7) (val_main_cst_10 (F := F)) reducesTo_S4x2048x1024_S4x2048_d2 h_S_
abbrev idx_main_v67 (i : S4x2048.Idx) (k : Fin 1024) : S4x2048x1024.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v67_apply (x0 : (⟨S4x2048x1024, .f32⟩ : BufTy).Contents (Elt Ideal)) (x1 : (⟨S8, .f32⟩ : BufTy).Contents (Elt Ideal)) (x2 : (⟨S4096x8, .f32⟩ : BufTy).Contents (Elt Ideal)) (x3 : (⟨S4096, .f32⟩ : BufTy).Contents (Elt Ideal)) (x4 : (⟨S1024x4096, .f32⟩ : BufTy).Contents (Elt Ideal)) (x5 x6 x7 : (⟨S1024, .f32⟩ : BufTy).Contents (Elt Ideal)) (i : S4x2048.Idx) :
    val_main_v67 (F := Ideal) x0 x1 x2 x3 x4 x5 x6 x7 i = (val_main_cst_10 (F := Ideal)) (Shape.Idx.first h_S_) + ∑ k : Fin 1024, (val_main_v66 (F := Ideal) x0 x1 x2 x3 x4 x5 x6 x7) (idx_main_v67 i k) := by
  unfold val_main_v67
  generalize val_main_v66 (F := Ideal) x0 x1 x2 x3 x4 x5 x6 x7 = y0
  simp only [Host.reduceAdd, Ideal.hostReduceAdd_def]
  rw [Ideal.hostReduceAdd_single reducesTo_S4x2048x1024_S4x2048_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %68 = stablehlo.broadcast_in_dim %67, dims = [0, 1] : (tensor<4x2048xf32>) -> tensor<4x2048x1xf32>
def val_main_v68 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1, .f32⟩ : BufTy).Contents (Elt F) :=
  broadcastInDim S4x2048x1 ![0, 1] bcast_S4x2048_S4x2048x1_0_1 (val_main_v67 (F := F) x0 x1 x2 x3 x4 x5 x6 x7)
abbrev idx_main_v68 (i : S4x2048x1.Idx) : S4x2048.Idx := fun a => match a with
  | ⟨0, _⟩ => ⟨(i 0).val, (i 0).isLt⟩
  | ⟨1, _⟩ => ⟨(i 1).val, (i 1).isLt⟩
theorem val_main_v68_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1.Idx) :
    val_main_v68 (F := F) x0 x1 x2 x3 x4 x5 x6 x7 i = val_main_v67 (F := F) x0 x1 x2 x3 x4 x5 x6 x7 (idx_main_v68 i) := by
  unfold val_main_v68
  generalize val_main_v67 (F := F) x0 x1 x2 x3 x4 x5 x6 x7 = y
  exact broadcastInDim_apply _ bcast_S4x2048_S4x2048x1_0_1 y i (idx_main_v68 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)])

-- %cst_11 = stablehlo.constant dense<1.024000e+03> : tensor<f32>
def val_main_cst_11 : (⟨S_, .f32⟩ : BufTy).Contents (Elt F) :=
  constant S_ .f32 0x44800000#32
theorem val_main_cst_11_apply (i : S_.Idx) :
    val_main_cst_11 (F := F) i = FloatOps.ofBits .f32 0x44800000#32 := rfl

-- %69 = stablehlo.broadcast_in_dim %cst_11, dims = [] : (tensor<f32>) -> tensor<4x2048x1xf32>
def val_main_v69 : (⟨S4x2048x1, .f32⟩ : BufTy).Contents (Elt F) :=
  broadcastInDim S4x2048x1 ![] bcast_S_S4x2048x1 (val_main_cst_11 (F := F))
abbrev idx_main_v69 (i : S4x2048x1.Idx) : S_.Idx := fun a => a.elim0
theorem val_main_v69_apply (i : S4x2048x1.Idx) :
    val_main_v69 (F := F) i = val_main_cst_11 (F := F) (idx_main_v69 i) := by
  unfold val_main_v69
  generalize val_main_cst_11 (F := F) = y
  exact broadcastInDim_apply _ bcast_S_S4x2048x1 y i (idx_main_v69 i) (fun a => a.elim0)

-- %70 = stablehlo.divide %68, %69 : tensor<4x2048x1xf32>
def val_main_v70 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1, .f32⟩ : BufTy).Contents (Elt F) :=
  Host.divf (val_main_v68 (F := F) x0 x1 x2 x3 x4 x5 x6 x7) (val_main_v69 (F := F))
theorem val_main_v70_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1.Idx) :
    val_main_v70 (F := F) x0 x1 x2 x3 x4 x5 x6 x7 i = FloatOps.hostDivf (val_main_v68 (F := F) x0 x1 x2 x3 x4 x5 x6 x7 i) (val_main_v69 (F := F) i) := rfl

-- %71 = stablehlo.broadcast_in_dim %63, dims = [0, 1, 2] : (tensor<4x2048x1xf32>) -> tensor<4x2048x1024xf32>
def val_main_v71 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1024, .f32⟩ : BufTy).Contents (Elt F) :=
  broadcastInDim S4x2048x1024 ![0, 1, 2] bcast_S4x2048x1_S4x2048x1024_0_1_2 (val_main_v63 (F := F) x0 x1 x2 x3 x4 x5 x6 x7)
abbrev idx_main_v71 (i : S4x2048x1024.Idx) : S4x2048x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v71_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1024.Idx) :
    val_main_v71 (F := F) x0 x1 x2 x3 x4 x5 x6 x7 i = val_main_v63 (F := F) x0 x1 x2 x3 x4 x5 x6 x7 (idx_main_v71 i) := by
  unfold val_main_v71
  generalize val_main_v63 (F := F) x0 x1 x2 x3 x4 x5 x6 x7 = y
  exact broadcastInDim_apply _ bcast_S4x2048x1_S4x2048x1024_0_1_2 y i (idx_main_v71 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

-- %72 = stablehlo.subtract %59, %71 : tensor<4x2048x1024xf32>
def val_main_v72 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1024, .f32⟩ : BufTy).Contents (Elt F) :=
  subf (val_main_v59 (F := F) x0 x1 x2 x3 x4 x5 x6 x7) (val_main_v71 (F := F) x0 x1 x2 x3 x4 x5 x6 x7)
theorem val_main_v72_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1024.Idx) :
    val_main_v72 (F := F) x0 x1 x2 x3 x4 x5 x6 x7 i = FloatOps.subf (val_main_v59 (F := F) x0 x1 x2 x3 x4 x5 x6 x7 i) (val_main_v71 (F := F) x0 x1 x2 x3 x4 x5 x6 x7 i) := rfl

-- %cst_12 = stablehlo.constant dense<9.99999974E-6> : tensor<f32>
def val_main_cst_12 : (⟨S_, .f32⟩ : BufTy).Contents (Elt F) :=
  constant S_ .f32 0x3727C5AC#32
theorem val_main_cst_12_apply (i : S_.Idx) :
    val_main_cst_12 (F := F) i = FloatOps.ofBits .f32 0x3727C5AC#32 := rfl

-- %73 = stablehlo.broadcast_in_dim %cst_12, dims = [] : (tensor<f32>) -> tensor<4x2048x1xf32>
def val_main_v73 : (⟨S4x2048x1, .f32⟩ : BufTy).Contents (Elt F) :=
  broadcastInDim S4x2048x1 ![] bcast_S_S4x2048x1 (val_main_cst_12 (F := F))
abbrev idx_main_v73 (i : S4x2048x1.Idx) : S_.Idx := fun a => a.elim0
theorem val_main_v73_apply (i : S4x2048x1.Idx) :
    val_main_v73 (F := F) i = val_main_cst_12 (F := F) (idx_main_v73 i) := by
  unfold val_main_v73
  generalize val_main_cst_12 (F := F) = y
  exact broadcastInDim_apply _ bcast_S_S4x2048x1 y i (idx_main_v73 i) (fun a => a.elim0)

-- %74 = stablehlo.add %70, %73 : tensor<4x2048x1xf32>
def val_main_v74 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1, .f32⟩ : BufTy).Contents (Elt F) :=
  addf (val_main_v70 (F := F) x0 x1 x2 x3 x4 x5 x6 x7) (val_main_v73 (F := F))
theorem val_main_v74_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1.Idx) :
    val_main_v74 (F := F) x0 x1 x2 x3 x4 x5 x6 x7 i = FloatOps.addf (val_main_v70 (F := F) x0 x1 x2 x3 x4 x5 x6 x7 i) (val_main_v73 (F := F) i) := rfl

-- %75 = stablehlo.rsqrt %74 : tensor<4x2048x1xf32>
def val_main_v75 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1, .f32⟩ : BufTy).Contents (Elt F) :=
  Host.rsqrt (val_main_v74 (F := F) x0 x1 x2 x3 x4 x5 x6 x7)
theorem val_main_v75_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1.Idx) :
    val_main_v75 (F := F) x0 x1 x2 x3 x4 x5 x6 x7 i = FloatOps.hostUnary .rsqrt (val_main_v74 (F := F) x0 x1 x2 x3 x4 x5 x6 x7 i) := rfl

-- %76 = stablehlo.broadcast_in_dim %75, dims = [0, 1, 2] : (tensor<4x2048x1xf32>) -> tensor<4x2048x1024xf32>
def val_main_v76 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1024, .f32⟩ : BufTy).Contents (Elt F) :=
  broadcastInDim S4x2048x1024 ![0, 1, 2] bcast_S4x2048x1_S4x2048x1024_0_1_2 (val_main_v75 (F := F) x0 x1 x2 x3 x4 x5 x6 x7)
abbrev idx_main_v76 (i : S4x2048x1024.Idx) : S4x2048x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v76_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1024.Idx) :
    val_main_v76 (F := F) x0 x1 x2 x3 x4 x5 x6 x7 i = val_main_v75 (F := F) x0 x1 x2 x3 x4 x5 x6 x7 (idx_main_v76 i) := by
  unfold val_main_v76
  generalize val_main_v75 (F := F) x0 x1 x2 x3 x4 x5 x6 x7 = y
  exact broadcastInDim_apply _ bcast_S4x2048x1_S4x2048x1024_0_1_2 y i (idx_main_v76 i) (fun a => match a with
    | ⟨0, _⟩ => by show (i 0).val = if (4 : Nat) = 1 then 0 else (i 0).val; rw [if_neg (by decide)]
    | ⟨1, _⟩ => by show (i 1).val = if (2048 : Nat) = 1 then 0 else (i 1).val; rw [if_neg (by decide)]
    | ⟨2, _⟩ => by show 0 = if (1 : Nat) = 1 then 0 else (i 2).val; rw [if_pos rfl])

-- %77 = stablehlo.multiply %72, %76 : tensor<4x2048x1024xf32>
def val_main_v77 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) : (⟨S4x2048x1024, .f32⟩ : BufTy).Contents (Elt F) :=
  mulf (val_main_v72 (F := F) x0 x1 x2 x3 x4 x5 x6 x7) (val_main_v76 (F := F) x0 x1 x2 x3 x4 x5 x6 x7)
theorem val_main_v77_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 : (⟨S1024, .f32⟩ : BufTy).Contents (Elt F)) (i : S4x2048x1024.Idx) :
    val_main_v77 (F := F) x0 x1 x2 x3 x4 x5 x6 x7 i = FloatOps.mulf (val_main_v72 (F := F) x0 x1 x2 x3 x4 x5 x6 x7 i) (val_main_v76 (F := F) x0 x1 x2 x3 x4 x5 x6 x7 i) := rfl

-- %78 = stablehlo.broadcast_in_dim %arg8, dims = [2] : (tensor<1024xf32>) -> tensor<1x1x1024xf32>
def val_main_v78 (x8 : (⟨S1024, .f32⟩ : BufTy).Contents (Elt F)) : (⟨S1x1x1024, .f32⟩ : BufTy).Contents (Elt F) :=
  broadcastInDim S1x1x1024 ![2] bcast_S1024_S1x1x1024_2 (x8)
abbrev idx_main_v78 (i : S1x1x1024.Idx) : S1024.Idx := fun a => match a with
  | ⟨0, _⟩ => ⟨(i 2).val, (i 2).isLt⟩
theorem val_main_v78_apply (x8 : (⟨S1024, .f32⟩ : BufTy).Contents (Elt F)) (i : S1x1x1024.Idx) :
    val_main_v78 (F := F) x8 i = x8 (idx_main_v78 i) := by
  unfold val_main_v78
  exact broadcastInDim_apply _ bcast_S1024_S1x1x1024_2 x8 i (idx_main_v78 i) (fun a => match a with
    | ⟨0, _⟩ => by show (i 2).val = if (1024 : Nat) = 1 then 0 else (i 2).val; rw [if_neg (by decide)])

-- %79 = stablehlo.broadcast_in_dim %78, dims = [0, 1, 2] : (tensor<1x1x1024xf32>) -> tensor<4x2048x1024xf32>
def val_main_v79 (x8 : (⟨S1024, .f32⟩ : BufTy).Contents (Elt F)) : (⟨S4x2048x1024, .f32⟩ : BufTy).Contents (Elt F) :=
  broadcastInDim S4x2048x1024 ![0, 1, 2] bcast_S1x1x1024_S4x2048x1024_0_1_2 (val_main_v78 (F := F) x8)
abbrev idx_main_v79 (i : S4x2048x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩
theorem val_main_v79_apply (x8 : (⟨S1024, .f32⟩ : BufTy).Contents (Elt F)) (i : S4x2048x1024.Idx) :
    val_main_v79 (F := F) x8 i = val_main_v78 (F := F) x8 (idx_main_v79 i) := by
  unfold val_main_v79
  generalize val_main_v78 (F := F) x8 = y
  exact broadcastInDim_apply _ bcast_S1x1x1024_S4x2048x1024_0_1_2 y i (idx_main_v79 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

-- %80 = stablehlo.multiply %77, %79 : tensor<4x2048x1024xf32>
def val_main_v80 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 x8 : (⟨S1024, .f32⟩ : BufTy).Contents (Elt F)) : (⟨S4x2048x1024, .f32⟩ : BufTy).Contents (Elt F) :=
  mulf (val_main_v77 (F := F) x0 x1 x2 x3 x4 x5 x6 x7) (val_main_v79 (F := F) x8)
theorem val_main_v80_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 x8 : (⟨S1024, .f32⟩ : BufTy).Contents (Elt F)) (i : S4x2048x1024.Idx) :
    val_main_v80 (F := F) x0 x1 x2 x3 x4 x5 x6 x7 x8 i = FloatOps.mulf (val_main_v77 (F := F) x0 x1 x2 x3 x4 x5 x6 x7 i) (val_main_v79 (F := F) x8 i) := rfl

-- %81 = stablehlo.broadcast_in_dim %arg9, dims = [2] : (tensor<1024xf32>) -> tensor<1x1x1024xf32>
def val_main_v81 (x9 : (⟨S1024, .f32⟩ : BufTy).Contents (Elt F)) : (⟨S1x1x1024, .f32⟩ : BufTy).Contents (Elt F) :=
  broadcastInDim S1x1x1024 ![2] bcast_S1024_S1x1x1024_2 (x9)
abbrev idx_main_v81 (i : S1x1x1024.Idx) : S1024.Idx := fun a => match a with
  | ⟨0, _⟩ => ⟨(i 2).val, (i 2).isLt⟩
theorem val_main_v81_apply (x9 : (⟨S1024, .f32⟩ : BufTy).Contents (Elt F)) (i : S1x1x1024.Idx) :
    val_main_v81 (F := F) x9 i = x9 (idx_main_v81 i) := by
  unfold val_main_v81
  exact broadcastInDim_apply _ bcast_S1024_S1x1x1024_2 x9 i (idx_main_v81 i) (fun a => match a with
    | ⟨0, _⟩ => by show (i 2).val = if (1024 : Nat) = 1 then 0 else (i 2).val; rw [if_neg (by decide)])

-- %82 = stablehlo.broadcast_in_dim %81, dims = [0, 1, 2] : (tensor<1x1x1024xf32>) -> tensor<4x2048x1024xf32>
def val_main_v82 (x9 : (⟨S1024, .f32⟩ : BufTy).Contents (Elt F)) : (⟨S4x2048x1024, .f32⟩ : BufTy).Contents (Elt F) :=
  broadcastInDim S4x2048x1024 ![0, 1, 2] bcast_S1x1x1024_S4x2048x1024_0_1_2 (val_main_v81 (F := F) x9)
abbrev idx_main_v82 (i : S4x2048x1024.Idx) : S1x1x1024.Idx := fun a => match a with
  | ⟨0, _⟩ => ⟨0, Nat.one_pos⟩
  | ⟨1, _⟩ => ⟨0, Nat.one_pos⟩
  | ⟨2, _⟩ => ⟨(i 2).val, (i 2).isLt⟩
theorem val_main_v82_apply (x9 : (⟨S1024, .f32⟩ : BufTy).Contents (Elt F)) (i : S4x2048x1024.Idx) :
    val_main_v82 (F := F) x9 i = val_main_v81 (F := F) x9 (idx_main_v82 i) := by
  unfold val_main_v82
  generalize val_main_v81 (F := F) x9 = y
  exact broadcastInDim_apply _ bcast_S1x1x1024_S4x2048x1024_0_1_2 y i (idx_main_v82 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (1024 : Nat) = 1 then 0 else (i 2).val; rw [if_neg (by decide)])

-- %83 = stablehlo.add %80, %82 : tensor<4x2048x1024xf32>
def val_main_v83 (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 x8 x9 : (⟨S1024, .f32⟩ : BufTy).Contents (Elt F)) : (⟨S4x2048x1024, .f32⟩ : BufTy).Contents (Elt F) :=
  addf (val_main_v80 (F := F) x0 x1 x2 x3 x4 x5 x6 x7 x8) (val_main_v82 (F := F) x9)
theorem val_main_v83_apply (x0 : (⟨S4x2048x1024, .f32⟩ : BufTy).Contents (Elt F)) (x1 : (⟨S8, .f32⟩ : BufTy).Contents (Elt F)) (x2 : (⟨S4096x8, .f32⟩ : BufTy).Contents (Elt F)) (x3 : (⟨S4096, .f32⟩ : BufTy).Contents (Elt F)) (x4 : (⟨S1024x4096, .f32⟩ : BufTy).Contents (Elt F)) (x5 x6 x7 x8 x9 : (⟨S1024, .f32⟩ : BufTy).Contents (Elt F)) (i : S4x2048x1024.Idx) :
    val_main_v83 (F := F) x0 x1 x2 x3 x4 x5 x6 x7 x8 x9 i = FloatOps.addf (val_main_v80 (F := F) x0 x1 x2 x3 x4 x5 x6 x7 x8 i) (val_main_v82 (F := F) x9 i) := rfl

end Cert.RefRead

end
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.RefRun.lean ====
/-
  The reference's run.  @main is a straight line of one hundred host operations; every weakly fair execution ends
  with each buffer at the fold of the operations' results over the launch contents.  The line is cut into four
  stretches — the attention, the first normalisation, the perceptron, the second normalisation — and each stretch's
  result is read from whatever contents it starts from, so that no stretch ever meets the whole line's term: the
  result buffer ends at `RefRead.val_main_v83` of the arguments, the arguments unchanged.
-/
import proofs.«138895_j65481071410061_2_alg».proof.Proof.Gen.ReferenceIdeal
import proofs.«138895_j65481071410061_2_alg».proof.Proof.RefRead
import proofs.«138895_j65481071410061_2_alg».proof.Proof.LibHostPieces
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo
open Cert.RefRead Idealize.ShloMosaic.HostPieces

variable {F : FTy → Type} [FloatOps F]

/-- @main's operations, in order (the rectifier's three operations stand in its call's place). -/
abbrev ops : List (HloOp τ sig (Elt F)) :=
  [ reshape main_arg0 main_v0 rfl shapeCasts_S4x2048x1024_S4x2048x16x64,
    unary main_v0 main_v1 ((transpose S4x16x2048x64 [0, 2, 1, 3] · transposes_S4x2048x16x64_S4x16x2048x64_0_2_1_3) : (⟨S4x2048x16x64, .f32⟩ : BufTy).Contents (Elt F) → (⟨S4x16x2048x64, .f32⟩ : BufTy).Contents (Elt F)),
    binary main_v1 main_v1 main_v2 ((fun l r => Host.dotGeneral dot_S4x16x2048x64_S4x16x2048x64_S4x16x2048x2048_3_3_2_2_01_01 none l r) : (⟨S4x16x2048x64, .f32⟩ : BufTy).Contents (Elt F) → (⟨S4x16x2048x64, .f32⟩ : BufTy).Contents (Elt F) → (⟨S4x16x2048x2048, .f32⟩ : BufTy).Contents (Elt F)),
    nullary main_cst (constant S_ .f32 0x41000000#32),
    unary main_cst main_v3 (broadcastInDim S4x16x2048x2048 ![] bcast_S_S4x16x2048x2048 : (⟨S_, .f32⟩ : BufTy).Contents (Elt F) → (⟨S4x16x2048x2048, .f32⟩ : BufTy).Contents (Elt F)),
    binary main_v2 main_v3 main_v4 (Host.divf : (⟨S4x16x2048x2048, .f32⟩ : BufTy).Contents (Elt F) → (⟨S4x16x2048x2048, .f32⟩ : BufTy).Contents (Elt F) → (⟨S4x16x2048x2048, .f32⟩ : BufTy).Contents (Elt F)),
    nullary main_cst_0 (constant S_ .f32 0xFF800000#32),
    binary main_v4 main_cst_0 main_v5 ((fun x v => Host.reduce FloatOps.maximumf x v reducesTo_S4x16x2048x2048_S4x16x2048_d3 h_S_) : (⟨S4x16x2048x2048, .f32⟩ : BufTy).Contents (Elt F) → (⟨S_, .f32⟩ : BufTy).Contents (Elt F) → (⟨S4x16x2048, .f32⟩ : BufTy).Contents (Elt F)),
    nullary main_cst_1 (constant S_ .f32 0xFF800000#32),
    unary main_cst_1 main_v6 (broadcastInDim S4x16x2048 ![] bcast_S_S4x16x2048 : (⟨S_, .f32⟩ : BufTy).Contents (Elt F) → (⟨S4x16x2048, .f32⟩ : BufTy).Contents (Elt F)),
    binary main_v6 main_v5 main_v7 (maximumf : (⟨S4x16x2048, .f32⟩ : BufTy).Contents (Elt F) → (⟨S4x16x2048, .f32⟩ : BufTy).Contents (Elt F) → (⟨S4x16x2048, .f32⟩ : BufTy).Contents (Elt F)),
    unary main_v7 main_v8 (broadcastInDim S4x16x2048x1 ![0, 1, 2] bcast_S4x16x2048_S4x16x2048x1_0_1_2 : (⟨S4x16x2048, .f32⟩ : BufTy).Contents (Elt F) → (⟨S4x16x2048x1, .f32⟩ : BufTy).Contents (Elt F)),
    unary main_v8 main_v9 (broadcastInDim S4x16x2048x2048 ![0, 1, 2, 3] bcast_S4x16x2048x1_S4x16x2048x2048_0_1_2_3 : (⟨S4x16x2048x1, .f32⟩ : BufTy).Contents (Elt F) → (⟨S4x16x2048x2048, .f32⟩ : BufTy).Contents (Elt F)),
    binary main_v4 main_v9 main_v10 (subf : (⟨S4x16x2048x2048, .f32⟩ : BufTy).Contents (Elt F) → (⟨S4x16x2048x2048, .f32⟩ : BufTy).Contents (Elt F) → (⟨S4x16x2048x2048, .f32⟩ : BufTy).Contents (Elt F)),
    unary main_v10 main_v11 (Host.exp : (⟨S4x16x2048x2048, .f32⟩ : BufTy).Contents (Elt F) → (⟨S4x16x2048x2048, .f32⟩ : BufTy).Contents (Elt F)),
    nullary main_cst_2 (constant S_ .f32 0x00000000#32),
    binary main_v11 main_cst_2 main_v12 ((fun x v => Host.reduceAdd x v reducesTo_S4x16x2048x2048_S4x16x2048_d3 h_S_) : (⟨S4x16x2048x2048, .f32⟩ : BufTy).Contents (Elt F) → (⟨S_, .f32⟩ : BufTy).Contents (Elt F) → (⟨S4x16x2048, .f32⟩ : BufTy).Contents (Elt F)),
    unary main_v12 main_v13 (broadcastInDim S4x16x2048x1 ![0, 1, 2] bcast_S4x16x2048_S4x16x2048x1_0_1_2 : (⟨S4x16x2048, .f32⟩ : BufTy).Contents (Elt F) → (⟨S4x16x2048x1, .f32⟩ : BufTy).Contents (Elt F)),
    unary main_v13 main_v14 (broadcastInDim S4x16x2048x2048 ![0, 1, 2, 3] bcast_S4x16x2048x1_S4x16x2048x2048_0_1_2_3 : (⟨S4x16x2048x1, .f32⟩ : BufTy).Contents (Elt F) → (⟨S4x16x2048x2048, .f32⟩ : BufTy).Contents (Elt F)),
    binary main_v11 main_v14 main_v15 (Host.divf : (⟨S4x16x2048x2048, .f32⟩ : BufTy).Contents (Elt F) → (⟨S4x16x2048x2048, .f32⟩ : BufTy).Contents (Elt F) → (⟨S4x16x2048x2048, .f32⟩ : BufTy).Contents (Elt F)),
    binary main_v15 main_v1 main_v16 ((fun l r => Host.dotGeneral dot_S4x16x2048x2048_S4x16x2048x64_S4x16x2048x64_3_2_2_3_01_01 none l r) : (⟨S4x16x2048x2048, .f32⟩ : BufTy).Contents (Elt F) → (⟨S4x16x2048x64, .f32⟩ : BufTy).Contents (Elt F) → (⟨S4x16x2048x64, .f32⟩ : BufTy).Contents (Elt F)),
    unary main_v16 main_v17 ((transpose S4x2048x16x64 [0, 2, 1, 3] · transposes_S4x16x2048x64_S4x2048x16x64_0_2_1_3) : (⟨S4x16x2048x64, .f32⟩ : BufTy).Contents (Elt F) → (⟨S4x2048x16x64, .f32⟩ : BufTy).Contents (Elt F)),
    reshape main_v17 main_v18 rfl shapeCasts_S4x2048x16x64_S4x2048x1024,
    binary main_arg0 main_v18 main_v19 (addf : (⟨S4x2048x1024, .f32⟩ : BufTy).Contents (Elt F) → (⟨S4x2048x1024, .f32⟩ : BufTy).Contents (Elt F) → (⟨S4x2048x1024, .f32⟩ : BufTy).Contents (Elt F)),
    nullary main_cst_3 (constant S_ .f32 0x00000000#32),
    binary main_v19 main_cst_3 main_v20 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v20 main_v21 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_4 (constant S_ .f32 0x44800000#32),
    unary main_cst_4 main_v22 (broadcastInDim S4x2048x1 ![] bcast_S_S4x2048x1 : (⟨S_, .f32⟩ : BufTy).Contents (Elt F) → (⟨S4x2048x1, .f32⟩ : BufTy).Contents (Elt F)),
    binary main_v21 main_v22 main_v23 (Host.divf : (⟨S4x2048x1, .f32⟩ : BufTy).Contents (Elt F) → (⟨S4x2048x1, .f32⟩ : BufTy).Contents (Elt F) → (⟨S4x2048x1, .f32⟩ : BufTy).Contents (Elt F)),
    unary main_v23 main_v24 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v19 main_v24 main_v25 (subf : (⟨S4x2048x1024, .f32⟩ : BufTy).Contents (Elt F) → (⟨S4x2048x1024, .f32⟩ : BufTy).Contents (Elt F) → (⟨S4x2048x1024, .f32⟩ : BufTy).Contents (Elt F)),
    binary main_v25 main_v25 main_v26 (mulf : (⟨S4x2048x1024, .f32⟩ : BufTy).Contents (Elt F) → (⟨S4x2048x1024, .f32⟩ : BufTy).Contents (Elt F) → (⟨S4x2048x1024, .f32⟩ : BufTy).Contents (Elt F)),
    nullary main_cst_5 (constant S_ .f32 0x00000000#32),
    binary main_v26 main_cst_5 main_v27 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v27 main_v28 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_6 (constant S_ .f32 0x44800000#32),
    unary main_cst_6 main_v29 (broadcastInDim S4x2048x1 ![] bcast_S_S4x2048x1 : (⟨S_, .f32⟩ : BufTy).Contents (Elt F) → (⟨S4x2048x1, .f32⟩ : BufTy).Contents (Elt F)),
    binary main_v28 main_v29 main_v30 (Host.divf : (⟨S4x2048x1, .f32⟩ : BufTy).Contents (Elt F) → (⟨S4x2048x1, .f32⟩ : BufTy).Contents (Elt F) → (⟨S4x2048x1, .f32⟩ : BufTy).Contents (Elt F)),
    unary main_v23 main_v31 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v19 main_v31 main_v32 (subf : (⟨S4x2048x1024, .f32⟩ : BufTy).Contents (Elt F) → (⟨S4x2048x1024, .f32⟩ : BufTy).Contents (Elt F) → (⟨S4x2048x1024, .f32⟩ : BufTy).Contents (Elt F)),
    nullary main_cst_7 (constant S_ .f32 0x3727C5AC#32),
    unary main_cst_7 main_v33 (broadcastInDim S4x2048x1 ![] bcast_S_S4x2048x1 : (⟨S_, .f32⟩ : BufTy).Contents (Elt F) → (⟨S4x2048x1, .f32⟩ : BufTy).Contents (Elt F)),
    binary main_v30 main_v33 main_v34 (addf : (⟨S4x2048x1, .f32⟩ : BufTy).Contents (Elt F) → (⟨S4x2048x1, .f32⟩ : BufTy).Contents (Elt F) → (⟨S4x2048x1, .f32⟩ : BufTy).Contents (Elt F)),
    unary main_v34 main_v35 (Host.rsqrt : (⟨S4x2048x1, .f32⟩ : BufTy).Contents (Elt F) → (⟨S4x2048x1, .f32⟩ : BufTy).Contents (Elt F)),
    unary main_v35 main_v36 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v32 main_v36 main_v37 (mulf : (⟨S4x2048x1024, .f32⟩ : BufTy).Contents (Elt F) → (⟨S4x2048x1024, .f32⟩ : BufTy).Contents (Elt F) → (⟨S4x2048x1024, .f32⟩ : BufTy).Contents (Elt F)),
    unary main_arg6 main_v38 (broadcastInDim S1x1x1024 ![2] bcast_S1024_S1x1x1024_2 : (⟨S1024, .f32⟩ : BufTy).Contents (Elt F) → (⟨S1x1x1024, .f32⟩ : BufTy).Contents (Elt F)),
    unary main_v38 main_v39 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v37 main_v39 main_v40 (mulf : (⟨S4x2048x1024, .f32⟩ : BufTy).Contents (Elt F) → (⟨S4x2048x1024, .f32⟩ : BufTy).Contents (Elt F) → (⟨S4x2048x1024, .f32⟩ : BufTy).Contents (Elt F)),
    unary main_arg7 main_v41 (broadcastInDim S1x1x1024 ![2] bcast_S1024_S1x1x1024_2 : (⟨S1024, .f32⟩ : BufTy).Contents (Elt F) → (⟨S1x1x1024, .f32⟩ : BufTy).Contents (Elt F)),
    unary main_v41 main_v42 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v40 main_v42 main_v43 (addf : (⟨S4x2048x1024, .f32⟩ : BufTy).Contents (Elt F) → (⟨S4x2048x1024, .f32⟩ : BufTy).Contents (Elt F) → (⟨S4x2048x1024, .f32⟩ : BufTy).Contents (Elt F)),
    unary main_v43 main_v44 ((extractStridedSlice S4x2048x8 ![0, 0, 0] · slices_S4x2048x1024_S4x2048x8_0_0_0) : (⟨S4x2048x1024, .f32⟩ : BufTy).Contents (Elt F) → (⟨S4x2048x8, .f32⟩ : BufTy).Contents (Elt F)),
    unary main_v44 main_v45 (Host.cos : (⟨S4x2048x8, .f32⟩ : BufTy).Contents (Elt F) → (⟨S4x2048x8, .f32⟩ : BufTy).Contents (Elt F)),
    unary main_arg1 main_v46 (Host.cos : (⟨S8, .f32⟩ : BufTy).Contents (Elt F) → (⟨S8, .f32⟩ : BufTy).Contents (Elt F)),
    unary main_v46 main_v47 (broadcastInDim S1x1x8 ![2] bcast_S8_S1x1x8_2 : (⟨S8, .f32⟩ : BufTy).Contents (Elt F) → (⟨S1x1x8, .f32⟩ : BufTy).Contents (Elt F)),
    unary main_v47 main_v48 (broadcastInDim S4x2048x8 ![0, 1, 2] bcast_S1x1x8_S4x2048x8_0_1_2 : (⟨S1x1x8, .f32⟩ : BufTy).Contents (Elt F) → (⟨S4x2048x8, .f32⟩ : BufTy).Contents (Elt F)),
    binary main_v45 main_v48 main_v49 (mulf : (⟨S4x2048x8, .f32⟩ : BufTy).Contents (Elt F) → (⟨S4x2048x8, .f32⟩ : BufTy).Contents (Elt F) → (⟨S4x2048x8, .f32⟩ : BufTy).Contents (Elt F)),
    binary main_v49 main_arg2 main_v50 ((fun l r => Host.dotGeneral dot_S4x2048x8_S4096x8_S4x2048x4096_2_1_01_0_n_n none l r) : (⟨S4x2048x8, .f32⟩ : BufTy).Contents (Elt F) → (⟨S4096x8, .f32⟩ : BufTy).Contents (Elt F) → (⟨S4x2048x4096, .f32⟩ : BufTy).Contents (Elt F)),
    unary main_arg3 main_v51 (broadcastInDim S1x1x4096 ![2] bcast_S4096_S1x1x4096_2 : (⟨S4096, .f32⟩ : BufTy).Contents (Elt F) → (⟨S1x1x4096, .f32⟩ : BufTy).Contents (Elt F)),
    unary main_v51 main_v52 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v50 main_v52 main_v53 (addf : (⟨S4x2048x4096, .f32⟩ : BufTy).Contents (Elt F) → (⟨S4x2048x4096, .f32⟩ : BufTy).Contents (Elt F) → (⟨S4x2048x4096, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4x2048x4096, .f32⟩) main_call0_v0) (broadcastInDim S4x2048x4096 ![] bcast_S_S4x2048x4096),
    TRef.binary (TRef.of (T := ⟨S4x2048x4096, .f32⟩) main_v53) (TRef.of (T := ⟨S4x2048x4096, .f32⟩) main_call0_v0) (TRef.of (T := ⟨S4x2048x4096, .f32⟩) main_v54) maximumf,
    binary main_v54 main_arg4 main_v55 ((fun l r => Host.dotGeneral dot_S4x2048x4096_S1024x4096_S4x2048x1024_2_1_01_0_n_n none l r) : (⟨S4x2048x4096, .f32⟩ : BufTy).Contents (Elt F) → (⟨S1024x4096, .f32⟩ : BufTy).Contents (Elt F) → (⟨S4x2048x1024, .f32⟩ : BufTy).Contents (Elt F)),
    unary main_arg5 main_v56 (broadcastInDim S1x1x1024 ![2] bcast_S1024_S1x1x1024_2 : (⟨S1024, .f32⟩ : BufTy).Contents (Elt F) → (⟨S1x1x1024, .f32⟩ : BufTy).Contents (Elt F)),
    unary main_v56 main_v57 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v55 main_v57 main_v58 (addf : (⟨S4x2048x1024, .f32⟩ : BufTy).Contents (Elt F) → (⟨S4x2048x1024, .f32⟩ : BufTy).Contents (Elt F) → (⟨S4x2048x1024, .f32⟩ : BufTy).Contents (Elt F)),
    binary main_v43 main_v58 main_v59 (addf : (⟨S4x2048x1024, .f32⟩ : BufTy).Contents (Elt F) → (⟨S4x2048x1024, .f32⟩ : BufTy).Contents (Elt F) → (⟨S4x2048x1024, .f32⟩ : BufTy).Contents (Elt F)),
    nullary main_cst_8 (constant S_ .f32 0x00000000#32),
    binary main_v59 main_cst_8 main_v60 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v60 main_v61 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_9 (constant S_ .f32 0x44800000#32),
    unary main_cst_9 main_v62 (broadcastInDim S4x2048x1 ![] bcast_S_S4x2048x1 : (⟨S_, .f32⟩ : BufTy).Contents (Elt F) → (⟨S4x2048x1, .f32⟩ : BufTy).Contents (Elt F)),
    binary main_v61 main_v62 main_v63 (Host.divf : (⟨S4x2048x1, .f32⟩ : BufTy).Contents (Elt F) → (⟨S4x2048x1, .f32⟩ : BufTy).Contents (Elt F) → (⟨S4x2048x1, .f32⟩ : BufTy).Contents (Elt F)),
    unary main_v63 main_v64 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v59 main_v64 main_v65 (subf : (⟨S4x2048x1024, .f32⟩ : BufTy).Contents (Elt F) → (⟨S4x2048x1024, .f32⟩ : BufTy).Contents (Elt F) → (⟨S4x2048x1024, .f32⟩ : BufTy).Contents (Elt F)),
    binary main_v65 main_v65 main_v66 (mulf : (⟨S4x2048x1024, .f32⟩ : BufTy).Contents (Elt F) → (⟨S4x2048x1024, .f32⟩ : BufTy).Contents (Elt F) → (⟨S4x2048x1024, .f32⟩ : BufTy).Contents (Elt F)),
    nullary main_cst_10 (constant S_ .f32 0x00000000#32),
    binary main_v66 main_cst_10 main_v67 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v67 main_v68 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_11 (constant S_ .f32 0x44800000#32),
    unary main_cst_11 main_v69 (broadcastInDim S4x2048x1 ![] bcast_S_S4x2048x1 : (⟨S_, .f32⟩ : BufTy).Contents (Elt F) → (⟨S4x2048x1, .f32⟩ : BufTy).Contents (Elt F)),
    binary main_v68 main_v69 main_v70 (Host.divf : (⟨S4x2048x1, .f32⟩ : BufTy).Contents (Elt F) → (⟨S4x2048x1, .f32⟩ : BufTy).Contents (Elt F) → (⟨S4x2048x1, .f32⟩ : BufTy).Contents (Elt F)),
    unary main_v63 main_v71 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v59 main_v71 main_v72 (subf : (⟨S4x2048x1024, .f32⟩ : BufTy).Contents (Elt F) → (⟨S4x2048x1024, .f32⟩ : BufTy).Contents (Elt F) → (⟨S4x2048x1024, .f32⟩ : BufTy).Contents (Elt F)),
    nullary main_cst_12 (constant S_ .f32 0x3727C5AC#32),
    unary main_cst_12 main_v73 (broadcastInDim S4x2048x1 ![] bcast_S_S4x2048x1 : (⟨S_, .f32⟩ : BufTy).Contents (Elt F) → (⟨S4x2048x1, .f32⟩ : BufTy).Contents (Elt F)),
    binary main_v70 main_v73 main_v74 (addf : (⟨S4x2048x1, .f32⟩ : BufTy).Contents (Elt F) → (⟨S4x2048x1, .f32⟩ : BufTy).Contents (Elt F) → (⟨S4x2048x1, .f32⟩ : BufTy).Contents (Elt F)),
    unary main_v74 main_v75 (Host.rsqrt : (⟨S4x2048x1, .f32⟩ : BufTy).Contents (Elt F) → (⟨S4x2048x1, .f32⟩ : BufTy).Contents (Elt F)),
    unary main_v75 main_v76 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v72 main_v76 main_v77 (mulf : (⟨S4x2048x1024, .f32⟩ : BufTy).Contents (Elt F) → (⟨S4x2048x1024, .f32⟩ : BufTy).Contents (Elt F) → (⟨S4x2048x1024, .f32⟩ : BufTy).Contents (Elt F)),
    unary main_arg8 main_v78 (broadcastInDim S1x1x1024 ![2] bcast_S1024_S1x1x1024_2 : (⟨S1024, .f32⟩ : BufTy).Contents (Elt F) → (⟨S1x1x1024, .f32⟩ : BufTy).Contents (Elt F)),
    unary main_v78 main_v79 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v77 main_v79 main_v80 (mulf : (⟨S4x2048x1024, .f32⟩ : BufTy).Contents (Elt F) → (⟨S4x2048x1024, .f32⟩ : BufTy).Contents (Elt F) → (⟨S4x2048x1024, .f32⟩ : BufTy).Contents (Elt F)),
    unary main_arg9 main_v81 (broadcastInDim S1x1x1024 ![2] bcast_S1024_S1x1x1024_2 : (⟨S1024, .f32⟩ : BufTy).Contents (Elt F) → (⟨S1x1x1024, .f32⟩ : BufTy).Contents (Elt F)),
    unary main_v81 main_v82 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v80 main_v82 main_v83 (addf : (⟨S4x2048x1024, .f32⟩ : BufTy).Contents (Elt F) → (⟨S4x2048x1024, .f32⟩ : BufTy).Contents (Elt F) → (⟨S4x2048x1024, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., reshape_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-! ## The four stretches -/

/-- The attention: from the argument to its attention output. -/
abbrev opsA : List (HloOp τ sig (Elt F)) :=
  [ reshape main_arg0 main_v0 rfl shapeCasts_S4x2048x1024_S4x2048x16x64,
    unary main_v0 main_v1 ((transpose S4x16x2048x64 [0, 2, 1, 3] · transposes_S4x2048x16x64_S4x16x2048x64_0_2_1_3) : (⟨S4x2048x16x64, .f32⟩ : BufTy).Contents (Elt F) → (⟨S4x16x2048x64, .f32⟩ : BufTy).Contents (Elt F)),
    binary main_v1 main_v1 main_v2 ((fun l r => Host.dotGeneral dot_S4x16x2048x64_S4x16x2048x64_S4x16x2048x2048_3_3_2_2_01_01 none l r) : (⟨S4x16x2048x64, .f32⟩ : BufTy).Contents (Elt F) → (⟨S4x16x2048x64, .f32⟩ : BufTy).Contents (Elt F) → (⟨S4x16x2048x2048, .f32⟩ : BufTy).Contents (Elt F)),
    nullary main_cst (constant S_ .f32 0x41000000#32),
    unary main_cst main_v3 (broadcastInDim S4x16x2048x2048 ![] bcast_S_S4x16x2048x2048 : (⟨S_, .f32⟩ : BufTy).Contents (Elt F) → (⟨S4x16x2048x2048, .f32⟩ : BufTy).Contents (Elt F)),
    binary main_v2 main_v3 main_v4 (Host.divf : (⟨S4x16x2048x2048, .f32⟩ : BufTy).Contents (Elt F) → (⟨S4x16x2048x2048, .f32⟩ : BufTy).Contents (Elt F) → (⟨S4x16x2048x2048, .f32⟩ : BufTy).Contents (Elt F)),
    nullary main_cst_0 (constant S_ .f32 0xFF800000#32),
    binary main_v4 main_cst_0 main_v5 ((fun x v => Host.reduce FloatOps.maximumf x v reducesTo_S4x16x2048x2048_S4x16x2048_d3 h_S_) : (⟨S4x16x2048x2048, .f32⟩ : BufTy).Contents (Elt F) → (⟨S_, .f32⟩ : BufTy).Contents (Elt F) → (⟨S4x16x2048, .f32⟩ : BufTy).Contents (Elt F)),
    nullary main_cst_1 (constant S_ .f32 0xFF800000#32),
    unary main_cst_1 main_v6 (broadcastInDim S4x16x2048 ![] bcast_S_S4x16x2048 : (⟨S_, .f32⟩ : BufTy).Contents (Elt F) → (⟨S4x16x2048, .f32⟩ : BufTy).Contents (Elt F)),
    binary main_v6 main_v5 main_v7 (maximumf : (⟨S4x16x2048, .f32⟩ : BufTy).Contents (Elt F) → (⟨S4x16x2048, .f32⟩ : BufTy).Contents (Elt F) → (⟨S4x16x2048, .f32⟩ : BufTy).Contents (Elt F)),
    unary main_v7 main_v8 (broadcastInDim S4x16x2048x1 ![0, 1, 2] bcast_S4x16x2048_S4x16x2048x1_0_1_2 : (⟨S4x16x2048, .f32⟩ : BufTy).Contents (Elt F) → (⟨S4x16x2048x1, .f32⟩ : BufTy).Contents (Elt F)),
    unary main_v8 main_v9 (broadcastInDim S4x16x2048x2048 ![0, 1, 2, 3] bcast_S4x16x2048x1_S4x16x2048x2048_0_1_2_3 : (⟨S4x16x2048x1, .f32⟩ : BufTy).Contents (Elt F) → (⟨S4x16x2048x2048, .f32⟩ : BufTy).Contents (Elt F)),
    binary main_v4 main_v9 main_v10 (subf : (⟨S4x16x2048x2048, .f32⟩ : BufTy).Contents (Elt F) → (⟨S4x16x2048x2048, .f32⟩ : BufTy).Contents (Elt F) → (⟨S4x16x2048x2048, .f32⟩ : BufTy).Contents (Elt F)),
    unary main_v10 main_v11 (Host.exp : (⟨S4x16x2048x2048, .f32⟩ : BufTy).Contents (Elt F) → (⟨S4x16x2048x2048, .f32⟩ : BufTy).Contents (Elt F)),
    nullary main_cst_2 (constant S_ .f32 0x00000000#32),
    binary main_v11 main_cst_2 main_v12 ((fun x v => Host.reduceAdd x v reducesTo_S4x16x2048x2048_S4x16x2048_d3 h_S_) : (⟨S4x16x2048x2048, .f32⟩ : BufTy).Contents (Elt F) → (⟨S_, .f32⟩ : BufTy).Contents (Elt F) → (⟨S4x16x2048, .f32⟩ : BufTy).Contents (Elt F)),
    unary main_v12 main_v13 (broadcastInDim S4x16x2048x1 ![0, 1, 2] bcast_S4x16x2048_S4x16x2048x1_0_1_2 : (⟨S4x16x2048, .f32⟩ : BufTy).Contents (Elt F) → (⟨S4x16x2048x1, .f32⟩ : BufTy).Contents (Elt F)),
    unary main_v13 main_v14 (broadcastInDim S4x16x2048x2048 ![0, 1, 2, 3] bcast_S4x16x2048x1_S4x16x2048x2048_0_1_2_3 : (⟨S4x16x2048x1, .f32⟩ : BufTy).Contents (Elt F) → (⟨S4x16x2048x2048, .f32⟩ : BufTy).Contents (Elt F)),
    binary main_v11 main_v14 main_v15 (Host.divf : (⟨S4x16x2048x2048, .f32⟩ : BufTy).Contents (Elt F) → (⟨S4x16x2048x2048, .f32⟩ : BufTy).Contents (Elt F) → (⟨S4x16x2048x2048, .f32⟩ : BufTy).Contents (Elt F)),
    binary main_v15 main_v1 main_v16 ((fun l r => Host.dotGeneral dot_S4x16x2048x2048_S4x16x2048x64_S4x16x2048x64_3_2_2_3_01_01 none l r) : (⟨S4x16x2048x2048, .f32⟩ : BufTy).Contents (Elt F) → (⟨S4x16x2048x64, .f32⟩ : BufTy).Contents (Elt F) → (⟨S4x16x2048x64, .f32⟩ : BufTy).Contents (Elt F)),
    unary main_v16 main_v17 ((transpose S4x2048x16x64 [0, 2, 1, 3] · transposes_S4x16x2048x64_S4x2048x16x64_0_2_1_3) : (⟨S4x16x2048x64, .f32⟩ : BufTy).Contents (Elt F) → (⟨S4x2048x16x64, .f32⟩ : BufTy).Contents (Elt F)),
    reshape main_v17 main_v18 rfl shapeCasts_S4x2048x16x64_S4x2048x1024 ]

/-- The first normalisation. -/
abbrev opsB : List (HloOp τ sig (Elt F)) :=
  [ binary main_arg0 main_v18 main_v19 (addf : (⟨S4x2048x1024, .f32⟩ : BufTy).Contents (Elt F) → (⟨S4x2048x1024, .f32⟩ : BufTy).Contents (Elt F) → (⟨S4x2048x1024, .f32⟩ : BufTy).Contents (Elt F)),
    nullary main_cst_3 (constant S_ .f32 0x00000000#32),
    binary main_v19 main_cst_3 main_v20 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v20 main_v21 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_4 (constant S_ .f32 0x44800000#32),
    unary main_cst_4 main_v22 (broadcastInDim S4x2048x1 ![] bcast_S_S4x2048x1 : (⟨S_, .f32⟩ : BufTy).Contents (Elt F) → (⟨S4x2048x1, .f32⟩ : BufTy).Contents (Elt F)),
    binary main_v21 main_v22 main_v23 (Host.divf : (⟨S4x2048x1, .f32⟩ : BufTy).Contents (Elt F) → (⟨S4x2048x1, .f32⟩ : BufTy).Contents (Elt F) → (⟨S4x2048x1, .f32⟩ : BufTy).Contents (Elt F)),
    unary main_v23 main_v24 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v19 main_v24 main_v25 (subf : (⟨S4x2048x1024, .f32⟩ : BufTy).Contents (Elt F) → (⟨S4x2048x1024, .f32⟩ : BufTy).Contents (Elt F) → (⟨S4x2048x1024, .f32⟩ : BufTy).Contents (Elt F)),
    binary main_v25 main_v25 main_v26 (mulf : (⟨S4x2048x1024, .f32⟩ : BufTy).Contents (Elt F) → (⟨S4x2048x1024, .f32⟩ : BufTy).Contents (Elt F) → (⟨S4x2048x1024, .f32⟩ : BufTy).Contents (Elt F)),
    nullary main_cst_5 (constant S_ .f32 0x00000000#32),
    binary main_v26 main_cst_5 main_v27 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v27 main_v28 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_6 (constant S_ .f32 0x44800000#32),
    unary main_cst_6 main_v29 (broadcastInDim S4x2048x1 ![] bcast_S_S4x2048x1 : (⟨S_, .f32⟩ : BufTy).Contents (Elt F) → (⟨S4x2048x1, .f32⟩ : BufTy).Contents (Elt F)),
    binary main_v28 main_v29 main_v30 (Host.divf : (⟨S4x2048x1, .f32⟩ : BufTy).Contents (Elt F) → (⟨S4x2048x1, .f32⟩ : BufTy).Contents (Elt F) → (⟨S4x2048x1, .f32⟩ : BufTy).Contents (Elt F)),
    unary main_v23 main_v31 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v19 main_v31 main_v32 (subf : (⟨S4x2048x1024, .f32⟩ : BufTy).Contents (Elt F) → (⟨S4x2048x1024, .f32⟩ : BufTy).Contents (Elt F) → (⟨S4x2048x1024, .f32⟩ : BufTy).Contents (Elt F)),
    nullary main_cst_7 (constant S_ .f32 0x3727C5AC#32),
    unary main_cst_7 main_v33 (broadcastInDim S4x2048x1 ![] bcast_S_S4x2048x1 : (⟨S_, .f32⟩ : BufTy).Contents (Elt F) → (⟨S4x2048x1, .f32⟩ : BufTy).Contents (Elt F)),
    binary main_v30 main_v33 main_v34 (addf : (⟨S4x2048x1, .f32⟩ : BufTy).Contents (Elt F) → (⟨S4x2048x1, .f32⟩ : BufTy).Contents (Elt F) → (⟨S4x2048x1, .f32⟩ : BufTy).Contents (Elt F)),
    unary main_v34 main_v35 (Host.rsqrt : (⟨S4x2048x1, .f32⟩ : BufTy).Contents (Elt F) → (⟨S4x2048x1, .f32⟩ : BufTy).Contents (Elt F)),
    unary main_v35 main_v36 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v32 main_v36 main_v37 (mulf : (⟨S4x2048x1024, .f32⟩ : BufTy).Contents (Elt F) → (⟨S4x2048x1024, .f32⟩ : BufTy).Contents (Elt F) → (⟨S4x2048x1024, .f32⟩ : BufTy).Contents (Elt F)),
    unary main_arg6 main_v38 (broadcastInDim S1x1x1024 ![2] bcast_S1024_S1x1x1024_2 : (⟨S1024, .f32⟩ : BufTy).Contents (Elt F) → (⟨S1x1x1024, .f32⟩ : BufTy).Contents (Elt F)),
    unary main_v38 main_v39 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v37 main_v39 main_v40 (mulf : (⟨S4x2048x1024, .f32⟩ : BufTy).Contents (Elt F) → (⟨S4x2048x1024, .f32⟩ : BufTy).Contents (Elt F) → (⟨S4x2048x1024, .f32⟩ : BufTy).Contents (Elt F)),
    unary main_arg7 main_v41 (broadcastInDim S1x1x1024 ![2] bcast_S1024_S1x1x1024_2 : (⟨S1024, .f32⟩ : BufTy).Contents (Elt F) → (⟨S1x1x1024, .f32⟩ : BufTy).Contents (Elt F)),
    unary main_v41 main_v42 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v40 main_v42 main_v43 (addf : (⟨S4x2048x1024, .f32⟩ : BufTy).Contents (Elt F) → (⟨S4x2048x1024, .f32⟩ : BufTy).Contents (Elt F) → (⟨S4x2048x1024, .f32⟩ : BufTy).Contents (Elt F)) ]

/-- The perceptron. -/
abbrev opsC : List (HloOp τ sig (Elt F)) :=
  [ unary main_v43 main_v44 ((extractStridedSlice S4x2048x8 ![0, 0, 0] · slices_S4x2048x1024_S4x2048x8_0_0_0) : (⟨S4x2048x1024, .f32⟩ : BufTy).Contents (Elt F) → (⟨S4x2048x8, .f32⟩ : BufTy).Contents (Elt F)),
    unary main_v44 main_v45 (Host.cos : (⟨S4x2048x8, .f32⟩ : BufTy).Contents (Elt F) → (⟨S4x2048x8, .f32⟩ : BufTy).Contents (Elt F)),
    unary main_arg1 main_v46 (Host.cos : (⟨S8, .f32⟩ : BufTy).Contents (Elt F) → (⟨S8, .f32⟩ : BufTy).Contents (Elt F)),
    unary main_v46 main_v47 (broadcastInDim S1x1x8 ![2] bcast_S8_S1x1x8_2 : (⟨S8, .f32⟩ : BufTy).Contents (Elt F) → (⟨S1x1x8, .f32⟩ : BufTy).Contents (Elt F)),
    unary main_v47 main_v48 (broadcastInDim S4x2048x8 ![0, 1, 2] bcast_S1x1x8_S4x2048x8_0_1_2 : (⟨S1x1x8, .f32⟩ : BufTy).Contents (Elt F) → (⟨S4x2048x8, .f32⟩ : BufTy).Contents (Elt F)),
    binary main_v45 main_v48 main_v49 (mulf : (⟨S4x2048x8, .f32⟩ : BufTy).Contents (Elt F) → (⟨S4x2048x8, .f32⟩ : BufTy).Contents (Elt F) → (⟨S4x2048x8, .f32⟩ : BufTy).Contents (Elt F)),
    binary main_v49 main_arg2 main_v50 ((fun l r => Host.dotGeneral dot_S4x2048x8_S4096x8_S4x2048x4096_2_1_01_0_n_n none l r) : (⟨S4x2048x8, .f32⟩ : BufTy).Contents (Elt F) → (⟨S4096x8, .f32⟩ : BufTy).Contents (Elt F) → (⟨S4x2048x4096, .f32⟩ : BufTy).Contents (Elt F)),
    unary main_arg3 main_v51 (broadcastInDim S1x1x4096 ![2] bcast_S4096_S1x1x4096_2 : (⟨S4096, .f32⟩ : BufTy).Contents (Elt F) → (⟨S1x1x4096, .f32⟩ : BufTy).Contents (Elt F)),
    unary main_v51 main_v52 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v50 main_v52 main_v53 (addf : (⟨S4x2048x4096, .f32⟩ : BufTy).Contents (Elt F) → (⟨S4x2048x4096, .f32⟩ : BufTy).Contents (Elt F) → (⟨S4x2048x4096, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4x2048x4096, .f32⟩) main_call0_v0) (broadcastInDim S4x2048x4096 ![] bcast_S_S4x2048x4096),
    TRef.binary (TRef.of (T := ⟨S4x2048x4096, .f32⟩) main_v53) (TRef.of (T := ⟨S4x2048x4096, .f32⟩) main_call0_v0) (TRef.of (T := ⟨S4x2048x4096, .f32⟩) main_v54) maximumf,
    binary main_v54 main_arg4 main_v55 ((fun l r => Host.dotGeneral dot_S4x2048x4096_S1024x4096_S4x2048x1024_2_1_01_0_n_n none l r) : (⟨S4x2048x4096, .f32⟩ : BufTy).Contents (Elt F) → (⟨S1024x4096, .f32⟩ : BufTy).Contents (Elt F) → (⟨S4x2048x1024, .f32⟩ : BufTy).Contents (Elt F)),
    unary main_arg5 main_v56 (broadcastInDim S1x1x1024 ![2] bcast_S1024_S1x1x1024_2 : (⟨S1024, .f32⟩ : BufTy).Contents (Elt F) → (⟨S1x1x1024, .f32⟩ : BufTy).Contents (Elt F)),
    unary main_v56 main_v57 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v55 main_v57 main_v58 (addf : (⟨S4x2048x1024, .f32⟩ : BufTy).Contents (Elt F) → (⟨S4x2048x1024, .f32⟩ : BufTy).Contents (Elt F) → (⟨S4x2048x1024, .f32⟩ : BufTy).Contents (Elt F)) ]

/-- The second normalisation. -/
abbrev opsD : List (HloOp τ sig (Elt F)) :=
  [ binary main_v43 main_v58 main_v59 (addf : (⟨S4x2048x1024, .f32⟩ : BufTy).Contents (Elt F) → (⟨S4x2048x1024, .f32⟩ : BufTy).Contents (Elt F) → (⟨S4x2048x1024, .f32⟩ : BufTy).Contents (Elt F)),
    nullary main_cst_8 (constant S_ .f32 0x00000000#32),
    binary main_v59 main_cst_8 main_v60 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v60 main_v61 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_9 (constant S_ .f32 0x44800000#32),
    unary main_cst_9 main_v62 (broadcastInDim S4x2048x1 ![] bcast_S_S4x2048x1 : (⟨S_, .f32⟩ : BufTy).Contents (Elt F) → (⟨S4x2048x1, .f32⟩ : BufTy).Contents (Elt F)),
    binary main_v61 main_v62 main_v63 (Host.divf : (⟨S4x2048x1, .f32⟩ : BufTy).Contents (Elt F) → (⟨S4x2048x1, .f32⟩ : BufTy).Contents (Elt F) → (⟨S4x2048x1, .f32⟩ : BufTy).Contents (Elt F)),
    unary main_v63 main_v64 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v59 main_v64 main_v65 (subf : (⟨S4x2048x1024, .f32⟩ : BufTy).Contents (Elt F) → (⟨S4x2048x1024, .f32⟩ : BufTy).Contents (Elt F) → (⟨S4x2048x1024, .f32⟩ : BufTy).Contents (Elt F)),
    binary main_v65 main_v65 main_v66 (mulf : (⟨S4x2048x1024, .f32⟩ : BufTy).Contents (Elt F) → (⟨S4x2048x1024, .f32⟩ : BufTy).Contents (Elt F) → (⟨S4x2048x1024, .f32⟩ : BufTy).Contents (Elt F)),
    nullary main_cst_10 (constant S_ .f32 0x00000000#32),
    binary main_v66 main_cst_10 main_v67 ((fun x v => Host.reduceAdd x v reducesTo_S4x2048x1024_S4x2048_d2 h_S_) : (⟨S4x2048x1024, .f32⟩ : BufTy).Contents (Elt F) → (⟨S_, .f32⟩ : BufTy).Contents (Elt F) → (⟨S4x2048, .f32⟩ : BufTy).Contents (Elt F)),
    unary main_v67 main_v68 (broadcastInDim S4x2048x1 ![0, 1] bcast_S4x2048_S4x2048x1_0_1 : (⟨S4x2048, .f32⟩ : BufTy).Contents (Elt F) → (⟨S4x2048x1, .f32⟩ : BufTy).Contents (Elt F)),
    nullary main_cst_11 (constant S_ .f32 0x44800000#32),
    unary main_cst_11 main_v69 (broadcastInDim S4x2048x1 ![] bcast_S_S4x2048x1 : (⟨S_, .f32⟩ : BufTy).Contents (Elt F) → (⟨S4x2048x1, .f32⟩ : BufTy).Contents (Elt F)),
    binary main_v68 main_v69 main_v70 (Host.divf : (⟨S4x2048x1, .f32⟩ : BufTy).Contents (Elt F) → (⟨S4x2048x1, .f32⟩ : BufTy).Contents (Elt F) → (⟨S4x2048x1, .f32⟩ : BufTy).Contents (Elt F)),
    unary main_v63 main_v71 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v59 main_v71 main_v72 (subf : (⟨S4x2048x1024, .f32⟩ : BufTy).Contents (Elt F) → (⟨S4x2048x1024, .f32⟩ : BufTy).Contents (Elt F) → (⟨S4x2048x1024, .f32⟩ : BufTy).Contents (Elt F)),
    nullary main_cst_12 (constant S_ .f32 0x3727C5AC#32),
    unary main_cst_12 main_v73 (broadcastInDim S4x2048x1 ![] bcast_S_S4x2048x1 : (⟨S_, .f32⟩ : BufTy).Contents (Elt F) → (⟨S4x2048x1, .f32⟩ : BufTy).Contents (Elt F)),
    binary main_v70 main_v73 main_v74 (addf : (⟨S4x2048x1, .f32⟩ : BufTy).Contents (Elt F) → (⟨S4x2048x1, .f32⟩ : BufTy).Contents (Elt F) → (⟨S4x2048x1, .f32⟩ : BufTy).Contents (Elt F)),
    unary main_v74 main_v75 (Host.rsqrt : (⟨S4x2048x1, .f32⟩ : BufTy).Contents (Elt F) → (⟨S4x2048x1, .f32⟩ : BufTy).Contents (Elt F)),
    unary main_v75 main_v76 (broadcastInDim S4x2048x1024 ![0, 1, 2] bcast_S4x2048x1_S4x2048x1024_0_1_2 : (⟨S4x2048x1, .f32⟩ : BufTy).Contents (Elt F) → (⟨S4x2048x1024, .f32⟩ : BufTy).Contents (Elt F)),
    binary main_v72 main_v76 main_v77 (mulf : (⟨S4x2048x1024, .f32⟩ : BufTy).Contents (Elt F) → (⟨S4x2048x1024, .f32⟩ : BufTy).Contents (Elt F) → (⟨S4x2048x1024, .f32⟩ : BufTy).Contents (Elt F)),
    unary main_arg8 main_v78 (broadcastInDim S1x1x1024 ![2] bcast_S1024_S1x1x1024_2 : (⟨S1024, .f32⟩ : BufTy).Contents (Elt F) → (⟨S1x1x1024, .f32⟩ : BufTy).Contents (Elt F)),
    unary main_v78 main_v79 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v77 main_v79 main_v80 (mulf : (⟨S4x2048x1024, .f32⟩ : BufTy).Contents (Elt F) → (⟨S4x2048x1024, .f32⟩ : BufTy).Contents (Elt F) → (⟨S4x2048x1024, .f32⟩ : BufTy).Contents (Elt F)),
    unary main_arg9 main_v81 (broadcastInDim S1x1x1024 ![2] bcast_S1024_S1x1x1024_2 : (⟨S1024, .f32⟩ : BufTy).Contents (Elt F) → (⟨S1x1x1024, .f32⟩ : BufTy).Contents (Elt F)),
    unary main_v81 main_v82 (broadcastInDim S4x2048x1024 ![0, 1, 2] bcast_S1x1x1024_S4x2048x1024_0_1_2 : (⟨S1x1x1024, .f32⟩ : BufTy).Contents (Elt F) → (⟨S4x2048x1024, .f32⟩ : BufTy).Contents (Elt F)),
    binary main_v80 main_v82 main_v83 (addf : (⟨S4x2048x1024, .f32⟩ : BufTy).Contents (Elt F) → (⟨S4x2048x1024, .f32⟩ : BufTy).Contents (Elt F) → (⟨S4x2048x1024, .f32⟩ : BufTy).Contents (Elt F)) ]

set_option maxRecDepth 8192 in
theorem ops_split : (ops : List (HloOp τ sig (Elt F))) = opsA ++ opsB ++ opsC ++ opsD := rfl

theorem after_ops (V : Valuation τ sig (Elt F)) :
    after ops V = after opsD (after opsC (after opsB (after opsA V))) := by
  rw [ops_split, StableHlo.after_append, StableHlo.after_append, StableHlo.after_append]

set_option maxRecDepth 8192 in
set_option maxHeartbeats 4000000 in
theorem keptA (V : Valuation τ sig (Elt F)) :
    after (opsA (F := F)) V (Proc.devRef (τ := τ) .tc main_arg0) = V (Proc.devRef (τ := τ) .tc main_arg0)
      ∧ after (opsA (F := F)) V (Proc.devRef (τ := τ) .tc main_arg1) = V (Proc.devRef (τ := τ) .tc main_arg1)
      ∧ after (opsA (F := F)) V (Proc.devRef (τ := τ) .tc main_arg2) = V (Proc.devRef (τ := τ) .tc main_arg2)
      ∧ after (opsA (F := F)) V (Proc.devRef (τ := τ) .tc main_arg3) = V (Proc.devRef (τ := τ) .tc main_arg3)
      ∧ after (opsA (F := F)) V (Proc.devRef (τ := τ) .tc main_arg4) = V (Proc.devRef (τ := τ) .tc main_arg4)
      ∧ after (opsA (F := F)) V (Proc.devRef (τ := τ) .tc main_arg5) = V (Proc.devRef (τ := τ) .tc main_arg5)
      ∧ after (opsA (F := F)) V (Proc.devRef (τ := τ) .tc main_arg6) = V (Proc.devRef (τ := τ) .tc main_arg6)
      ∧ after (opsA (F := F)) V (Proc.devRef (τ := τ) .tc main_arg7) = V (Proc.devRef (τ := τ) .tc main_arg7)
      ∧ after (opsA (F := F)) V (Proc.devRef (τ := τ) .tc main_arg8) = V (Proc.devRef (τ := τ) .tc main_arg8)
      ∧ after (opsA (F := F)) V (Proc.devRef (τ := τ) .tc main_arg9) = V (Proc.devRef (τ := τ) .tc main_arg9) := by
  refine ⟨?_, ?_, ?_, ?_, ?_, ?_, ?_, ?_, ?_, ?_⟩ <;> after_results_simp

set_option maxRecDepth 8192 in
set_option maxHeartbeats 4000000 in
theorem keptB (V : Valuation τ sig (Elt F)) :
    after (opsB (F := F)) V (Proc.devRef (τ := τ) .tc main_arg0) = V (Proc.devRef (τ := τ) .tc main_arg0)
      ∧ after (opsB (F := F)) V (Proc.devRef (τ := τ) .tc main_arg1) = V (Proc.devRef (τ := τ) .tc main_arg1)
      ∧ after (opsB (F := F)) V (Proc.devRef (τ := τ) .tc main_arg2) = V (Proc.devRef (τ := τ) .tc main_arg2)
      ∧ after (opsB (F := F)) V (Proc.devRef (τ := τ) .tc main_arg3) = V (Proc.devRef (τ := τ) .tc main_arg3)
      ∧ after (opsB (F := F)) V (Proc.devRef (τ := τ) .tc main_arg4) = V (Proc.devRef (τ := τ) .tc main_arg4)
      ∧ after (opsB (F := F)) V (Proc.devRef (τ := τ) .tc main_arg5) = V (Proc.devRef (τ := τ) .tc main_arg5)
      ∧ after (opsB (F := F)) V (Proc.devRef (τ := τ) .tc main_arg6) = V (Proc.devRef (τ := τ) .tc main_arg6)
      ∧ after (opsB (F := F)) V (Proc.devRef (τ := τ) .tc main_arg7) = V (Proc.devRef (τ := τ) .tc main_arg7)
      ∧ after (opsB (F := F)) V (Proc.devRef (τ := τ) .tc main_arg8) = V (Proc.devRef (τ := τ) .tc main_arg8)
      ∧ after (opsB (F := F)) V (Proc.devRef (τ := τ) .tc main_arg9) = V (Proc.devRef (τ := τ) .tc main_arg9) := by
  refine ⟨?_, ?_, ?_, ?_, ?_, ?_, ?_, ?_, ?_, ?_⟩ <;> after_results_simp

set_option maxRecDepth 8192 in
set_option maxHeartbeats 4000000 in
theorem keptC (V : Valuation τ sig (Elt F)) :
    after (opsC (F := F)) V (Proc.devRef (τ := τ) .tc main_arg0) = V (Proc.devRef (τ := τ) .tc main_arg0)
      ∧ after (opsC (F := F)) V (Proc.devRef (τ := τ) .tc main_arg1) = V (Proc.devRef (τ := τ) .tc main_arg1)
      ∧ after (opsC (F := F)) V (Proc.devRef (τ := τ) .tc main_arg2) = V (Proc.devRef (τ := τ) .tc main_arg2)
      ∧ after (opsC (F := F)) V (Proc.devRef (τ := τ) .tc main_arg3) = V (Proc.devRef (τ := τ) .tc main_arg3)
      ∧ after (opsC (F := F)) V (Proc.devRef (τ := τ) .tc main_arg4) = V (Proc.devRef (τ := τ) .tc main_arg4)
      ∧ after (opsC (F := F)) V (Proc.devRef (τ := τ) .tc main_arg5) = V (Proc.devRef (τ := τ) .tc main_arg5)
      ∧ after (opsC (F := F)) V (Proc.devRef (τ := τ) .tc main_arg6) = V (Proc.devRef (τ := τ) .tc main_arg6)
      ∧ after (opsC (F := F)) V (Proc.devRef (τ := τ) .tc main_arg7) = V (Proc.devRef (τ := τ) .tc main_arg7)
      ∧ after (opsC (F := F)) V (Proc.devRef (τ := τ) .tc main_arg8) = V (Proc.devRef (τ := τ) .tc main_arg8)
      ∧ after (opsC (F := F)) V (Proc.devRef (τ := τ) .tc main_arg9) = V (Proc.devRef (τ := τ) .tc main_arg9)
      ∧ after (opsC (F := F)) V (Proc.devRef (τ := τ) .tc main_v43) = V (Proc.devRef (τ := τ) .tc main_v43) := by
  refine ⟨?_, ?_, ?_, ?_, ?_, ?_, ?_, ?_, ?_, ?_, ?_⟩ <;> after_results_simp

set_option maxRecDepth 8192 in
set_option maxHeartbeats 4000000 in
theorem keptD (V : Valuation τ sig (Elt F)) :
    after (opsD (F := F)) V (Proc.devRef (τ := τ) .tc main_arg0) = V (Proc.devRef (τ := τ) .tc main_arg0)
      ∧ after (opsD (F := F)) V (Proc.devRef (τ := τ) .tc main_arg1) = V (Proc.devRef (τ := τ) .tc main_arg1)
      ∧ after (opsD (F := F)) V (Proc.devRef (τ := τ) .tc main_arg2) = V (Proc.devRef (τ := τ) .tc main_arg2)
      ∧ after (opsD (F := F)) V (Proc.devRef (τ := τ) .tc main_arg3) = V (Proc.devRef (τ := τ) .tc main_arg3)
      ∧ after (opsD (F := F)) V (Proc.devRef (τ := τ) .tc main_arg4) = V (Proc.devRef (τ := τ) .tc main_arg4)
      ∧ after (opsD (F := F)) V (Proc.devRef (τ := τ) .tc main_arg5) = V (Proc.devRef (τ := τ) .tc main_arg5)
      ∧ after (opsD (F := F)) V (Proc.devRef (τ := τ) .tc main_arg6) = V (Proc.devRef (τ := τ) .tc main_arg6)
      ∧ after (opsD (F := F)) V (Proc.devRef (τ := τ) .tc main_arg7) = V (Proc.devRef (τ := τ) .tc main_arg7)
      ∧ after (opsD (F := F)) V (Proc.devRef (τ := τ) .tc main_arg8) = V (Proc.devRef (τ := τ) .tc main_arg8)
      ∧ after (opsD (F := F)) V (Proc.devRef (τ := τ) .tc main_arg9) = V (Proc.devRef (τ := τ) .tc main_arg9) := by
  refine ⟨?_, ?_, ?_, ?_, ?_, ?_, ?_, ?_, ?_, ?_⟩ <;> after_results_simp

set_option maxRecDepth 8192 in
set_option maxHeartbeats 4000000 in
/-- The attention output, from any contents. -/
theorem A_v18 (V : Valuation τ sig (Elt F)) :
    after (opsA (F := F)) V (Proc.devRef (τ := τ) .tc main_v18) = val_main_v18 (F := F) (V (Proc.devRef (τ := τ) .tc main_arg0)) := by
  after_results_simp <;> rfl

set_option maxRecDepth 8192 in
set_option maxHeartbeats 4000000 in
/-- The first normalisation's output, from contents holding the attention output. -/
theorem B_v43 (V : Valuation τ sig (Elt F)) (x0 : (⟨S4x2048x1024, .f32⟩ : BufTy).Contents (Elt F))
    (x6 x7 : (⟨S1024, .f32⟩ : BufTy).Contents (Elt F))
    (e0 : V (Proc.devRef (τ := τ) .tc main_arg0) = x0) (e6 : V (Proc.devRef (τ := τ) .tc main_arg6) = x6) (e7 : V (Proc.devRef (τ := τ) .tc main_arg7) = x7)
    (e18 : V (Proc.devRef (τ := τ) .tc main_v18) = val_main_v18 (F := F) x0) :
    after (opsB (F := F)) V (Proc.devRef (τ := τ) .tc main_v43) = val_main_v43 (F := F) x0 x6 x7 := by
  after_results_simp
  rw [e18, e0, e6, e7]
  rfl

set_option maxRecDepth 8192 in
set_option maxHeartbeats 4000000 in
/-- The perceptron's output, from contents holding the first normalisation's. -/
theorem C_v58 (V : Valuation τ sig (Elt F)) (x0 : (⟨S4x2048x1024, .f32⟩ : BufTy).Contents (Elt F))
    (x1 : (⟨S8, .f32⟩ : BufTy).Contents (Elt F)) (x2 : (⟨S4096x8, .f32⟩ : BufTy).Contents (Elt F))
    (x3 : (⟨S4096, .f32⟩ : BufTy).Contents (Elt F)) (x4 : (⟨S1024x4096, .f32⟩ : BufTy).Contents (Elt F))
    (x5 x6 x7 : (⟨S1024, .f32⟩ : BufTy).Contents (Elt F))
    (e1 : V (Proc.devRef (τ := τ) .tc main_arg1) = x1) (e2 : V (Proc.devRef (τ := τ) .tc main_arg2) = x2) (e3 : V (Proc.devRef (τ := τ) .tc main_arg3) = x3)
    (e4 : V (Proc.devRef (τ := τ) .tc main_arg4) = x4) (e5 : V (Proc.devRef (τ := τ) .tc main_arg5) = x5)
    (e43 : V (Proc.devRef (τ := τ) .tc main_v43) = val_main_v43 (F := F) x0 x6 x7) :
    after (opsC (F := F)) V (Proc.devRef (τ := τ) .tc main_v58) = val_main_v58 (F := F) x0 x1 x2 x3 x4 x5 x6 x7 := by
  after_results_simp
  simp only [ofBuf_toBuf]
  rw [e43, e1, e2, e3, e4, e5]
  rfl

set_option maxRecDepth 8192 in
set_option maxHeartbeats 4000000 in
/-- The result, from contents holding the first normalisation's and the perceptron's outputs. -/
theorem D_v83 (V : Valuation τ sig (Elt F)) (x0 : (⟨S4x2048x1024, .f32⟩ : BufTy).Contents (Elt F))
    (x1 : (⟨S8, .f32⟩ : BufTy).Contents (Elt F)) (x2 : (⟨S4096x8, .f32⟩ : BufTy).Contents (Elt F))
    (x3 : (⟨S4096, .f32⟩ : BufTy).Contents (Elt F)) (x4 : (⟨S1024x4096, .f32⟩ : BufTy).Contents (Elt F))
    (x5 x6 x7 x8 x9 : (⟨S1024, .f32⟩ : BufTy).Contents (Elt F))
    (e8 : V (Proc.devRef (τ := τ) .tc main_arg8) = x8) (e9 : V (Proc.devRef (τ := τ) .tc main_arg9) = x9)
    (e43 : V (Proc.devRef (τ := τ) .tc main_v43) = val_main_v43 (F := F) x0 x6 x7)
    (e58 : V (Proc.devRef (τ := τ) .tc main_v58) = val_main_v58 (F := F) x0 x1 x2 x3 x4 x5 x6 x7) :
    after (opsD (F := F)) V (Proc.devRef (τ := τ) .tc main_v83) = val_main_v83 (F := F) x0 x1 x2 x3 x4 x5 x6 x7 x8 x9 := by
  after_results_simp
  rw [e43, e58, e8, e9]
  rfl

/-- The whole line: the result buffer ends at `val_main_v83` of the arguments' contents. -/
theorem result (V : Valuation τ sig (Elt F)) :
    after (ops (F := F)) V (Proc.devRef (τ := τ) .tc main_v83)
      = val_main_v83 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4))
          (V (Proc.devRef (τ := τ) .tc main_arg5)) (V (Proc.devRef (τ := τ) .tc main_arg6)) (V (Proc.devRef (τ := τ) .tc main_arg7)) (V (Proc.devRef (τ := τ) .tc main_arg8)) (V (Proc.devRef (τ := τ) .tc main_arg9)) := by
  rw [after_ops]
  obtain ⟨a0, a1, a2, a3, a4, a5, a6, a7, a8, a9⟩ := keptA V
  obtain ⟨b0, b1, b2, b3, b4, b5, b6, b7, b8, b9⟩ := keptB (after opsA V)
  obtain ⟨c0, c1, c2, c3, c4, c5, c6, c7, c8, c9, c43⟩ := keptC (after opsB (after opsA V))
  have h18 := A_v18 V
  have h43 := B_v43 (after opsA V) _ _ _ a0 a6 a7 h18
  have h58 := C_v58 (after opsB (after opsA V)) _ _ _ _ _ _ _ _ (b1.trans a1) (b2.trans a2) (b3.trans a3) (b4.trans a4)
    (b5.trans a5) h43
  exact D_v83 (after opsC (after opsB (after opsA V))) _ _ _ _ _ _ _ _ _ _ (c8.trans (b8.trans a8)) (c9.trans (b9.trans a9))
    (c43.trans h43) h58

/-- An argument's buffer is as launched after the whole line. -/
theorem kept (V : Valuation τ sig (Elt F)) :
    after (ops (F := F)) V (Proc.devRef (τ := τ) .tc main_arg0) = V (Proc.devRef (τ := τ) .tc main_arg0)
      ∧ after (ops (F := F)) V (Proc.devRef (τ := τ) .tc main_arg1) = V (Proc.devRef (τ := τ) .tc main_arg1)
      ∧ after (ops (F := F)) V (Proc.devRef (τ := τ) .tc main_arg2) = V (Proc.devRef (τ := τ) .tc main_arg2)
      ∧ after (ops (F := F)) V (Proc.devRef (τ := τ) .tc main_arg3) = V (Proc.devRef (τ := τ) .tc main_arg3)
      ∧ after (ops (F := F)) V (Proc.devRef (τ := τ) .tc main_arg4) = V (Proc.devRef (τ := τ) .tc main_arg4)
      ∧ after (ops (F := F)) V (Proc.devRef (τ := τ) .tc main_arg5) = V (Proc.devRef (τ := τ) .tc main_arg5)
      ∧ after (ops (F := F)) V (Proc.devRef (τ := τ) .tc main_arg6) = V (Proc.devRef (τ := τ) .tc main_arg6)
      ∧ after (ops (F := F)) V (Proc.devRef (τ := τ) .tc main_arg7) = V (Proc.devRef (τ := τ) .tc main_arg7)
      ∧ after (ops (F := F)) V (Proc.devRef (τ := τ) .tc main_arg8) = V (Proc.devRef (τ := τ) .tc main_arg8)
      ∧ after (ops (F := F)) V (Proc.devRef (τ := τ) .tc main_arg9) = V (Proc.devRef (τ := τ) .tc main_arg9) := by
  rw [after_ops]
  obtain ⟨a0, a1, a2, a3, a4, a5, a6, a7, a8, a9⟩ := keptA V
  obtain ⟨b0, b1, b2, b3, b4, b5, b6, b7, b8, b9⟩ := keptB (after opsA V)
  obtain ⟨c0, c1, c2, c3, c4, c5, c6, c7, c8, c9, _⟩ := keptC (after opsB (after opsA V))
  obtain ⟨d0, d1, d2, d3, d4, d5, d6, d7, d8, d9⟩ := keptD (after opsC (after opsB (after opsA V)))
  exact ⟨d0.trans (c0.trans (b0.trans a0)), d1.trans (c1.trans (b1.trans a1)), d2.trans (c2.trans (b2.trans a2)),
    d3.trans (c3.trans (b3.trans a3)), d4.trans (c4.trans (b4.trans a4)), d5.trans (c5.trans (b5.trans a5)),
    d6.trans (c6.trans (b6.trans a6)), d7.trans (c7.trans (b7.trans a7)), d8.trans (c8.trans (b8.trans a8)),
    d9.trans (c9.trans (b9.trans a9))⟩

/-- On every device, from any memory with zero counters: every weakly fair execution of @main terminates with the
    result buffer at `val_main_v83` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      obtain ⟨k0, k1, k2, k3, k4, k5, k6, k7, k8, k9⟩ := kept (F := F) (launchContents m c)
      exact ⟨(h c main_v83).trans (result (launchContents m c)), (h c main_arg0).trans k0, (h c main_arg1).trans k1,
        (h c main_arg2).trans k2, (h c main_arg3).trans k3, (h c main_arg4).trans k4, (h c main_arg5).trans k5,
        (h c main_arg6).trans k6, (h c main_arg7).trans k7, (h c main_arg8).trans k8, (h c main_arg9).trans k9⟩)
    (run_seq scopedRefs_eq scopedSems_eq defs main (fun _ => ops) main_eq (fun _ => ops_sub) m ρ)

end Cert.RefRun

end
-- ==== Proof.Consts.lean ====
/-
  The float words the two programs spell, as extended reals, and the two scalar laws that join the programs:
  scaling by the word for 1/8 is dividing by the word for 8, and the maximum with the word for -∞ changes nothing.
-/
import Idealize.ShloMosaic.PureOps.Ideal
import Idealize.ShloMosaic.PureOps.Ideal.Laws

noncomputable section

namespace Cert.Consts

open Idealize.ShloMosaic

/-- The word `0x3E000000` denotes the real `1/8`. -/
theorem ofBits_eighth : Ideal.ofBits .f32 0x3E000000#32 = ((1 / 8 : ℝ) : EReal) := by
  simp [Ideal.ofBits, Ideal.ieee, -EReal.coe_mul]; norm_num

/-- The word `0x41000000` denotes the real `8`. -/
theorem ofBits_eight : Ideal.ofBits .f32 0x41000000#32 = ((8 : ℝ) : EReal) := by
  simp [Ideal.ofBits, Ideal.ieee, -EReal.coe_mul]; norm_num

/-- The word `0xFF800000` denotes `-∞`. -/
theorem ofBits_ninf : Ideal.ofBits .f32 0xFF800000#32 = (⊥ : EReal) := by
  simp [Ideal.ofBits, Ideal.ieee]

/-- Dividing by `8` is scaling by `1/8`, on every extended real. -/
theorem div_eight (x : EReal) :
    Ideal.div x (Ideal.ofBits .f32 0x41000000#32) = x * Ideal.ofBits .f32 0x3E000000#32 := by
  rw [ofBits_eight, ofBits_eighth, Ideal.div_coe (by norm_num : (8 : ℝ) ≠ 0)]

/-- The maximum with `-∞` is the other argument. -/
theorem max_ninf (x : EReal) : max (Ideal.ofBits .f32 0xFF800000#32) x = x := by
  rw [ofBits_ninf]; exact max_eq_right bot_le

end Cert.Consts

end
-- ==== Proof.RefSpec.lean ====
/-
  The reference program's value is the specification function.

  The reference is read one operation at a time (the module that reads it gives each operation's value at an index
  from its operands' values at indices).  Here those readings are composed along the program: the attention of a
  slab row (scores, their row maximum, the exponentials, their sum, the weights, the weighted sum of the rows), the
  two layer normalisations, and the perceptron between them.  Each step names the entry it reads by its
  coordinates: batch, head, row, column.  The reference and the specification differ in form at two places only:
  the reference divides the scores by the word for 8 where the specification scales by the word for 1/8, and it
  takes one more maximum with -∞ after the row maximum.
-/
import proofs.«138895_j65481071410061_2_alg».proof.Proof.RefRead
import proofs.«138895_j65481071410061_2_alg».proof.Proof.Spec
import proofs.«138895_j65481071410061_2_alg».proof.Proof.Consts
import Idealize.ShloMosaic.Lib.ValueIdx
import Idealize.ShloMosaic.Lib.Pipeline.Value
import Idealize.ShloMosaic.PureOps.Ideal.Laws
import Idealize.ShloMosaic.PureOps.Reduce

noncomputable section

namespace Cert.RefSpec

open Cert.ReferenceIdeal Cert.ReferenceIdeal.Gen Cert.RefRead Cert.Spec
open Idealize.ShloMosaic Idealize.ShloMosaic.ValueIdx Idealize.SL.Sem

/-- Two indices of rank 1, 2, 3 or 4 whose coordinates agree by computation are equal. -/
macro "idx1" : tactic => `(tactic| (funext a; apply Fin.ext; match a with | ⟨0, _⟩ => rfl))
macro "idx2" : tactic => `(tactic| (funext a; apply Fin.ext; match a with | ⟨0, _⟩ => rfl | ⟨1, _⟩ => rfl))
macro "idx3" : tactic => `(tactic| (funext a; apply Fin.ext; match a with | ⟨0, _⟩ => rfl | ⟨1, _⟩ => rfl | ⟨2, _⟩ => rfl))
macro "idx4" : tactic =>
  `(tactic| (funext a; apply Fin.ext; match a with | ⟨0, _⟩ => rfl | ⟨1, _⟩ => rfl | ⟨2, _⟩ => rfl | ⟨3, _⟩ => rfl))

variable (x0 : (⟨S4x2048x1024, .f32⟩ : BufTy).Contents (Elt Ideal))

/-! ## The attention -/

/-- The query row of head `h` at row `s` of batch `b`'s slab, and the head's key rows. -/
abbrev qrow (b : Fin 4) (h : Fin 16) (s : Fin 2048) : Fin 64 → EReal := fun d => x0 (ix3 b s (colOf h d))
abbrev krows (b : Fin 4) (h : Fin 16) : Fin 2048 → Fin 64 → EReal := fun k d => x0 (ix3 b k (colOf h d))

/-- The heads split off and moved in front of the rows: entry `(b, h, s, d)` is the slab's `(b, s, 64h + d)`. -/
theorem v1_eq (b : Fin 4) (h : Fin 16) (s : Fin 2048) (d : Fin 64) :
    val_main_v1 (F := Ideal) x0 (ix4 b h s d) = x0 (ix3 b s (colOf h d)) := by
  rw [val_main_v1_apply, val_main_v0_apply]
  refine congrArg x0 (funext fun a => Fin.ext ?_)
  have hb := b.isLt; have hh := h.isLt; have hs := s.isLt; have hd := d.isLt
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The unscaled scores. -/
theorem v2_eq (b : Fin 4) (h : Fin 16) (s k : Fin 2048) :
    val_main_v2 (F := Ideal) x0 (ix4 b h s k) = ∑ d : Fin 64, qrow x0 b h s d * krows x0 b h k d := by
  rw [val_main_v2_apply]
  refine Finset.sum_congr rfl fun d _ => ?_
  have el : lidx_main_v2 (ix4 b h s k) d = ix4 b h s d := by idx4
  have er : ridx_main_v2 (ix4 b h s k) d = ix4 b h k d := by idx4
  rw [el, er, v1_eq, v1_eq]

/-- The scores: dividing by the word for 8 is scaling by the word for 1/8. -/
theorem v4_eq (b : Fin 4) (h : Fin 16) (s k : Fin 2048) :
    val_main_v4 (F := Ideal) x0 (ix4 b h s k) = hsc (qrow x0 b h s) (krows x0 b h) k := by
  rw [val_main_v4_apply, val_main_v3_apply, val_main_cst_apply, Ideal.hostDivf_def, Ideal.ofBits_def, v2_eq,
    Cert.Consts.div_eight]
  rfl

/-- The row maximum: the fold of `max` over the row's scores; the further maximum with -∞ changes nothing. -/
theorem v7_eq (b : Fin 4) (h : Fin 16) (s : Fin 2048) :
    val_main_v7 (F := Ideal) x0 (ix3 b h s) = hmx (qrow x0 b h s) (krows x0 b h) := by
  rw [val_main_v7_apply, val_main_v6_apply, val_main_cst_1_apply, Ideal.maximumf_def, Ideal.ofBits_def,
    Cert.Consts.max_ninf]
  have hR : S4x16x2048x2048.Reduces [3] S4x16x2048 := by decide
  unfold val_main_v5
  rw [Host.reduce_eq_fold_single FloatOps.maximumf _ _ reducesTo_S4x16x2048x2048_S4x16x2048_d3 hR h_S_]
  have e : (val_main_v4 (F := Ideal) x0 ∘ hR.lift (ix3 b h s)) = fun k : Fin 2048 => hsc (qrow x0 b h s) (krows x0 b h) k := by
    refine funext fun (k : Fin 2048) => ?_
    show val_main_v4 (F := Ideal) x0 (hR.lift (ix3 b h s) k) = _
    have e' : hR.lift (ix3 b h s) k = ix4 b h s k := by idx4
    rw [e', v4_eq]
  rw [e]
  rfl

/-- The exponential of a score less its row's maximum. -/
theorem v11_eq (b : Fin 4) (h : Fin 16) (s k : Fin 2048) :
    val_main_v11 (F := Ideal) x0 (ix4 b h s k) = hpe (qrow x0 b h s) (krows x0 b h) k := by
  rw [val_main_v11_apply, val_main_v10_apply, val_main_v9_apply, val_main_v8_apply, Ideal.hostUnary_exp_def,
    Ideal.subf_def, v4_eq]
  have e : idx_main_v8 (idx_main_v9 (ix4 b h s k)) = ix3 b h s := by idx3
  rw [e, v7_eq]
  rfl

/-- The softmax denominator: the float sum starts from the word 0. -/
theorem v12_eq (b : Fin 4) (h : Fin 16) (s : Fin 2048) :
    val_main_v12 (F := Ideal) x0 (ix3 b h s) = hden (qrow x0 b h s) (krows x0 b h) := by
  rw [val_main_v12_apply, val_main_cst_2_apply, Ideal.ofBits_def, Ideal.ofBits_zero_f32, zero_add]
  refine Finset.sum_congr rfl fun k _ => ?_
  have e : idx_main_v12 (ix3 b h s) k = ix4 b h s k := by idx4
  rw [e, v11_eq]

/-- The softmax weight. -/
theorem v15_eq (b : Fin 4) (h : Fin 16) (s k : Fin 2048) :
    val_main_v15 (F := Ideal) x0 (ix4 b h s k)
      = Ideal.div (hpe (qrow x0 b h s) (krows x0 b h) k) (hden (qrow x0 b h s) (krows x0 b h)) := by
  rw [val_main_v15_apply, val_main_v14_apply, val_main_v13_apply, Ideal.hostDivf_def, v11_eq]
  have e : idx_main_v13 (idx_main_v14 (ix4 b h s k)) = ix3 b h s := by idx3
  rw [e, v12_eq]

/-- The head's output: the weighted sum of the key rows. -/
theorem v16_eq (b : Fin 4) (h : Fin 16) (s : Fin 2048) (d : Fin 64) :
    val_main_v16 (F := Ideal) x0 (ix4 b h s d) = hout (qrow x0 b h s) (krows x0 b h) d := by
  rw [val_main_v16_apply]
  refine Finset.sum_congr rfl fun k _ => ?_
  have el : lidx_main_v16 (ix4 b h s d) k = ix4 b h s k := by idx4
  have er : ridx_main_v16 (ix4 b h s d) k = ix4 b h k d := by idx4
  rw [el, er, v15_eq, v1_eq]

/-- The heads moved back behind the rows and merged: the attention output of slab row `s` at column `e`. -/
theorem v18_eq (b : Fin 4) (s : Fin 2048) (e : Fin 1024) :
    val_main_v18 (F := Ideal) x0 (ix3 b s e) = att (fun s' e' => x0 (ix3 b s' e')) s e := by
  rw [val_main_v18_apply, val_main_v17_apply]
  have e1 : idx_main_v17 (idx_main_v18 (ix3 b s e)) = ix4 b (headOf e) s (laneOf e) := by
    funext a
    apply Fin.ext
    have hb := b.isLt; have hs := s.isLt; have he := e.isLt
    match a with
    | ⟨0, _⟩ => show ((b.val * 2048 + s.val) * 1024 + e.val) / 2097152 = b.val; omega
    | ⟨1, _⟩ => show ((b.val * 2048 + s.val) * 1024 + e.val) / 64 % 16 = e.val / 64; omega
    | ⟨2, _⟩ => show ((b.val * 2048 + s.val) * 1024 + e.val) / 1024 % 2048 = s.val; omega
    | ⟨3, _⟩ => show ((b.val * 2048 + s.val) * 1024 + e.val) % 64 = e.val % 64; omega
  rw [e1, v16_eq]
  rfl

/-! ## The first layer normalisation -/

/-- The row the first normalisation reads: the slab row plus its attention output. -/
abbrev r1 (b : Fin 4) (s : Fin 2048) : Fin 1024 → EReal :=
  fun e => x0 (ix3 b s e) + val_main_v18 (F := Ideal) x0 (ix3 b s e)

/-- A parameter vector read by its one coordinate. -/
abbrev pv {n : ℕ} (x : (⟨⟨1, ![n]⟩, .f32⟩ : BufTy).Contents (Elt Ideal)) : Fin n → EReal := fun e => x (ix1 e)

/-- The row's mean: the float sum starts from the word 0. -/
theorem v23_eq (b : Fin 4) (s : Fin 2048) (z : Fin 1) :
    val_main_v23 (F := Ideal) x0 (ix3 b s z) = mean (r1 x0 b s) := by
  rw [val_main_v23_apply, val_main_v22_apply, val_main_cst_4_apply, val_main_v21_apply, Ideal.hostDivf_def,
    Ideal.ofBits_def]
  have e : idx_main_v21 (ix3 b s z) = ix2 b s := by idx2
  rw [e, val_main_v20_apply, val_main_cst_3_apply, Ideal.ofBits_def, Ideal.ofBits_zero_f32, zero_add]
  refine congrArg (Ideal.div · c1024) (Finset.sum_congr rfl fun k _ => ?_)
  have e2 : idx_main_v20 (ix2 b s) k = ix3 b s k := by idx3
  rw [e2]
  rfl

/-- An entry less the row's mean, as the variance reads it … -/
theorem v25_eq (b : Fin 4) (s : Fin 2048) (e : Fin 1024) :
    val_main_v25 (F := Ideal) x0 (ix3 b s e) = r1 x0 b s e - mean (r1 x0 b s) := by
  rw [val_main_v25_apply, val_main_v24_apply, Ideal.subf_def]
  have e1 : idx_main_v24 (ix3 b s e) = ix3 b s ⟨0, Nat.one_pos⟩ := by idx3
  rw [e1, v23_eq]
  rfl

/-- … and as the normalised entry reads it. -/
theorem v32_eq (b : Fin 4) (s : Fin 2048) (e : Fin 1024) :
    val_main_v32 (F := Ideal) x0 (ix3 b s e) = r1 x0 b s e - mean (r1 x0 b s) := by
  rw [val_main_v32_apply, val_main_v31_apply, Ideal.subf_def]
  have e1 : idx_main_v31 (ix3 b s e) = ix3 b s ⟨0, Nat.one_pos⟩ := by idx3
  rw [e1, v23_eq]
  rfl

/-- The row's variance. -/
theorem v30_eq (b : Fin 4) (s : Fin 2048) (z : Fin 1) :
    val_main_v30 (F := Ideal) x0 (ix3 b s z)
      = Ideal.div (∑ e' : Fin 1024, (r1 x0 b s e' - mean (r1 x0 b s)) * (r1 x0 b s e' - mean (r1 x0 b s))) c1024 := by
  rw [val_main_v30_apply, val_main_v29_apply, val_main_cst_6_apply, val_main_v28_apply, Ideal.hostDivf_def,
    Ideal.ofBits_def]
  have e : idx_main_v28 (ix3 b s z) = ix2 b s := by idx2
  rw [e, val_main_v27_apply, val_main_cst_5_apply, Ideal.ofBits_def, Ideal.ofBits_zero_f32, zero_add]
  refine congrArg (Ideal.div · c1024) (Finset.sum_congr rfl fun k _ => ?_)
  have e2 : idx_main_v27 (ix2 b s) k = ix3 b s k := by idx3
  rw [e2, val_main_v26_apply, Ideal.mulf_def, v25_eq]

/-- The normalised row. -/
theorem v43_eq (x6 x7 : (⟨S1024, .f32⟩ : BufTy).Contents (Elt Ideal)) (b : Fin 4) (s : Fin 2048) (e : Fin 1024) :
    val_main_v43 (F := Ideal) x0 x6 x7 (ix3 b s e) = lnorm (r1 x0 b s) (pv x6) (pv x7) e := by
  rw [val_main_v43_apply, val_main_v42_apply, val_main_v41_apply, val_main_v40_apply, val_main_v39_apply,
    val_main_v38_apply, val_main_v37_apply, val_main_v36_apply, val_main_v35_apply, val_main_v34_apply,
    val_main_v33_apply, val_main_cst_7_apply, v32_eq]
  have e1 : idx_main_v36 (ix3 b s e) = ix3 b s ⟨0, Nat.one_pos⟩ := by idx3
  have e2 : idx_main_v38 (idx_main_v39 (ix3 b s e)) = ix1 e := by idx1
  have e3 : idx_main_v41 (idx_main_v42 (ix3 b s e)) = ix1 e := by idx1
  rw [e1, e2, e3, v30_eq]
  rfl

/-! ## The perceptron -/

/-- The normalised row the perceptron reads, and the parameters as the specification reads them (the two weight
    matrices transposed). -/
abbrev hrow (x6 x7 : (⟨S1024, .f32⟩ : BufTy).Contents (Elt Ideal)) (b : Fin 4) (s : Fin 2048) : Fin 1024 → EReal :=
  fun e => val_main_v43 (F := Ideal) x0 x6 x7 (ix3 b s e)
abbrev pw1 (x2 : (⟨S4096x8, .f32⟩ : BufTy).Contents (Elt Ideal)) : Fin 8 → Fin 4096 → EReal := fun q f => x2 (ix2 f q)
abbrev pw2 (x4 : (⟨S1024x4096, .f32⟩ : BufTy).Contents (Elt Ideal)) : Fin 4096 → Fin 1024 → EReal :=
  fun f e => x4 (ix2 e f)

variable (x1 : (⟨S8, .f32⟩ : BufTy).Contents (Elt Ideal)) (x2 : (⟨S4096x8, .f32⟩ : BufTy).Contents (Elt Ideal))
  (x3 : (⟨S4096, .f32⟩ : BufTy).Contents (Elt Ideal)) (x4 : (⟨S1024x4096, .f32⟩ : BufTy).Contents (Elt Ideal))
  (x5 x6 x7 x8 x9 : (⟨S1024, .f32⟩ : BufTy).Contents (Elt Ideal))

/-- The eight inputs of the perceptron. -/
theorem v49_eq (b : Fin 4) (s : Fin 2048) (q : Fin 8) :
    val_main_v49 (F := Ideal) x0 x1 x6 x7 (ix3 b s q) = qo (hrow x0 x6 x7 b s) (pv x1) q := by
  rw [val_main_v49_apply, val_main_v48_apply, val_main_v47_apply, val_main_v46_apply, val_main_v45_apply,
    val_main_v44_apply]
  have e1 : idx_main_v44 (ix3 b s q) = ix3 b s (lead q) := by idx3
  have e2 : idx_main_v47 (idx_main_v48 (ix3 b s q)) = ix1 q := by idx1
  rw [e1, e2]
  rfl

/-- The hidden layer before the rectifier. -/
theorem v53_eq (b : Fin 4) (s : Fin 2048) (f : Fin 4096) :
    val_main_v53 (F := Ideal) x0 x1 x2 x3 x6 x7 (ix3 b s f)
      = (∑ q : Fin 8, qo (hrow x0 x6 x7 b s) (pv x1) q * pw1 x2 q f) + pv x3 f := by
  rw [val_main_v53_apply, val_main_v52_apply, val_main_v51_apply, val_main_v50_apply, Ideal.addf_def]
  have e1 : idx_main_v51 (idx_main_v52 (ix3 b s f)) = ix1 f := by idx1
  rw [e1]
  refine congrArg (· + pv x3 f) (Finset.sum_congr rfl fun q _ => ?_)
  have el : lidx_main_v50 (ix3 b s f) q = ix3 b s q := by idx3
  have er : ridx_main_v50 (ix3 b s f) q = ix2 f q := by idx2
  rw [el, er, v49_eq]

/-- The hidden layer. -/
theorem v54_eq (b : Fin 4) (s : Fin 2048) (f : Fin 4096) :
    val_main_v54 (F := Ideal) x0 x1 x2 x3 x6 x7 (ix3 b s f) = hid (hrow x0 x6 x7 b s) (pv x1) (pw1 x2) (pv x3) f := by
  rw [val_main_v54_apply, val_main_call0_v0_apply, val_main_call0_cst_apply, Ideal.maximumf_def, Ideal.ofBits_def,
    v53_eq]
  rfl

/-- The perceptron's output. -/
theorem v58_eq (b : Fin 4) (s : Fin 2048) (e : Fin 1024) :
    val_main_v58 (F := Ideal) x0 x1 x2 x3 x4 x5 x6 x7 (ix3 b s e)
      = ffn (hrow x0 x6 x7 b s) (pv x1) (pw1 x2) (pv x3) (pw2 x4) (pv x5) e := by
  rw [val_main_v58_apply, val_main_v57_apply, val_main_v56_apply, val_main_v55_apply, Ideal.addf_def]
  have e1 : idx_main_v56 (idx_main_v57 (ix3 b s e)) = ix1 e := by idx1
  rw [e1]
  refine congrArg (· + pv x5 e) (Finset.sum_congr rfl fun f _ => ?_)
  have el : lidx_main_v55 (ix3 b s e) f = ix3 b s f := by idx3
  have er : ridx_main_v55 (ix3 b s e) f = ix2 e f := by idx2
  rw [el, er, v54_eq]

/-! ## The second layer normalisation -/

/-- The row the second normalisation reads: the normalised row plus the perceptron's output. -/
abbrev r2 (b : Fin 4) (s : Fin 2048) : Fin 1024 → EReal :=
  fun e => val_main_v43 (F := Ideal) x0 x6 x7 (ix3 b s e)
    + val_main_v58 (F := Ideal) x0 x1 x2 x3 x4 x5 x6 x7 (ix3 b s e)

/-- The second row's mean. -/
theorem v63_eq (b : Fin 4) (s : Fin 2048) (z : Fin 1) :
    val_main_v63 (F := Ideal) x0 x1 x2 x3 x4 x5 x6 x7 (ix3 b s z) = mean (r2 x0 x1 x2 x3 x4 x5 x6 x7 b s) := by
  rw [val_main_v63_apply, val_main_v62_apply, val_main_cst_9_apply, val_main_v61_apply, Ideal.hostDivf_def,
    Ideal.ofBits_def]
  have e : idx_main_v61 (ix3 b s z) = ix2 b s := by idx2
  rw [e, val_main_v60_apply, val_main_cst_8_apply, Ideal.ofBits_def, Ideal.ofBits_zero_f32, zero_add]
  refine congrArg (Ideal.div · c1024) (Finset.sum_congr rfl fun k _ => ?_)
  have e2 : idx_main_v60 (ix2 b s) k = ix3 b s k := by idx3
  rw [e2]
  rfl

/-- An entry of the second row less its mean, as the variance reads it … -/
theorem v65_eq (b : Fin 4) (s : Fin 2048) (e : Fin 1024) :
    val_main_v65 (F := Ideal) x0 x1 x2 x3 x4 x5 x6 x7 (ix3 b s e)
      = r2 x0 x1 x2 x3 x4 x5 x6 x7 b s e - mean (r2 x0 x1 x2 x3 x4 x5 x6 x7 b s) := by
  rw [val_main_v65_apply, val_main_v64_apply, Ideal.subf_def]
  have e1 : idx_main_v64 (ix3 b s e) = ix3 b s ⟨0, Nat.one_pos⟩ := by idx3
  rw [e1, v63_eq]
  rfl

/-- … and as the normalised entry reads it. -/
theorem v72_eq (b : Fin 4) (s : Fin 2048) (e : Fin 1024) :
    val_main_v72 (F := Ideal) x0 x1 x2 x3 x4 x5 x6 x7 (ix3 b s e)
      = r2 x0 x1 x2 x3 x4 x5 x6 x7 b s e - mean (r2 x0 x1 x2 x3 x4 x5 x6 x7 b s) := by
  rw [val_main_v72_apply, val_main_v71_apply, Ideal.subf_def]
  have e1 : idx_main_v71 (ix3 b s e) = ix3 b s ⟨0, Nat.one_pos⟩ := by idx3
  rw [e1, v63_eq]
  rfl

/-- The second row's variance. -/
theorem v70_eq (b : Fin 4) (s : Fin 2048) (z : Fin 1) :
    val_main_v70 (F := Ideal) x0 x1 x2 x3 x4 x5 x6 x7 (ix3 b s z)
      = Ideal.div (∑ e' : Fin 1024, (r2 x0 x1 x2 x3 x4 x5 x6 x7 b s e' - mean (r2 x0 x1 x2 x3 x4 x5 x6 x7 b s))
          * (r2 x0 x1 x2 x3 x4 x5 x6 x7 b s e' - mean (r2 x0 x1 x2 x3 x4 x5 x6 x7 b s))) c1024 := by
  rw [val_main_v70_apply, val_main_v69_apply, val_main_cst_11_apply, val_main_v68_apply, Ideal.hostDivf_def,
    Ideal.ofBits_def]
  have e : idx_main_v68 (ix3 b s z) = ix2 b s := by idx2
  rw [e, val_main_v67_apply, val_main_cst_10_apply, Ideal.ofBits_def, Ideal.ofBits_zero_f32, zero_add]
  refine congrArg (Ideal.div · c1024) (Finset.sum_congr rfl fun k _ => ?_)
  have e2 : idx_main_v67 (ix2 b s) k = ix3 b s k := by idx3
  rw [e2, val_main_v66_apply, Ideal.mulf_def, v65_eq]

/-- The second normalised row: the result. -/
theorem v83_eq (b : Fin 4) (s : Fin 2048) (e : Fin 1024) :
    val_main_v83 (F := Ideal) x0 x1 x2 x3 x4 x5 x6 x7 x8 x9 (ix3 b s e)
      = lnorm (r2 x0 x1 x2 x3 x4 x5 x6 x7 b s) (pv x8) (pv x9) e := by
  rw [val_main_v83_apply, val_main_v82_apply, val_main_v81_apply, val_main_v80_apply, val_main_v79_apply,
    val_main_v78_apply, val_main_v77_apply, val_main_v76_apply, val_main_v75_apply, val_main_v74_apply,
    val_main_v73_apply, val_main_cst_12_apply, v72_eq]
  have e1 : idx_main_v76 (ix3 b s e) = ix3 b s ⟨0, Nat.one_pos⟩ := by idx3
  have e2 : idx_main_v78 (idx_main_v79 (ix3 b s e)) = ix1 e := by idx1
  have e3 : idx_main_v81 (idx_main_v82 (ix3 b s e)) = ix1 e := by idx1
  rw [e1, e2, e3, v70_eq]
  rfl

/-! ## The whole result -/

open Cert.ReferenceIdeal in
/-- The reference's result array is the specification's, entry by entry. -/
theorem ref_eq (x0 : (⟨S4x2048x1024, .f32⟩ : BufTy).Contents (Elt Ideal)) (x1 : (⟨S8, .f32⟩ : BufTy).Contents (Elt Ideal))
    (x2 : (⟨S4096x8, .f32⟩ : BufTy).Contents (Elt Ideal)) (x3 : (⟨S4096, .f32⟩ : BufTy).Contents (Elt Ideal))
    (x4 : (⟨S1024x4096, .f32⟩ : BufTy).Contents (Elt Ideal))
    (x5 x6 x7 x8 x9 : (⟨S1024, .f32⟩ : BufTy).Contents (Elt Ideal)) :
    Cert.RefRead.val_main_v83 (F := Ideal) x0 x1 x2 x3 x4 x5 x6 x7 x8 x9
      = Cert.Spec.G x0 x1 x2 x3 x4 x5 x6 x7 x8 x9 := by
  funext i
  obtain ⟨b, s, e, rfl⟩ : ∃ b s e, i = ix3 b s e := ⟨i 0, i 1, i 2, eq_ix3 i⟩
  -- the first normalisation's row, the normalised row, and the second normalisation's row, as the specification
  -- spells them
  have hr1 : r1 x0 b s = fun e'' => x0 (ix3 b s e'') + att (fun s' e' => x0 (ix3 b s' e')) s e'' :=
    funext fun e'' => by
      show x0 (ix3 b s e'') + val_main_v18 (F := Ideal) x0 (ix3 b s e'') = _
      rw [v18_eq]
  have hh : hrow x0 x6 x7 b s
      = lnorm (fun e'' => x0 (ix3 b s e'') + att (fun s' e' => x0 (ix3 b s' e')) s e'') (pv x6) (pv x7) :=
    funext fun e' => by
      show val_main_v43 (F := Ideal) x0 x6 x7 (ix3 b s e') = _
      rw [v43_eq, hr1]
  have hr2 : r2 x0 x1 x2 x3 x4 x5 x6 x7 b s
      = fun e' => lnorm (fun e'' => x0 (ix3 b s e'') + att (fun s' e' => x0 (ix3 b s' e')) s e'') (pv x6) (pv x7) e'
          + ffn (lnorm (fun e'' => x0 (ix3 b s e'') + att (fun s' e' => x0 (ix3 b s' e')) s e'') (pv x6) (pv x7))
              (pv x1) (pw1 x2) (pv x3) (pw2 x4) (pv x5) e' :=
    funext fun e' => by
      show val_main_v43 (F := Ideal) x0 x6 x7 (ix3 b s e')
        + val_main_v58 (F := Ideal) x0 x1 x2 x3 x4 x5 x6 x7 (ix3 b s e') = _
      rw [v58_eq, hh, v43_eq, hr1]
  rw [v83_eq, hr2]
  rfl

end Cert.RefSpec

end
-- ==== Proof.lean ====
/-
  The kernel fuses self-attention (sixteen heads of 64 columns, query = key = value = the input), a layer
  normalisation, a perceptron fed by `cos · cos θ` of the first eight normalised entries, and a second layer
  normalisation, one grid point per batch and per tile of 256 rows; the reference computes the same layer with
  whole-array operations.  On the extended reals both are `Spec.G` of the ten argument arrays, entry by entry:
  the kernel's blocks are restrictions of `G` and tile the result (`KBlocks`), the reference's composed term is `G`
  (`RefSpec`); the only two places where the spellings differ are the score scale (a product with 1/8 against a
  quotient by 8, equal on every extended real) and a maximum with -∞ that changes nothing.  No precondition on the
  inputs is used.  The ideal pass rewrote nothing, so the idealization claim is trivial.
-/
import proofs.«138895_j65481071410061_2_alg».proof.Defs
import proofs.«138895_j65481071410061_2_alg».proof.Proof.Gen.Kernel
import proofs.«138895_j65481071410061_2_alg».proof.Proof.Gen.Kernel.Frame
import proofs.«138895_j65481071410061_2_alg».proof.Proof.Gen.KernelIdeal
import proofs.«138895_j65481071410061_2_alg».proof.Proof.Gen.KernelIdeal.Frame
import proofs.«138895_j65481071410061_2_alg».proof.Proof.Gen.KernelIdeal.Value
import proofs.«138895_j65481071410061_2_alg».proof.Proof.Gen.ReferenceIdeal
import proofs.«138895_j65481071410061_2_alg».proof.Proof.Gen.Pre_finite_inputs
import proofs.«138895_j65481071410061_2_alg».proof.Proof.KBlocks
import proofs.«138895_j65481071410061_2_alg».proof.Proof.RefRun
import proofs.«138895_j65481071410061_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as they were: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run (F := Ideal) m ρ)

/-- From memories agreeing on the arguments both programs end with the result array at `Spec.G` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KBlocks.GK m c, Cert.KBlocks.run m ρ, ?_⟩
  refine (θ_run Cert.ReferenceIdeal.defs _ _).mono (fun _ h c => ⟨(h c).1.trans ?_, (h c).2⟩)
    (Cert.RefRun.run (F := Ideal) m' ρ')
  obtain ⟨a0, a1, a2, a3, a4, a5, a6, a7, a8, a9⟩ := hagree c
  rw [Cert.RefSpec.ref_eq, a0, a1, a2, a3, a4, a5, a6, a7, a8, a9]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
